-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v92)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v92) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v140) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1250000 : Shape := ⟨2, ![2, 1250000]⟩
abbrev S128x64 : Shape := ⟨2, ![128, 64]⟩
abbrev S64 : Shape := ⟨1, ![64]⟩
abbrev S2x64x64 : Shape := ⟨3, ![2, 64, 64]⟩
abbrev S2x64 : Shape := ⟨2, ![2, 64]⟩
abbrev S3x64 : Shape := ⟨2, ![3, 64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S2x64x64 : S_.BroadcastsInDim S2x64x64 (![] : Fin 0 → Fin S2x64x64.rank)
  reducesTo_S2x64x64_S_d0_1_2 : S2x64x64.ReducesTo [0, 1, 2] S_
  bcast_S_S2x64 : S_.BroadcastsInDim S2x64 (![] : Fin 0 → Fin S2x64.rank)
  reducesTo_S2x64_S_d0_1 : S2x64.ReducesTo [0, 1] S_
  bcast_S_S3x64 : S_.BroadcastsInDim S3x64 (![] : Fin 0 → Fin S3x64.rank)
  reducesTo_S3x64_S_d0_1 : S3x64.ReducesTo [0, 1] S_

variable [Facts]

def fn_part2 {F : FTy → Type} [FloatOps F] (main_arg8 : FVec F S3x64 .f32) (main_arg9 : FVec F S3x64 .f32) (main_v33 : IVec S_ 1) : IVec S_ 1 :=
  let main_v34 : FVec F S3x64 .f32 := Host.absf main_arg8
  let main_cst_12 : FVec F S_ .f32 := constant S_ .f32 0x7F800000#32
  let main_v35 : FVec F S3x64 .f32 := broadcastInDim S3x64 ![] bcast_S_S3x64 main_cst_12
  let main_v36 : IVec S3x64 1 := cmpf .olt main_v34 main_v35
  let main_c_13 : IVec S_ 1 := constantI S_ 1 1#1
  let main_v37 : IVec S_ 1 := (fun x v => Host.reduce IntOp.andi x v reducesTo_S3x64_S_d0_1 h_S_) main_v36 main_c_13
  let main_v38 : IVec S_ 1 := andi main_v33 main_v37
  let main_v39 : FVec F S3x64 .f32 := Host.absf main_arg9
  let main_cst_14 : FVec F S_ .f32 := constant S_ .f32 0x7F800000#32
  let main_v40 : FVec F S3x64 .f32 := broadcastInDim S3x64 ![] bcast_S_S3x64 main_cst_14
  let main_v41 : IVec S3x64 1 := cmpf .olt main_v39 main_v40
  let main_c_15 : IVec S_ 1 := constantI S_ 1 1#1
  let main_v42 : IVec S_ 1 := (fun x v => Host.reduce IntOp.andi x v reducesTo_S3x64_S_d0_1 h_S_) main_v41 main_c_15
  let main_v43 : IVec S_ 1 := andi main_v38 main_v42
  let main_cst_16 : FVec F S_ .f32 := constant S_ .f32 0x00000000#32
  let main_v44 : FVec F S3x64 .f32 := broadcastInDim S3x64 ![] bcast_S_S3x64 main_cst_16
  let main_v45 : IVec S3x64 1 := cmpf .oge main_arg9 main_v44
  let main_c_17 : IVec S_ 1 := constantI S_ 1 1#1
  let main_v46 : IVec S_ 1 := (fun x v => Host.reduce IntOp.andi x v reducesTo_S3x64_S_d0_1 h_S_) main_v45 main_c_17
  let main_v47 : IVec S_ 1 := andi main_v43 main_v46
  main_v47

def fn_part1 {F : FTy → Type} [FloatOps F] (main_arg5 : FVec F S2x64 .f32) (main_arg6 : FVec F S3x64 .f32) (main_arg7 : FVec F S3x64 .f32) (main_arg8 : FVec F S3x64 .f32) (main_arg9 : FVec F S3x64 .f32) (main_v13 : IVec S_ 1) (main_v16 : IVec S2x64x64 1) : IVec S_ 1 :=
  let main_c_5 : IVec S_ 1 := constantI S_ 1 1#1
  let main_v17 : IVec S_ 1 := (fun x v => Host.reduce IntOp.andi x v reducesTo_S2x64x64_S_d0_1_2 h_S_) main_v16 main_c_5
  let main_v18 : IVec S_ 1 := andi main_v13 main_v17
  let main_v19 : FVec F S2x64 .f32 := Host.absf main_arg5
  let main_cst_6 : FVec F S_ .f32 := constant S_ .f32 0x7F800000#32
  let main_v20 : FVec F S2x64 .f32 := broadcastInDim S2x64 ![] bcast_S_S2x64 main_cst_6
  let main_v21 : IVec S2x64 1 := cmpf .olt main_v19 main_v20
  let main_c_7 : IVec S_ 1 := constantI S_ 1 1#1
  let main_v22 : IVec S_ 1 := (fun x v => Host.reduce IntOp.andi x v reducesTo_S2x64_S_d0_1 h_S_) main_v21 main_c_7
  let main_v23 : IVec S_ 1 := andi main_v18 main_v22
  let main_v24 : FVec F S3x64 .f32 := Host.absf main_arg6
  let main_cst_8 : FVec F S_ .f32 := constant S_ .f32 0x7F800000#32
  let main_v25 : FVec F S3x64 .f32 := broadcastInDim S3x64 ![] bcast_S_S3x64 main_cst_8
  let main_v26 : IVec S3x64 1 := cmpf .olt main_v24 main_v25
  let main_c_9 : IVec S_ 1 := constantI S_ 1 1#1
  let main_v27 : IVec S_ 1 := (fun x v => Host.reduce IntOp.andi x v reducesTo_S3x64_S_d0_1 h_S_) main_v26 main_c_9
  let main_v28 : IVec S_ 1 := andi main_v23 main_v27
  let main_v29 : FVec F S3x64 .f32 := Host.absf main_arg7
  let main_cst_10 : FVec F S_ .f32 := constant S_ .f32 0x7F800000#32
  let main_v30 : FVec F S3x64 .f32 := broadcastInDim S3x64 ![] bcast_S_S3x64 main_cst_10
  let main_v31 : IVec S3x64 1 := cmpf .olt main_v29 main_v30
  let main_c_11 : IVec S_ 1 := constantI S_ 1 1#1
  let main_v32 : IVec S_ 1 := (fun x v => Host.reduce IntOp.andi x v reducesTo_S3x64_S_d0_1 h_S_) main_v31 main_c_11
  let main_v33 : IVec S_ 1 := andi main_v28 main_v32
  fn_part2 (F := F) main_arg8 main_arg9 main_v33

def fn {F : FTy → Type} [FloatOps F] (main_arg0 : FVec F S100000x128 .f32) (main_arg1 : IVec S2x1250000 32) (main_arg2 : FVec F S128x64 .f32) (main_arg3 : FVec F S64 .f32) (main_arg4 : FVec F S2x64x64 .f32) (main_arg5 : FVec F S2x64 .f32) (main_arg6 : FVec F S3x64 .f32) (main_arg7 : FVec F S3x64 .f32) (main_arg8 : FVec F S3x64 .f32) (main_arg9 : FVec F S3x64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S2x64x64 .f32 := Host.absf main_arg4
  let main_cst_4 : FVec F S_ .f32 := constant S_ .f32 0x7F800000#32
  let main_v15 : FVec F S2x64x64 .f32 := broadcastInDim S2x64x64 ![] bcast_S_S2x64x64 main_cst_4
  let main_v16 : IVec S2x64x64 1 := cmpf .olt main_v14 main_v15
  fn_part1 (F := F) main_arg5 main_arg6 main_arg7 main_arg8 main_arg9 main_v13 main_v16
-- ==== Kernel.lean ====
abbrev S100000x128 : Shape := ⟨2, ![100000, 128]⟩
abbrev S2x1250000 : Shape := ⟨2, ![2, 1250000]⟩
abbrev S128x64 : Shape := ⟨2, ![128, 64]⟩
abbrev S64 : Shape := ⟨1, ![64]⟩
abbrev S2x64x64 : Shape := ⟨3, ![2, 64, 64]⟩
abbrev S2x64 : Shape := ⟨2, ![2, 64]⟩
abbrev S3x64 : Shape := ⟨2, ![3, 64]⟩
abbrev S_ : Shape := ⟨0, ![]⟩
abbrev S100000 : Shape := ⟨1, ![100000]⟩
abbrev S1x1250000 : Shape := ⟨2, ![1, 1250000]⟩
abbrev S1250000 : Shape := ⟨1, ![1250000]⟩
abbrev S1350000 : Shape := ⟨1, ![1350000]⟩
abbrev S1350000x1 : Shape := ⟨2, ![1350000, 1]⟩
abbrev S1x64 : Shape := ⟨2, ![1, 64]⟩
abbrev S100000x64 : Shape := ⟨2, ![100000, 64]⟩
abbrev S10000x128 : Shape := ⟨2, ![10000, 128]⟩
abbrev S10000x64 : Shape := ⟨2, ![10000, 64]⟩
abbrev S1x64x64 : Shape := ⟨3, ![1, 64, 64]⟩
abbrev S64x64 : Shape := ⟨2, ![64, 64]⟩
abbrev S1350000x64 : Shape := ⟨2, ![1350000, 64]⟩

abbrev nBuf : Space → Nat
  | .hbm => 116
  | .vmem => 36
  | .smem => 0
  | _ => 0

abbrev bufTy : (tb : Table) → Fin (tcTables nBuf tb) → BufTy
  | .hbm, ⟨0, _⟩ => ⟨S100000x128, .f32⟩
  | .hbm, ⟨1, _⟩ => ⟨S2x1250000, .i32⟩
  | .hbm, ⟨2, _⟩ => ⟨S128x64, .f32⟩
  | .hbm, ⟨3, _⟩ => ⟨S64, .f32⟩
  | .hbm, ⟨4, _⟩ => ⟨S2x64x64, .f32⟩
  | .hbm, ⟨5, _⟩ => ⟨S2x64, .f32⟩
  | .hbm, ⟨6, _⟩ => ⟨S3x64, .f32⟩
  | .hbm, ⟨7, _⟩ => ⟨S3x64, .f32⟩
  | .hbm, ⟨8, _⟩ => ⟨S3x64, .f32⟩
  | .hbm, ⟨9, _⟩ => ⟨S3x64, .f32⟩
  | .hbm, ⟨10, _⟩ => ⟨S_, .f32⟩
  | .hbm, ⟨11, _⟩ => ⟨S3x64, .f32⟩
  | .hbm, ⟨12, _⟩ => ⟨S3x64, .f32⟩
  | .hbm, ⟨13, _⟩ => ⟨S3x64, .f32⟩
  | .hbm, ⟨14, _⟩ => ⟨S3x64, .f32⟩
  | .hbm, ⟨15, _⟩ => ⟨S3x64, .f32⟩
  | .hbm, ⟨16, _⟩ => ⟨S3x64, .f32⟩
  | .hbm, ⟨17, _⟩ => ⟨S100000, .i32⟩
  | .hbm, ⟨18, _⟩ => ⟨S1x1250000, .i32⟩
  | .hbm, ⟨19, _⟩ => ⟨S1250000, .i32⟩
  | .hbm, ⟨20, _⟩ => ⟨S1350000, .i32⟩
  | .hbm, ⟨21, _⟩ => ⟨S1x1250000, .i32⟩
  | .hbm, ⟨22, _⟩ => ⟨S1250000, .i32⟩
  | .hbm, ⟨23, _⟩ => ⟨S1350000, .i32⟩
  | .hbm, ⟨24, _⟩ => ⟨S_, .f32⟩
  | .hbm, ⟨25, _⟩ => ⟨S1350000, .f32⟩
  | .hbm, ⟨26, _⟩ => ⟨S_, .f32⟩
  | .hbm, ⟨27, _⟩ => ⟨S100000, .f32⟩
  | .hbm, ⟨28, _⟩ => ⟨S1350000x1, .i32⟩
  | .hbm, ⟨29, _⟩ => ⟨S100000, .f32⟩
  | .hbm, ⟨30, _⟩ => ⟨S100000, .f32⟩
  | .hbm, ⟨31, _⟩ => ⟨S_, .i32⟩
  | .hbm, ⟨32, _⟩ => ⟨S1350000, .i32⟩
  | .hbm, ⟨33, _⟩ => ⟨S1350000, .i1⟩
  | .hbm, ⟨34, _⟩ => ⟨S_, .i32⟩
  | .hbm, ⟨35, _⟩ => ⟨S1350000, .i32⟩
  | .hbm, ⟨36, _⟩ => ⟨S1350000, .i32⟩
  | .hbm, ⟨37, _⟩ => ⟨S1350000, .i32⟩
  | .hbm, ⟨38, _⟩ => ⟨S1350000x1, .i32⟩
  | .hbm, ⟨39, _⟩ => ⟨S1350000, .f32⟩
  | .hbm, ⟨40, _⟩ => ⟨S_, .i32⟩
  | .hbm, ⟨41, _⟩ => ⟨S1350000, .i32⟩
  | .hbm, ⟨42, _⟩ => ⟨S1350000, .i1⟩
  | .hbm, ⟨43, _⟩ => ⟨S_, .i32⟩
  | .hbm, ⟨44, _⟩ => ⟨S1350000, .i32⟩
  | .hbm, ⟨45, _⟩ => ⟨S1350000, .i32⟩
  | .hbm, ⟨46, _⟩ => ⟨S1350000, .i32⟩
  | .hbm, ⟨47, _⟩ => ⟨S1350000x1, .i32⟩
  | .hbm, ⟨48, _⟩ => ⟨S1350000, .f32⟩
  | .hbm, ⟨49, _⟩ => ⟨S1350000, .f32⟩
  | .hbm, ⟨50, _⟩ => ⟨S1x64, .f32⟩
  | .hbm, ⟨51, _⟩ => ⟨S1x64, .f32⟩
  | .hbm, ⟨52, _⟩ => ⟨S64, .f32⟩
  | .hbm, ⟨53, _⟩ => ⟨S1x64, .f32⟩
  | .hbm, ⟨54, _⟩ => ⟨S1x64, .f32⟩
  | .hbm, ⟨55, _⟩ => ⟨S64, .f32⟩
  | .hbm, ⟨56, _⟩ => ⟨S1x64, .f32⟩
  | .hbm, ⟨57, _⟩ => ⟨S100000x64, .f32⟩
  | .hbm, ⟨58, _⟩ => ⟨S1x64x64, .f32⟩
  | .hbm, ⟨59, _⟩ => ⟨S64x64, .f32⟩
  | .hbm, ⟨60, _⟩ => ⟨S100000x64, .f32⟩
  | .hbm, ⟨61, _⟩ => ⟨S_, .i32⟩
  | .hbm, ⟨62, _⟩ => ⟨S1350000, .i32⟩
  | .hbm, ⟨63, _⟩ => ⟨S1350000, .i1⟩
  | .hbm, ⟨64, _⟩ => ⟨S_, .i32⟩
  | .hbm, ⟨65, _⟩ => ⟨S1350000, .i32⟩
  | .hbm, ⟨66, _⟩ => ⟨S1350000, .i32⟩
  | .hbm, ⟨67, _⟩ => ⟨S1350000, .i32⟩
  | .hbm, ⟨68, _⟩ => ⟨S1350000x1, .i32⟩
  | .hbm, ⟨69, _⟩ => ⟨S1350000x64, .f32⟩
  | .hbm, ⟨70, _⟩ => ⟨S1350000x1, .f32⟩
  | .hbm, ⟨71, _⟩ => ⟨S1350000x64, .f32⟩
  | .hbm, ⟨72, _⟩ => ⟨S1350000x64, .f32⟩
  | .hbm, ⟨73, _⟩ => ⟨S_, .f32⟩
  | .hbm, ⟨74, _⟩ => ⟨S100000x64, .f32⟩
  | .hbm, ⟨75, _⟩ => ⟨S1350000x1, .i32⟩
  | .hbm, ⟨76, _⟩ => ⟨S100000x64, .f32⟩
  | .hbm, ⟨77, _⟩ => ⟨S1x64, .f32⟩
  | .hbm, ⟨78, _⟩ => ⟨S64, .f32⟩
  | .hbm, ⟨79, _⟩ => ⟨S1x64, .f32⟩
  | .hbm, ⟨80, _⟩ => ⟨S1x64, .f32⟩
  | .hbm, ⟨81, _⟩ => ⟨S64, .f32⟩
  | .hbm, ⟨82, _⟩ => ⟨S1x64, .f32⟩
  | .hbm, ⟨83, _⟩ => ⟨S1x64, .f32⟩
  | .hbm, ⟨84, _⟩ => ⟨S64, .f32⟩
  | .hbm, ⟨85, _⟩ => ⟨S1x64, .f32⟩
  | .hbm, ⟨86, _⟩ => ⟨S100000x64, .f32⟩
  | .hbm, ⟨87, _⟩ => ⟨S1x64x64, .f32⟩
  | .hbm, ⟨88, _⟩ => ⟨S64x64, .f32⟩
  | .hbm, ⟨89, _⟩ => ⟨S100000x64, .f32⟩
  | .hbm, ⟨90, _⟩ => ⟨S_, .i32⟩
  | .hbm, ⟨91, _⟩ => ⟨S1350000, .i32⟩
  | .hbm, ⟨92, _⟩ => ⟨S1350000, .i1⟩
  | .hbm, ⟨93, _⟩ => ⟨S_, .i32⟩
  | .hbm, ⟨94, _⟩ => ⟨S1350000, .i32⟩
  | .hbm, ⟨95, _⟩ => ⟨S1350000, .i32⟩
  | .hbm, ⟨96, _⟩ => ⟨S1350000, .i32⟩
  | .hbm, ⟨97, _⟩ => ⟨S1350000x1, .i32⟩
  | .hbm, ⟨98, _⟩ => ⟨S1350000x64, .f32⟩
  | .hbm, ⟨99, _⟩ => ⟨S1350000x1, .f32⟩
  | .hbm, ⟨100, _⟩ => ⟨S1350000x64, .f32⟩
  | .hbm, ⟨101, _⟩ => ⟨S1350000x64, .f32⟩
  | .hbm, ⟨102, _⟩ => ⟨S_, .f32⟩
  | .hbm, ⟨103, _⟩ => ⟨S100000x64, .f32⟩
  | .hbm, ⟨104, _⟩ => ⟨S1350000x1, .i32⟩
  | .hbm, ⟨105, _⟩ => ⟨S100000x64, .f32⟩
  | .hbm, ⟨106, _⟩ => ⟨S1x64, .f32⟩
  | .hbm, ⟨107, _⟩ => ⟨S64, .f32⟩
  | .hbm, ⟨108, _⟩ => ⟨S1x64, .f32⟩
  | .hbm, ⟨109, _⟩ => ⟨S1x64, .f32⟩
  | .hbm, ⟨110, _⟩ => ⟨S64, .f32⟩
  | .hbm, ⟨111, _⟩ => ⟨S1x64, .f32⟩
  | .hbm, ⟨112, _⟩ => ⟨S1x64, .f32⟩
  | .hbm, ⟨113, _⟩ => ⟨S64, .f32⟩
  | .hbm, ⟨114, _⟩ => ⟨S1x64, .f32⟩
  | .hbm, ⟨115, _⟩ => ⟨S100000x64, .f32⟩
  | .local _ .vmem, ⟨0, _⟩ => ⟨S10000x128, .f32⟩
  | .local _ .vmem, ⟨1, _⟩ => ⟨S10000x128, .f32⟩
  | .local _ .vmem, ⟨2, _⟩ => ⟨S128x64, .f32⟩
  | .local _ .vmem, ⟨3, _⟩ => ⟨S1x64, .f32⟩
  | .local _ .vmem, ⟨4, _⟩ => ⟨S1x64, .f32⟩
  | .local _ .vmem, ⟨5, _⟩ => ⟨S1x64, .f32⟩
  | .local _ .vmem, ⟨6, _⟩ => ⟨S10000x64, .f32⟩
  | .local _ .vmem, ⟨7, _⟩ => ⟨S10000x64, .f32⟩
  | .local _ .vmem, ⟨8, _⟩ => ⟨S10000x64, .f32⟩
  | .local _ .vmem, ⟨9, _⟩ => ⟨S10000x64, .f32⟩
  | .local _ .vmem, ⟨10, _⟩ => ⟨S64x64, .f32⟩
  | .local _ .vmem, ⟨11, _⟩ => ⟨S10000x64, .f32⟩
  | .local _ .vmem, ⟨12, _⟩ => ⟨S10000x64, .f32⟩
  | .local _ .vmem, ⟨13, _⟩ => ⟨S10000x64, .f32⟩
  | .local _ .vmem, ⟨14, _⟩ => ⟨S10000x64, .f32⟩
  | .local _ .vmem, ⟨15, _⟩ => ⟨S1x64, .f32⟩
  | .local _ .vmem, ⟨16, _⟩ => ⟨S1x64, .f32⟩
  | .local _ .vmem, ⟨17, _⟩ => ⟨S1x64, .f32⟩
  | .local _ .vmem, ⟨18, _⟩ => ⟨S10000x64, .f32⟩
  | .local _ .vmem, ⟨19, _⟩ => ⟨S10000x64, .f32⟩
  | .local _ .vmem, ⟨20, _⟩ => ⟨S10000x64, .f32⟩
  | .local _ .vmem, ⟨21, _⟩ => ⟨S10000x64, .f32⟩
  | .local _ .vmem, ⟨22, _⟩ => ⟨S10000x64, .f32⟩
  | .local _ .vmem, ⟨23, _⟩ => ⟨S10000x64, .f32⟩
  | .local _ .vmem, ⟨24, _⟩ => ⟨S64x64, .f32⟩
  | .local _ .vmem, ⟨25, _⟩ => ⟨S10000x64, .f32⟩
  | .local _ .vmem, ⟨26, _⟩ => ⟨S10000x64, .f32⟩
  | .local _ .vmem, ⟨27, _⟩ => ⟨S10000x64, .f32⟩
  | .local _ .vmem, ⟨28, _⟩ => ⟨S10000x64, .f32⟩
  | .local _ .vmem, ⟨29, _⟩ => ⟨S1x64, .f32⟩
  | .local _ .vmem, ⟨30, _⟩ => ⟨S1x64, .f32⟩
  | .local _ .vmem, ⟨31, _⟩ => ⟨S1x64, .f32⟩
  | .local _ .vmem, ⟨32, _⟩ => ⟨S10000x64, .f32⟩
  | .local _ .vmem, ⟨33, _⟩ => ⟨S10000x64, .f32⟩
  | .local _ .vmem, ⟨34, _⟩ => ⟨S10000x64, .f32⟩
  | .local _ .vmem, ⟨35, _⟩ => ⟨S10000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_0 : Ref sig .tc := ⟨.hbm, 24, rfl⟩
abbrev main_v13 : Ref sig .tc := ⟨.hbm, 25, rfl⟩
abbrev main_cst_1 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_c : Ref sig .tc := ⟨.hbm, 31, rfl⟩
abbrev main_v18 : Ref sig .tc := ⟨.hbm, 32, rfl⟩
abbrev main_v19 : Ref sig .tc := ⟨.hbm, 33, rfl⟩
abbrev main_c_2 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_c_3 : Ref sig .tc := ⟨.hbm, 40, rfl⟩
abbrev main_v25 : Ref sig .tc := ⟨.hbm, 41, rfl⟩
abbrev main_v26 : Ref sig .tc := ⟨.hbm, 42, rfl⟩
abbrev main_c_4 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_c_5 : Ref sig .tc := ⟨.hbm, 61, rfl⟩
abbrev main_v44 : Ref sig .tc := ⟨.hbm, 62, rfl⟩
abbrev main_v45 : Ref sig .tc := ⟨.hbm, 63, rfl⟩
abbrev main_c_6 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_cst_7 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_c_8 : Ref sig .tc := ⟨.hbm, 90, rfl⟩
abbrev main_v70 : Ref sig .tc := ⟨.hbm, 91, rfl⟩
abbrev main_v71 : Ref sig .tc := ⟨.hbm, 92, rfl⟩
abbrev main_c_9 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_cst_10 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_v90 : Ref sig .tc := ⟨.hbm, 113, rfl⟩
abbrev main_v91 : Ref sig .tc := ⟨.hbm, 114, rfl⟩
abbrev main_v92 : Ref sig .tc := ⟨.hbm, 115, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg2_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg2_0 : Ref sig .tc := ⟨.vmem, 16, rfl⟩
abbrev cc2_stg3_0 : Ref sig .tc := ⟨.vmem, 17, rfl⟩
abbrev cc2_stg4_0 : Ref sig .tc := ⟨.vmem, 18, rfl⟩
abbrev cc2_stg4_1 : Ref sig .tc := ⟨.vmem, 19, rfl⟩
abbrev cc2_stg5_0 : Ref sig .tc := ⟨.vmem, 20, rfl⟩
abbrev cc2_stg5_1 : Ref sig .tc := ⟨.vmem, 21, rfl⟩
abbrev cc3_stg0_0 : Ref sig .tc := ⟨.vmem, 22, rfl⟩
abbrev cc3_stg0_1 : Ref sig .tc := ⟨.vmem, 23, rfl⟩
abbrev cc3_stg1_0 : Ref sig .tc := ⟨.vmem, 24, rfl⟩
abbrev cc3_stg2_0 : Ref sig .tc := ⟨.vmem, 25, rfl⟩
abbrev cc3_stg2_1 : Ref sig .tc := ⟨.vmem, 26, rfl⟩
abbrev cc4_stg0_0 : Ref sig .tc := ⟨.vmem, 27, rfl⟩
abbrev cc4_stg0_1 : Ref sig .tc := ⟨.vmem, 28, rfl⟩
abbrev cc4_stg1_0 : Ref sig .tc := ⟨.vmem, 29, rfl⟩
abbrev cc4_stg2_0 : Ref sig .tc := ⟨.vmem, 30, rfl⟩
abbrev cc4_stg3_0 : Ref sig .tc := ⟨.vmem, 31, rfl⟩
abbrev cc4_stg4_0 : Ref sig .tc := ⟨.vmem, 32, rfl⟩
abbrev cc4_stg4_1 : Ref sig .tc := ⟨.vmem, 33, rfl⟩
abbrev cc4_stg5_0 : Ref sig .tc := ⟨.vmem, 34, rfl⟩
abbrev cc4_stg5_1 : Ref sig .tc := ⟨.vmem, 35, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem2_1 : DmaSem sig := 12
abbrev cc2_sem0_0 : DmaSem sig := 13
abbrev cc2_sem0_1 : DmaSem sig := 14
abbrev cc2_sem1_0 : DmaSem sig := 15
abbrev cc2_sem2_0 : DmaSem sig := 16
abbrev cc2_sem3_0 : DmaSem sig := 17
abbrev cc2_sem4_0 : DmaSem sig := 18
abbrev cc2_sem4_1 : DmaSem sig := 19
abbrev cc2_sem5_0 : DmaSem sig := 20
abbrev cc2_sem5_1 : DmaSem sig := 21
abbrev cc3_sem0_0 : DmaSem sig := 22
abbrev cc3_sem0_1 : DmaSem sig := 23
abbrev cc3_sem1_0 : DmaSem sig := 24
abbrev cc3_sem2_0 : DmaSem sig := 25
abbrev cc3_sem2_1 : DmaSem sig := 26
abbrev cc4_sem0_0 : DmaSem sig := 27
abbrev cc4_sem0_1 : DmaSem sig := 28
abbrev cc4_sem1_0 : DmaSem sig := 29
abbrev cc4_sem2_0 : DmaSem sig := 30
abbrev cc4_sem3_0 : DmaSem sig := 31
abbrev cc4_sem4_0 : DmaSem sig := 32
abbrev cc4_sem4_1 : DmaSem sig := 33
abbrev cc4_sem5_0 : DmaSem sig := 34
abbrev cc4_sem5_1 : DmaSem sig := 35

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S10000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S10000x64 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S10000x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S64x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x64 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 2 → Memref sig .tc .vmem S10000x64 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev stage4_5 : Fin 2 → Memref sig .tc .vmem S10000x64 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

class Facts₀ : Prop where
  bcast_S_S3x64 : S_.BroadcastsInDim S3x64 (![] : Fin 0 → Fin S3x64.rank)
  slices_S2x1250000_S1x1250000_0_0 : S2x1250000.Slices ![0, 0] S1x1250000
  shapeCasts_S1x1250000_S1250000 : S1x1250000.ShapeCasts S1250000
  concatenates_S1250000_S100000_S1350000_d0 : Shape.Concatenates [S1250000, S100000] S1350000 0
  slices_S2x1250000_S1x1250000_1_0 : S2x1250000.Slices ![1, 0] S1x1250000
  bcast_S_S1350000 : S_.BroadcastsInDim S1350000 (![] : Fin 0 → Fin S1350000.rank)
  bcast_S_S100000 : S_.BroadcastsInDim S100000 (![] : Fin 0 → Fin S100000.rank)
  bcast_S1350000_S1350000x1_0 : S1350000.BroadcastsInDim S1350000x1 (![0] : Fin 1 → Fin S1350000x1.rank)
  shapeCasts_S64_S1x64 : S64.ShapeCasts S1x64
  slices_S3x64_S1x64_0_0 : S3x64.Slices ![0, 0] S1x64
  shapeCasts_S1x64_S64 : S1x64.ShapeCasts S64
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  inb_S10000x64_S10000x64_0_0 : ∀ a, (![0, 0] : Fin 2 → Nat) a + S10000x64.size a ≤ S10000x64.size a
  h_S10000x64 : 0 < S10000x64.numel
  slices_S2x64x64_S1x64x64_0_0_0 : S2x64x64.Slices ![0, 0, 0] S1x64x64
  shapeCasts_S1x64x64_S64x64 : S1x64x64.ShapeCasts S64x64
  shapeCasts_S10000x64_S10000x64 : S10000x64.ShapeCasts S10000x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  bcast_S1350000x1_S1350000x64_0_1 : S1350000x1.BroadcastsInDim S1350000x64 (![0, 1] : Fin 2 → Fin S1350000x64.rank)
  bcast_S_S100000x64 : S_.BroadcastsInDim S100000x64 (![] : Fin 0 → Fin S100000x64.rank)
  slices_S2x64_S1x64_0_0 : S2x64.Slices ![0, 0] S1x64
  slices_S3x64_S1x64_1_0 : S3x64.Slices ![1, 0] S1x64
  slices_S2x64x64_S1x64x64_1_0_0 : S2x64x64.Slices ![1, 0, 0] S1x64x64
  slices_S2x64_S1x64_1_0 : S2x64.Slices ![1, 0] S1x64
  slices_S3x64_S1x64_2_0 : S3x64.Slices ![2, 0] S1x64
  scatter_S100000_S1350000x1_S1350000_n_0_0_1_wf : ScatterDims.WF S100000 S1350000x1 S1350000 [] [0] [0] 1
  gather_S100000_S1350000x1_S1350000_n_0_n_n_0_1_1_wf : GatherDims.WF S100000 S1350000x1 S1350000 [] [0] [] [0] [] 1 ![1]
  dot_S10000x128_S128x64_S10000x64_1_0_0_1_n_n_wf : DotDims.WF S10000x128 S128x64 S10000x64 [1] [0] [0] [1] [] []
  dot_S10000x64_S64x64_S10000x64_1_0_0_1_n_n_wf : DotDims.WF S10000x64 S64x64 S10000x64 [1] [0] [0] [1] [] []
  gather_S100000x64_S1350000x1_S1350000x64_1_0_n_n_0_1_164_wf : GatherDims.WF S100000x64 S1350000x1 S1350000x64 [1] [0] [] [0] [] 1 ![1, 64]
  scatter_S100000x64_S1350000x1_S1350000x64_1_0_0_1_wf : ScatterDims.WF S100000x64 S1350000x1 S1350000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S10000x64.size a ≤ S100000x64.size a
  hwx0_5 : ∀ i : grid0.Coords, EltTy.bits .f32 = 32 ∨ (Rect.block (s := S100000x64) S10000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x64.size a ≤ S64x64.size a
  hwx1_1 : ∀ i : grid1.Coords, EltTy.bits .f32 = 32 ∨ (Rect.block (s := S64x64) S64x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x64.size a ≤ S100000x64.size a
  hwx1_2 : ∀ i : grid1.Coords, EltTy.bits .f32 = 32 ∨ (Rect.block (s := S100000x64) S10000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x64.size a ≤ S1x64.size a
  hwx2_1 : ∀ i : grid2.Coords, EltTy.bits .f32 = 32 ∨ (Rect.block (s := S1x64) S1x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S10000x64.size a ≤ S100000x64.size a
  hwx2_4 : ∀ i : grid2.Coords, EltTy.bits .f32 = 32 ∨ (Rect.block (s := S100000x64) S10000x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S10000x64.size a ≤ S100000x64.size a
  hwx2_5 : ∀ i : grid2.Coords, EltTy.bits .f32 = 32 ∨ (Rect.block (s := S100000x64) S10000x64.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S100000x64.size a
  hwx3_0 : ∀ i : grid3.Coords, EltTy.bits .f32 = 32 ∨ (Rect.block (s := S100000x64) S10000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S64x64.size a ≤ S64x64.size a
  hwx3_1 : ∀ i : grid3.Coords, EltTy.bits .f32 = 32 ∨ (Rect.block (s := S64x64) S64x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x64.size a ≤ S100000x64.size a
  hwx3_2 : ∀ i : grid3.Coords, EltTy.bits .f32 = 32 ∨ (Rect.block (s := S100000x64) S10000x64.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x64.size a ≤ S100000x64.size a
  hwx4_0 : ∀ i : grid4.Coords, EltTy.bits .f32 = 32 ∨ (Rect.block (s := S100000x64) S10000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x64.size a ≤ S1x64.size a
  hwx4_1 : ∀ i : grid4.Coords, EltTy.bits .f32 = 32 ∨ (Rect.block (s := S1x64) S1x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x64.size a ≤ S1x64.size a
  hwx4_2 : ∀ i : grid4.Coords, EltTy.bits .f32 = 32 ∨ (Rect.block (s := S1x64) S1x64.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x64.size a ≤ S1x64.size a
  hwx4_3 : ∀ i : grid4.Coords, EltTy.bits .f32 = 32 ∨ (Rect.block (s := S1x64) S1x64.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S10000x64.size a ≤ S100000x64.size a
  hwx4_4 : ∀ i : grid4.Coords, EltTy.bits .f32 = 32 ∨ (Rect.block (s := S100000x64) S10000x64.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S10000x64.size a ≤ S100000x64.size a
  hwx4_5 : ∀ i : grid4.Coords, EltTy.bits .f32 = 32 ∨ (Rect.block (s := S100000x64) S10000x64.size (cc4_transform_5 i) (hinb4_5 i)).WholeWords (EltTy.packing .f32)

variable [Facts₀]

def scatter_S100000_S1350000x1_S1350000_n_0_0_1 : ScatterDims S100000 S1350000x1 S1350000 where
  updateWindowDims := []
  insertedWindowDims := [0]
  scatterDimsToOperandDims := [0]
  indexVectorDim := 1
  wf := scatter_S100000_S1350000x1_S1350000_n_0_0_1_wf
def gather_S100000_S1350000x1_S1350000_n_0_n_n_0_1_1 : GatherDims S100000 S1350000x1 S1350000 where
  offsetDims := []
  collapsedSliceDims := [0]
  operandBatchingDims := []
  startIndicesBatchingDims := []
  startIndexMap := [0]
  indexVectorDim := 1
  sliceSizes := ![1]
  wf := gather_S100000_S1350000x1_S1350000_n_0_n_n_0_1_1_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def gather_S100000x64_S1350000x1_S1350000x64_1_0_n_n_0_1_164 : GatherDims S100000x64 S1350000x1 S1350000x64 where
  offsetDims := [1]
  collapsedSliceDims := [0]
  operandBatchingDims := []
  startIndicesBatchingDims := []
  startIndexMap := [0]
  indexVectorDim := 1
  sliceSizes := ![1, 64]
  wf := gather_S100000x64_S1350000x1_S1350000x64_1_0_n_n_0_1_164_wf
def scatter_S100000x64_S1350000x1_S1350000x64_1_0_0_1 : ScatterDims S100000x64 S1350000x1 S1350000x64 where
  updateWindowDims := [1]
  insertedWindowDims := [0]
  scatterDimsToOperandDims := [0]
  indexVectorDim := 1
  wf := scatter_S100000x64_S1350000x1_S1350000x64_1_0_0_1_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v33) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v36) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v39) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v40) S10000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v40) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v42) S64x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v43) S10000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v56) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v59) S1x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v62) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v65) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v40) S10000x64.size cc2_transform_4 reads2_4 false false 2 stage2_4 sem2_4
    hrank2 hreads2_4 hinb2_4 nbuf2_4 (Memref.isWhole_whole _) hwx2_4 hstage2_4

abbrev win2_5 : Pipeline.Window sig grid2 :=
  Pipeline.Window.ofSpec (Memref.whole main_v66) S10000x64.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v66) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v68) S64x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v69) S10000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v82) S10000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v85) S1x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v88) S1x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v91) S1x64.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v40) S10000x64.size cc4_transform_4 reads4_4 false false 2 stage4_4 sem4_4
    hrank4 hreads4_4 hinb4_4 nbuf4_4 (Memref.isWhole_whole _) hwx4_4 hstage4_4

abbrev win4_5 : Pipeline.Window sig grid4 :=
  Pipeline.Window.ofSpec (Memref.whole main_v92) S10000x64.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

class Facts : Prop extends Facts₀ where

variable [Facts]
-- ==== ReferenceIdeal.lean ====
abbrev S100000x128 : Shape := ⟨2, ![100000, 128]⟩
abbrev S2x1250000 : Shape := ⟨2, ![2, 1250000]⟩
abbrev S128x64 : Shape := ⟨2, ![128, 64]⟩
abbrev S64 : Shape := ⟨1, ![64]⟩
abbrev S2x64x64 : Shape := ⟨3, ![2, 64, 64]⟩
abbrev S2x64 : Shape := ⟨2, ![2, 64]⟩
abbrev S3x64 : Shape := ⟨2, ![3, 64]⟩
abbrev S100000 : Shape := ⟨1, ![100000]⟩
abbrev S1x1250000 : Shape := ⟨2, ![1, 1250000]⟩
abbrev S1250000 : Shape := ⟨1, ![1250000]⟩
abbrev S1350000 : Shape := ⟨1, ![1350000]⟩
abbrev S_ : Shape := ⟨0, ![]⟩
abbrev S1350000x1 : Shape := ⟨2, ![1350000, 1]⟩
abbrev S100000x64 : Shape := ⟨2, ![100000, 64]⟩
abbrev S1x64 : Shape := ⟨2, ![1, 64]⟩
abbrev S1x64x64 : Shape := ⟨3, ![1, 64, 64]⟩
abbrev S64x64 : Shape := ⟨2, ![64, 64]⟩
abbrev S1350000x64 : Shape := ⟨2, ![1350000, 64]⟩

abbrev nBuf : Space → Nat
  | .hbm => 172
  | .vmem => 0
  | .smem => 0
  | _ => 0

abbrev hbmTy0_0 (i : Nat) : BufTy := match i % 128 with
  | 0 => ⟨S100000x128, .f32⟩
  | 1 => ⟨S2x1250000, .i32⟩
  | 2 => ⟨S128x64, .f32⟩
  | 3 => ⟨S64, .f32⟩
  | 4 => ⟨S2x64x64, .f32⟩
  | 5 => ⟨S2x64, .f32⟩
  | 6 => ⟨S3x64, .f32⟩
  | 7 => ⟨S3x64, .f32⟩
  | 8 => ⟨S3x64, .f32⟩
  | 9 => ⟨S3x64, .f32⟩
  | 10 => ⟨S100000, .i32⟩
  | 11 => ⟨S1x1250000, .i32⟩
  | 12 => ⟨S1250000, .i32⟩
  | 13 => ⟨S1350000, .i32⟩
  | 14 => ⟨S1x1250000, .i32⟩
  | 15 => ⟨S1250000, .i32⟩
  | 16 => ⟨S1350000, .i32⟩
  | 17 => ⟨S_, .f32⟩
  | 18 => ⟨S1350000, .f32⟩
  | 19 => ⟨S_, .f32⟩
  | 20 => ⟨S100000, .f32⟩
  | 21 => ⟨S1350000x1, .i32⟩
  | 22 => ⟨S100000, .f32⟩
  | 23 => ⟨S100000, .f32⟩
  | 24 => ⟨S_, .i32⟩
  | 25 => ⟨S1350000, .i32⟩
  | 26 => ⟨S1350000, .i1⟩
  | 27 => ⟨S_, .i32⟩
  | 28 => ⟨S1350000, .i32⟩
  | 29 => ⟨S1350000, .i32⟩
  | 30 => ⟨S1350000, .i32⟩
  | 31 => ⟨S1350000x1, .i32⟩
  | 32 => ⟨S1350000, .f32⟩
  | 33 => ⟨S_, .i32⟩
  | 34 => ⟨S1350000, .i32⟩
  | 35 => ⟨S1350000, .i1⟩
  | 36 => ⟨S_, .i32⟩
  | 37 => ⟨S1350000, .i32⟩
  | 38 => ⟨S1350000, .i32⟩
  | 39 => ⟨S1350000, .i32⟩
  | 40 => ⟨S1350000x1, .i32⟩
  | 41 => ⟨S1350000, .f32⟩
  | 42 => ⟨S1350000, .f32⟩
  | 43 => ⟨S100000x64, .f32⟩
  | 44 => ⟨S1x64, .f32⟩
  | 45 => ⟨S100000x64, .f32⟩
  | 46 => ⟨S100000x64, .f32⟩
  | 47 => ⟨S1x64, .f32⟩
  | 48 => ⟨S64, .f32⟩
  | 49 => ⟨S1x64, .f32⟩
  | 50 => ⟨S100000x64, .f32⟩
  | 51 => ⟨S100000x64, .f32⟩
  | 52 => ⟨S1x64, .f32⟩
  | 53 => ⟨S64, .f32⟩
  | 54 => ⟨S1x64, .f32⟩
  | 55 => ⟨S64, .f32⟩
  | 56 => ⟨S_, .f32⟩
  | 57 => ⟨S64, .f32⟩
  | 58 => ⟨S64, .f32⟩
  | 59 => ⟨S64, .f32⟩
  | 60 => ⟨S64, .f32⟩
  | 61 => ⟨S1x64, .f32⟩
  | 62 => ⟨S100000x64, .f32⟩
  | 63 => ⟨S100000x64, .f32⟩
  | 64 => ⟨S1x64, .f32⟩
  | 65 => ⟨S64, .f32⟩
  | 66 => ⟨S1x64, .f32⟩
  | 67 => ⟨S100000x64, .f32⟩
  | 68 => ⟨S100000x64, .f32⟩
  | 69 => ⟨S_, .f32⟩
  | 70 => ⟨S100000x64, .f32⟩
  | 71 => ⟨S100000x64, .f32⟩
  | 72 => ⟨S1x64x64, .f32⟩
  | 73 => ⟨S64x64, .f32⟩
  | 74 => ⟨S100000x64, .f32⟩
  | 75 => ⟨S_, .i32⟩
  | 76 => ⟨S1350000, .i32⟩
  | 77 => ⟨S1350000, .i1⟩
  | 78 => ⟨S_, .i32⟩
  | 79 => ⟨S1350000, .i32⟩
  | 80 => ⟨S1350000, .i32⟩
  | 81 => ⟨S1350000, .i32⟩
  | 82 => ⟨S1350000x1, .i32⟩
  | 83 => ⟨S1350000x64, .f32⟩
  | 84 => ⟨S1350000x1, .f32⟩
  | 85 => ⟨S1350000x64, .f32⟩
  | 86 => ⟨S1350000x64, .f32⟩
  | 87 => ⟨S_, .f32⟩
  | 88 => ⟨S100000x64, .f32⟩
  | 89 => ⟨S1350000x1, .i32⟩
  | 90 => ⟨S100000x64, .f32⟩
  | 91 => ⟨S1x64, .f32⟩
  | 92 => ⟨S64, .f32⟩
  | 93 => ⟨S1x64, .f32⟩
  | 94 => ⟨S100000x64, .f32⟩
  | 95 => ⟨S100000x64, .f32⟩
  | 96 => ⟨S1x64, .f32⟩
  | 97 => ⟨S64, .f32⟩
  | 98 => ⟨S1x64, .f32⟩
  | 99 => ⟨S100000x64, .f32⟩
  | 100 => ⟨S100000x64, .f32⟩
  | 101 => ⟨S1x64, .f32⟩
  | 102 => ⟨S64, .f32⟩
  | 103 => ⟨S1x64, .f32⟩
  | 104 => ⟨S64, .f32⟩
  | 105 => ⟨S_, .f32⟩
  | 106 => ⟨S64, .f32⟩
  | 107 => ⟨S64, .f32⟩
  | 108 => ⟨S64, .f32⟩
  | 109 => ⟨S64, .f32⟩
  | 110 => ⟨S1x64, .f32⟩
  | 111 => ⟨S100000x64, .f32⟩
  | 112 => ⟨S100000x64, .f32⟩
  | 113 => ⟨S1x64, .f32⟩
  | 114 => ⟨S64, .f32⟩
  | 115 => ⟨S1x64, .f32⟩
  | 116 => ⟨S100000x64, .f32⟩
  | 117 => ⟨S100000x64, .f32⟩
  | 118 => ⟨S_, .f32⟩
  | 119 => ⟨S100000x64, .f32⟩
  | 120 => ⟨S100000x64, .f32⟩
  | 121 => ⟨S100000x64, .f32⟩
  | 122 => ⟨S1x64x64, .f32⟩
  | 123 => ⟨S64x64, .f32⟩
  | 124 => ⟨S100000x64, .f32⟩
  | 125 => ⟨S_, .i32⟩
  | 126 => ⟨S1350000, .i32⟩
  | 127 => ⟨S1350000, .i1⟩
  | _ => ⟨S100000x128, .f32⟩

abbrev hbmTy0_1 (i : Nat) : BufTy := match i % 128 with
  | 0 => ⟨S_, .i32⟩
  | 1 => ⟨S1350000, .i32⟩
  | 2 => ⟨S1350000, .i32⟩
  | 3 => ⟨S1350000, .i32⟩
  | 4 => ⟨S1350000x1, .i32⟩
  | 5 => ⟨S1350000x64, .f32⟩
  | 6 => ⟨S1350000x1, .f32⟩
  | 7 => ⟨S1350000x64, .f32⟩
  | 8 => ⟨S1350000x64, .f32⟩
  | 9 => ⟨S_, .f32⟩
  | 10 => ⟨S100000x64, .f32⟩
  | 11 => ⟨S1350000x1, .i32⟩
  | 12 => ⟨S100000x64, .f32⟩
  | 13 => ⟨S1x64, .f32⟩
  | 14 => ⟨S64, .f32⟩
  | 15 => ⟨S1x64, .f32⟩
  | 16 => ⟨S100000x64, .f32⟩
  | 17 => ⟨S100000x64, .f32⟩
  | 18 => ⟨S1x64, .f32⟩
  | 19 => ⟨S64, .f32⟩
  | 20 => ⟨S1x64, .f32⟩
  | 21 => ⟨S100000x64, .f32⟩
  | 22 => ⟨S100000x64, .f32⟩
  | 23 => ⟨S1x64, .f32⟩
  | 24 => ⟨S64, .f32⟩
  | 25 => ⟨S1x64, .f32⟩
  | 26 => ⟨S64, .f32⟩
  | 27 => ⟨S_, .f32⟩
  | 28 => ⟨S64, .f32⟩
  | 29 => ⟨S64, .f32⟩
  | 30 => ⟨S64, .f32⟩
  | 31 => ⟨S64, .f32⟩
  | 32 => ⟨S1x64, .f32⟩
  | 33 => ⟨S100000x64, .f32⟩
  | 34 => ⟨S100000x64, .f32⟩
  | 35 => ⟨S1x64, .f32⟩
  | 36 => ⟨S64, .f32⟩
  | 37 => ⟨S1x64, .f32⟩
  | 38 => ⟨S100000x64, .f32⟩
  | 39 => ⟨S100000x64, .f32⟩
  | 40 => ⟨S_, .f32⟩
  | 41 => ⟨S100000x64, .f32⟩
  | 42 => ⟨S100000x64, .f32⟩
  | 43 => ⟨S100000x64, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_c : Ref sig .tc := ⟨.hbm, 24, rfl⟩
abbrev main_v12 : Ref sig .tc := ⟨.hbm, 25, rfl⟩
abbrev main_v13 : Ref sig .tc := ⟨.hbm, 26, rfl⟩
abbrev main_c_1 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_c_2 : Ref sig .tc := ⟨.hbm, 33, rfl⟩
abbrev main_v19 : Ref sig .tc := ⟨.hbm, 34, rfl⟩
abbrev main_v20 : Ref sig .tc := ⟨.hbm, 35, rfl⟩
abbrev main_c_3 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst_4 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_call0_cst : Ref sig .tc := ⟨.hbm, 69, rfl⟩
abbrev main_call0_v0 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_c_5 : Ref sig .tc := ⟨.hbm, 75, rfl⟩
abbrev main_v56 : Ref sig .tc := ⟨.hbm, 76, rfl⟩
abbrev main_v57 : Ref sig .tc := ⟨.hbm, 77, rfl⟩
abbrev main_c_6 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_cst_7 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_cst_8 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_v90 : Ref sig .tc := ⟨.hbm, 113, rfl⟩
abbrev main_v91 : Ref sig .tc := ⟨.hbm, 114, rfl⟩
abbrev main_v92 : Ref sig .tc := ⟨.hbm, 115, rfl⟩
abbrev main_v93 : Ref sig .tc := ⟨.hbm, 116, rfl⟩
abbrev main_v94 : Ref sig .tc := ⟨.hbm, 117, rfl⟩
abbrev main_call1_cst : Ref sig .tc := ⟨.hbm, 118, rfl⟩
abbrev main_call1_v0 : Ref sig .tc := ⟨.hbm, 119, rfl⟩
abbrev main_v95 : Ref sig .tc := ⟨.hbm, 120, rfl⟩
abbrev main_v96 : Ref sig .tc := ⟨.hbm, 121, rfl⟩
abbrev main_v97 : Ref sig .tc := ⟨.hbm, 122, rfl⟩
abbrev main_v98 : Ref sig .tc := ⟨.hbm, 123, rfl⟩
abbrev main_v99 : Ref sig .tc := ⟨.hbm, 124, rfl⟩
abbrev main_c_9 : Ref sig .tc := ⟨.hbm, 125, rfl⟩
abbrev main_v100 : Ref sig .tc := ⟨.hbm, 126, rfl⟩
abbrev main_v101 : Ref sig .tc := ⟨.hbm, 127, rfl⟩
abbrev main_c_10 : Ref sig .tc := ⟨.hbm, 128, rfl⟩
abbrev main_v102 : Ref sig .tc := ⟨.hbm, 129, rfl⟩
abbrev main_v103 : Ref sig .tc := ⟨.hbm, 130, rfl⟩
abbrev main_v104 : Ref sig .tc := ⟨.hbm, 131, rfl⟩
abbrev main_v105 : Ref sig .tc := ⟨.hbm, 132, rfl⟩
abbrev main_v106 : Ref sig .tc := ⟨.hbm, 133, rfl⟩
abbrev main_v107 : Ref sig .tc := ⟨.hbm, 134, rfl⟩
abbrev main_v108 : Ref sig .tc := ⟨.hbm, 135, rfl⟩
abbrev main_v109 : Ref sig .tc := ⟨.hbm, 136, rfl⟩
abbrev main_cst_11 : Ref sig .tc := ⟨.hbm, 137, rfl⟩
abbrev main_v110 : Ref sig .tc := ⟨.hbm, 138, rfl⟩
abbrev main_v111 : Ref sig .tc := ⟨.hbm, 139, rfl⟩
abbrev main_v112 : Ref sig .tc := ⟨.hbm, 140, rfl⟩
abbrev main_v113 : Ref sig .tc := ⟨.hbm, 141, rfl⟩
abbrev main_v114 : Ref sig .tc := ⟨.hbm, 142, rfl⟩
abbrev main_v115 : Ref sig .tc := ⟨.hbm, 143, rfl⟩
abbrev main_v116 : Ref sig .tc := ⟨.hbm, 144, rfl⟩
abbrev main_v117 : Ref sig .tc := ⟨.hbm, 145, rfl⟩
abbrev main_v118 : Ref sig .tc := ⟨.hbm, 146, rfl⟩
abbrev main_v119 : Ref sig .tc := ⟨.hbm, 147, rfl⟩
abbrev main_v120 : Ref sig .tc := ⟨.hbm, 148, rfl⟩
abbrev main_v121 : Ref sig .tc := ⟨.hbm, 149, rfl⟩
abbrev main_v122 : Ref sig .tc := ⟨.hbm, 150, rfl⟩
abbrev main_v123 : Ref sig .tc := ⟨.hbm, 151, rfl⟩
abbrev main_v124 : Ref sig .tc := ⟨.hbm, 152, rfl⟩
abbrev main_v125 : Ref sig .tc := ⟨.hbm, 153, rfl⟩
abbrev main_v126 : Ref sig .tc := ⟨.hbm, 154, rfl⟩
abbrev main_cst_12 : Ref sig .tc := ⟨.hbm, 155, rfl⟩
abbrev main_v127 : Ref sig .tc := ⟨.hbm, 156, rfl⟩
abbrev main_v128 : Ref sig .tc := ⟨.hbm, 157, rfl⟩
abbrev main_v129 : Ref sig .tc := ⟨.hbm, 158, rfl⟩
abbrev main_v130 : Ref sig .tc := ⟨.hbm, 159, rfl⟩
abbrev main_v131 : Ref sig .tc := ⟨.hbm, 160, rfl⟩
abbrev main_v132 : Ref sig .tc := ⟨.hbm, 161, rfl⟩
abbrev main_v133 : Ref sig .tc := ⟨.hbm, 162, rfl⟩
abbrev main_v134 : Ref sig .tc := ⟨.hbm, 163, rfl⟩
abbrev main_v135 : Ref sig .tc := ⟨.hbm, 164, rfl⟩
abbrev main_v136 : Ref sig .tc := ⟨.hbm, 165, rfl⟩
abbrev main_v137 : Ref sig .tc := ⟨.hbm, 166, rfl⟩
abbrev main_v138 : Ref sig .tc := ⟨.hbm, 167, rfl⟩
abbrev main_call2_cst : Ref sig .tc := ⟨.hbm, 168, rfl⟩
abbrev main_call2_v0 : Ref sig .tc := ⟨.hbm, 169, rfl⟩
abbrev main_v139 : Ref sig .tc := ⟨.hbm, 170, rfl⟩
abbrev main_v140 : Ref sig .tc := ⟨.hbm, 171, rfl⟩

abbrev nD : Nat := 1
abbrev τ : Topo := Topo.v7x

variable {F : FTy → Type} [FloatOps F]

class Facts₀ : Prop where
  slices_S2x1250000_S1x1250000_0_0 : S2x1250000.Slices ![0, 0] S1x1250000
  shapeCasts_S1x1250000_S1250000 : S1x1250000.ShapeCasts S1250000
  concatenates_S1250000_S100000_S1350000_d0 : Shape.Concatenates [S1250000, S100000] S1350000 0
  slices_S2x1250000_S1x1250000_1_0 : S2x1250000.Slices ![1, 0] S1x1250000
  bcast_S_S1350000 : S_.BroadcastsInDim S1350000 (![] : Fin 0 → Fin S1350000.rank)
  bcast_S_S100000 : S_.BroadcastsInDim S100000 (![] : Fin 0 → Fin S100000.rank)
  bcast_S1350000_S1350000x1_0 : S1350000.BroadcastsInDim S1350000x1 (![0] : Fin 1 → Fin S1350000x1.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  slices_S3x64_S1x64_0_0 : S3x64.Slices ![0, 0] S1x64
  shapeCasts_S1x64_S64 : S1x64.ShapeCasts S64
  bcast_S_S64 : S_.BroadcastsInDim S64 (![] : Fin 0 → Fin S64.rank)
  bcast_S_S100000x64 : S_.BroadcastsInDim S100000x64 (![] : Fin 0 → Fin S100000x64.rank)
  slices_S2x64x64_S1x64x64_0_0_0 : S2x64x64.Slices ![0, 0, 0] S1x64x64
  shapeCasts_S1x64x64_S64x64 : S1x64x64.ShapeCasts S64x64
  bcast_S1350000x1_S1350000x64_0_1 : S1350000x1.BroadcastsInDim S1350000x64 (![0, 1] : Fin 2 → Fin S1350000x64.rank)
  slices_S2x64_S1x64_0_0 : S2x64.Slices ![0, 0] S1x64
  slices_S3x64_S1x64_1_0 : S3x64.Slices ![1, 0] S1x64
  slices_S2x64x64_S1x64x64_1_0_0 : S2x64x64.Slices ![1, 0, 0] S1x64x64
  slices_S2x64_S1x64_1_0 : S2x64.Slices ![1, 0] S1x64
  slices_S3x64_S1x64_2_0 : S3x64.Slices ![2, 0] S1x64
  scatter_S100000_S1350000x1_S1350000_n_0_0_1_wf : ScatterDims.WF S100000 S1350000x1 S1350000 [] [0] [0] 1
  gather_S100000_S1350000x1_S1350000_n_0_n_n_0_1_1_wf : GatherDims.WF S100000 S1350000x1 S1350000 [] [0] [] [0] [] 1 ![1]
  dot_S100000x128_S128x64_S100000x64_1_0_0_1_n_n_wf : DotDims.WF S100000x128 S128x64 S100000x64 [1] [0] [0] [1] [] []
  dot_S100000x64_S64x64_S100000x64_1_0_0_1_n_n_wf : DotDims.WF S100000x64 S64x64 S100000x64 [1] [0] [0] [1] [] []
  gather_S100000x64_S1350000x1_S1350000x64_1_0_n_n_0_1_164_wf : GatherDims.WF S100000x64 S1350000x1 S1350000x64 [1] [0] [] [0] [] 1 ![1, 64]
  scatter_S100000x64_S1350000x1_S1350000x64_1_0_0_1_wf : ScatterDims.WF S100000x64 S1350000x1 S1350000x64 [1] [0] [0] 1

variable [Facts₀]

def scatter_S100000_S1350000x1_S1350000_n_0_0_1 : ScatterDims S100000 S1350000x1 S1350000 where
  updateWindowDims := []
  insertedWindowDims := [0]
  scatterDimsToOperandDims := [0]
  indexVectorDim := 1
  wf := scatter_S100000_S1350000x1_S1350000_n_0_0_1_wf
def gather_S100000_S1350000x1_S1350000_n_0_n_n_0_1_1 : GatherDims S100000 S1350000x1 S1350000 where
  offsetDims := []
  collapsedSliceDims := [0]
  operandBatchingDims := []
  startIndicesBatchingDims := []
  startIndexMap := [0]
  indexVectorDim := 1
  sliceSizes := ![1]
  wf := gather_S100000_S1350000x1_S1350000_n_0_n_n_0_1_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S1350000x1_S1350000x64_1_0_n_n_0_1_164 : GatherDims S100000x64 S1350000x1 S1350000x64 where
  offsetDims := [1]
  collapsedSliceDims := [0]
  operandBatchingDims := []
  startIndicesBatchingDims := []
  startIndexMap := [0]
  indexVectorDim := 1
  sliceSizes := ![1, 64]
  wf := gather_S100000x64_S1350000x1_S1350000x64_1_0_n_n_0_1_164_wf
def scatter_S100000x64_S1350000x1_S1350000x64_1_0_0_1 : ScatterDims S100000x64 S1350000x1 S1350000x64 where
  updateWindowDims := [1]
  insertedWindowDims := [0]
  scatterDimsToOperandDims := [0]
  indexVectorDim := 1
  wf := scatter_S100000x64_S1350000x1_S1350000x64_1_0_0_1_wf

class Facts : Prop extends Facts₀ where

variable [Facts]
-- ==== Proof.KRun.lean ====
/-
  The kernel program's run with its RESULT named.

  The program is ten segments: five stretches of host operations and five kernel launches. The buffer contents
  at each segment boundary form a fold from the launch memory: a host stretch applies its operations, a launch
  replaces its arrays by what its write-backs leave. Every weakly fair execution terminates without fault in a
  state whose unscoped buffers hold the last boundary's contents; reading that state at the result buffer and
  at the ten argument buffers gives the post below. The arguments are never written, so they walk back through
  the fold to the launch memory.
-/
import proofs.«144022_j16149077033381_1_alg».proof.Proof.Gen.KernelIdeal.Frame

set_option maxRecDepth 16384

noncomputable section

namespace Cert.Gcn.Kernel

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting; the result buffer ends at the last boundary's
    contents and the argument arrays as launched. -/
theorem run_value : θ_run defs (onTc (τ := τ) (main (F := F))) ⟨m, fun _ => 0, ρ⟩ (fun r => ∀ c : Dev nD,
      r.2.mem ((c.tc : Thread nD τ).loc main_v92) = W10 m ρ c (Proc.devRef .tc main_v92)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v92 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c),
       (h c _ (mem_uc main_arg8 (by decide))).trans (W10_main_arg8 m ρ c),
       (h c _ (mem_uc main_arg9 (by decide))).trans (W10_main_arg9 m ρ c)⟩)

end Cert.Gcn.Kernel

end
-- ==== Proof.KPayload.lean ====
/-
  The arithmetic of the three kernel bodies at the extended reals, read at a row `p` and a column `q` of a
  10000×64 block.

  * The projection body: the block of `x` times the weight matrix (a sum over the 128 input features; the
    change of float format on the way in is the identity), plus the bias row, times the scale row, plus the shift
    row, rectified.
  * The feature-transform body: the block times a 64×64 matrix, a sum over 64 features.
  * The normalisation body: bias, scale, shift, rectifier, then the residual block added.

  A 1×64 row broadcast down the block reads its column `q` at row 0.
-/
import proofs.«144022_j16149077033381_1_alg».proof.Proof.Gen.KernelIdeal.Skeleton
import Idealize.ShloMosaic.Lib.ValueIdx
import Idealize.ShloMosaic.Lib.Pipeline.Value
import Idealize.ShloMosaic.PureOps.Ideal.Laws

noncomputable section

namespace Cert.Gcn.Kernel

open Cert.KernelIdeal Cert.KernelIdeal.Gen Idealize.ShloMosaic Idealize.ShloMosaic.ValueIdx

/-- A 1×64 row broadcast over 10000 rows, read at `(p, q)`, is the row's entry `q`. -/
theorem bcastRow_apply (v : Vec Ideal S1x64 .f32) (p : Fin 10000) (q : Fin 64) :
    (broadcastTo S10000x64 v broadcasts_S1x64_S10000x64 : FVec Ideal S10000x64 .f32) (ix2 p q)
      = v (ix2 0 q) := by
  refine broadcastTo_apply v _ (ix2 p q) (ix2 0 q) (fun a => ?_)
  match a with
  | ⟨0, _⟩ => rfl
  | ⟨1, _⟩ => rfl

/-! ## The 128-feature product of the projection -/

section Dot128

local notation "D128" => dot_S10000x128_S128x64_S10000x64_1_0_0_1_n_n

theorem d128_lhs0 (i : S10000x64.Idx) (k : (D128).contr.Idx) : ((D128).lhsIdx i k 0).val = (i 0).val := by
  unfold DotDims.lhsIdx
  rw [dif_neg (show ¬(0 : Fin S10000x128.rank) ∈ (D128).lhsBatch by decide), dif_pos (show (0 : Fin S10000x128.rank) ∈ (D128).lhsNonContracting by decide)]
  rfl
theorem d128_lhs1 (i : S10000x64.Idx) (k : (D128).contr.Idx) : ((D128).lhsIdx i k 1).val = (k ⟨0, by decide⟩).val :=
  (D128).lhsIdx_val_of_single rfl i k
theorem d128_rhs0 (i : S10000x64.Idx) (k : (D128).contr.Idx) : ((D128).rhsIdx i k 0).val = (k ⟨0, by decide⟩).val :=
  (D128).rhsIdx_val_of_single rfl i k
theorem d128_rhs1 (i : S10000x64.Idx) (k : (D128).contr.Idx) : ((D128).rhsIdx i k 1).val = (i 1).val := by
  unfold DotDims.rhsIdx
  rw [dif_neg (show ¬(1 : Fin S128x64.rank) ∈ (D128).rhsBatch by decide), dif_pos (show (1 : Fin S128x64.rank) ∈ (D128).rhsNonContracting by decide)]
  rfl

/-- The block's product with the 128×64 weights at `(p, q)`: the sum over the input features. -/
theorem dot128_apply (x : Vec Ideal S10000x128 .f32) (w : Vec Ideal S128x64 .f32) (p : Fin 10000) (q : Fin 64) :
    (matmul D128 none (truncf .bf16 x bitsLt_bf16_f32) (truncf .bf16 w bitsLt_bf16_f32) (constant S10000x64 .f32 0x00000000#32) : FVec Ideal S10000x64 .f32) (ix2 p q)
      = ∑ k : Fin 128, x (ix2 p k) * w (ix2 k q) := by
  show FloatOps.matmul D128 none _ _ _ (ix2 p q) = _
  rw [Ideal.matmul_constant_zero_apply, ← Equiv.sum_comp (ValueIdx.contrEquiv1 D128 128 rfl rfl).symm]
  refine Finset.sum_congr rfl fun k _ => ?_
  have hk := ValueIdx.contrEquiv1_symm_val D128 128 rfl rfl k
  have el : (D128).lhsIdx (ix2 p q) ((ValueIdx.contrEquiv1 D128 128 rfl rfl).symm k) = ix2 p k := funext fun a => Fin.ext (by
    match a with
    | ⟨0, _⟩ => exact d128_lhs0 _ _
    | ⟨1, _⟩ => exact (d128_lhs1 _ _).trans hk)
  have er : (D128).rhsIdx (ix2 p q) ((ValueIdx.contrEquiv1 D128 128 rfl rfl).symm k) = ix2 k q := funext fun a => Fin.ext (by
    match a with
    | ⟨0, _⟩ => exact (d128_rhs0 _ _).trans hk
    | ⟨1, _⟩ => exact d128_rhs1 _ _)
  rw [truncf_apply, truncf_apply, el, er]

end Dot128

/-! ## The 64-feature product of a feature transform -/

section Dot64

local notation "D64" => dot_S10000x64_S64x64_S10000x64_1_0_0_1_n_n

theorem d64_lhs0 (i : S10000x64.Idx) (k : (D64).contr.Idx) : ((D64).lhsIdx i k 0).val = (i 0).val := by
  unfold DotDims.lhsIdx
  rw [dif_neg (show ¬(0 : Fin S10000x64.rank) ∈ (D64).lhsBatch by decide), dif_pos (show (0 : Fin S10000x64.rank) ∈ (D64).lhsNonContracting by decide)]
  rfl
theorem d64_lhs1 (i : S10000x64.Idx) (k : (D64).contr.Idx) : ((D64).lhsIdx i k 1).val = (k ⟨0, by decide⟩).val :=
  (D64).lhsIdx_val_of_single rfl i k
theorem d64_rhs0 (i : S10000x64.Idx) (k : (D64).contr.Idx) : ((D64).rhsIdx i k 0).val = (k ⟨0, by decide⟩).val :=
  (D64).rhsIdx_val_of_single rfl i k
theorem d64_rhs1 (i : S10000x64.Idx) (k : (D64).contr.Idx) : ((D64).rhsIdx i k 1).val = (i 1).val := by
  unfold DotDims.rhsIdx
  rw [dif_neg (show ¬(1 : Fin S64x64.rank) ∈ (D64).rhsBatch by decide), dif_pos (show (1 : Fin S64x64.rank) ∈ (D64).rhsNonContracting by decide)]
  rfl

/-- The block's product with a 64×64 matrix at `(p, q)`: the sum over the 64 features. -/
theorem dot64_apply (h : Vec Ideal S10000x64 .f32) (w : Vec Ideal S64x64 .f32) (p : Fin 10000) (q : Fin 64) :
    (matmul D64 none (truncf .bf16 h bitsLt_bf16_f32) (truncf .bf16 w bitsLt_bf16_f32) (constant S10000x64 .f32 0x00000000#32) : FVec Ideal S10000x64 .f32) (ix2 p q)
      = ∑ k : Fin 64, h (ix2 p k) * w (ix2 k q) := by
  show FloatOps.matmul D64 none _ _ _ (ix2 p q) = _
  rw [Ideal.matmul_constant_zero_apply, ← Equiv.sum_comp (ValueIdx.contrEquiv1 D64 64 rfl rfl).symm]
  refine Finset.sum_congr rfl fun k _ => ?_
  have hk := ValueIdx.contrEquiv1_symm_val D64 64 rfl rfl k
  have el : (D64).lhsIdx (ix2 p q) ((ValueIdx.contrEquiv1 D64 64 rfl rfl).symm k) = ix2 p k := funext fun a => Fin.ext (by
    match a with
    | ⟨0, _⟩ => exact d64_lhs0 _ _
    | ⟨1, _⟩ => exact (d64_lhs1 _ _).trans hk)
  have er : (D64).rhsIdx (ix2 p q) ((ValueIdx.contrEquiv1 D64 64 rfl rfl).symm k) = ix2 k q := funext fun a => Fin.ext (by
    match a with
    | ⟨0, _⟩ => exact (d64_rhs0 _ _).trans hk
    | ⟨1, _⟩ => exact d64_rhs1 _ _)
  rw [truncf_apply, truncf_apply, el, er]

end Dot64

/-! ## The three bodies at `(p, q)` -/

/-- The projection body. -/
theorem fcBody_apply (x : Vec Ideal S10000x128 .f32) (w : Vec Ideal S128x64 .f32) (b sc sh : Vec Ideal S1x64 .f32)
    (p : Fin 10000) (q : Fin 64) :
    k0_pay1 (F := Ideal) x w b sc sh (ix2 p q)
      = max (((∑ k : Fin 128, x (ix2 p k) * w (ix2 k q)) + b (ix2 0 q)) * sc (ix2 0 q) + sh (ix2 0 q)) (Ideal.ofBits .f32 0x00000000#32) := by
  unfold k0_pay1
  simp only [shapeCast_self]
  rw [maximumf_apply, addf_apply, mulf_apply, addf_apply, dot128_apply, bcastRow_apply, bcastRow_apply, bcastRow_apply, broadcast_apply]
  rfl

/-- The first feature-transform body. -/
theorem mmBody1_apply (h : Vec Ideal S10000x64 .f32) (w : Vec Ideal S64x64 .f32) (p : Fin 10000) (q : Fin 64) :
    k1_pay1 (F := Ideal) h w (ix2 p q) = ∑ k : Fin 64, h (ix2 p k) * w (ix2 k q) := by
  unfold k1_pay1
  simp only [shapeCast_self]
  rw [dot64_apply]

/-- The second feature-transform body. -/
theorem mmBody2_apply (h : Vec Ideal S10000x64 .f32) (w : Vec Ideal S64x64 .f32) (p : Fin 10000) (q : Fin 64) :
    k3_pay1 (F := Ideal) h w (ix2 p q) = ∑ k : Fin 64, h (ix2 p k) * w (ix2 k q) := by
  unfold k3_pay1
  simp only [shapeCast_self]
  rw [dot64_apply]

/-- The first normalisation body. -/
theorem bnBody1_apply (agg : Vec Ideal S10000x64 .f32) (b sc sh : Vec Ideal S1x64 .f32) (last : Vec Ideal S10000x64 .f32)
    (p : Fin 10000) (q : Fin 64) :
    k2_pay1 (F := Ideal) agg b sc sh last (ix2 p q)
      = max ((agg (ix2 p q) + b (ix2 0 q)) * sc (ix2 0 q) + sh (ix2 0 q)) (Ideal.ofBits .f32 0x00000000#32) + last (ix2 p q) := by
  unfold k2_pay1
  simp only [shapeCast_self]
  rw [addf_apply, maximumf_apply, addf_apply, mulf_apply, addf_apply, bcastRow_apply, bcastRow_apply, bcastRow_apply, broadcast_apply]
  rfl

/-- The second normalisation body. -/
theorem bnBody2_apply (agg : Vec Ideal S10000x64 .f32) (b sc sh : Vec Ideal S1x64 .f32) (last : Vec Ideal S10000x64 .f32)
    (p : Fin 10000) (q : Fin 64) :
    k4_pay1 (F := Ideal) agg b sc sh last (ix2 p q)
      = max ((agg (ix2 p q) + b (ix2 0 q)) * sc (ix2 0 q) + sh (ix2 0 q)) (Ideal.ofBits .f32 0x00000000#32) + last (ix2 p q) := by
  unfold k4_pay1
  simp only [shapeCast_self]
  rw [addf_apply, maximumf_apply, addf_apply, mulf_apply, addf_apply, bcastRow_apply, bcastRow_apply, bcastRow_apply, broadcast_apply]
  rfl

end Cert.Gcn.Kernel

end
-- ==== Proof.Spec.lean ====
/-
  The three dense stages of the network as whole-array functions over the extended reals, index by index.

  * `fcSpec`   : the input projection followed by the affine form of batch normalisation and a rectifier,
                 `max ((Σₖ x[i,k]·w[k,j] + b[j])·sc[j] + sh[j]) 0`;
  * `mmSpec`   : a feature transform, `Σₖ h[i,k]·w[k,j]`;
  * `bnResSpec`: bias, affine batch normalisation, rectifier and the residual,
                 `max ((agg[i,j] + b[j])·sc[j] + sh[j]) 0 + last[i,j]`.

  Row vectors are kept as 1×64 arrays, read at `(0, j)`. The rectifier's zero is kept as the float word both
  programs carry, so it is never evaluated.
-/
import Idealize.ShloMosaic.PureOps.Ideal
import Idealize.ShloMosaic.Lib.ValueIdx

noncomputable section

namespace Cert.Gcn

open Idealize.ShloMosaic Idealize.ShloMosaic.ValueIdx

/-- A two-axis shape. -/
abbrev Sh (a b : Nat) : Shape := ⟨2, ![a, b]⟩

/-- The rectifier's threshold: the float word `0x00000000`. -/
abbrev zeroWord : EReal := Ideal.ofBits .f32 0x00000000#32

/-- Projection, affine batch normalisation, rectifier. -/
def fcSpec (x : (Sh 100000 128).Idx → EReal) (w : (Sh 128 64).Idx → EReal) (b sc sh : (Sh 1 64).Idx → EReal) :
    (Sh 100000 64).Idx → EReal :=
  fun i => max (((∑ k : Fin 128, x (ix2 (i 0) k) * w (ix2 k (i 1))) + b (ix2 0 (i 1))) * sc (ix2 0 (i 1))
    + sh (ix2 0 (i 1))) zeroWord

/-- A 64×64 feature transform of every row. -/
def mmSpec (h : (Sh 100000 64).Idx → EReal) (w : (Sh 64 64).Idx → EReal) : (Sh 100000 64).Idx → EReal :=
  fun i => ∑ k : Fin 64, h (ix2 (i 0) k) * w (ix2 k (i 1))

/-- Bias, affine batch normalisation, rectifier, residual. -/
def bnResSpec (agg : (Sh 100000 64).Idx → EReal) (b sc sh : (Sh 1 64).Idx → EReal) (last : (Sh 100000 64).Idx → EReal) :
    (Sh 100000 64).Idx → EReal :=
  fun i => max ((agg i + b (ix2 0 (i 1))) * sc (ix2 0 (i 1)) + sh (ix2 0 (i 1))) zeroWord + last i

end Cert.Gcn

end
-- ==== Proof.KRegion0.lean ====
/-
  The input projection: what the launch leaves in its result array, as one whole-array function.

  Grid point `t` of ten reads rows `10000·t … 10000·t + 9999` of the 100000×128 input, the whole 128×64 weight
  matrix and the three 1×64 rows (bias, scale, shift), and writes the same rows of the 100000×64 result. The ten
  row blocks partition the rows, so afterwards the result array is
  `max ((Σₖ x[i,k]·w[k,j] + b[j])·sc[j] + sh[j]) 0` at every index.
-/
import proofs.«144022_j16149077033381_1_alg».proof.Proof.Gen.KernelIdeal.Frame
import proofs.«144022_j16149077033381_1_alg».proof.Proof.KPayload
import proofs.«144022_j16149077033381_1_alg».proof.Proof.Spec
import Idealize.ShloMosaic.Lib.Pipeline.Value

set_option maxRecDepth 16384

noncomputable section

namespace Cert.Gcn.Kernel

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem zeroOff0 : (![0, 0] : Fin 2 → Nat) = fun _ => 0 := funext fun a => by fin_cases a <;> rfl

/-- The block indices over the grid: the input rows and the result move with the point; the weights and the
    three row vectors stay at block (0, 0). -/
theorem blockIdx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Row `p` of point `t`'s input block is row `10000·t + p` of the input. -/
theorem inputBlock0 (c : Dev nD) (t : Fin cfg0.N) (p : Fin 10000) (k : Fin 128) (i : S100000x128.Idx)
    (h0 : (i 0).val = t.val * 10000 + p.val) (h1 : (i 1).val = k.val) :
    (iblk0 V c 0 t : Vec Ideal S10000x128 .f32) (ix2 p k) = (V c main_arg0 : S100000x128.Idx → EReal) i := by
  obtain ⟨e0, e1, -⟩ := blockIdx0 t
  unfold iblk0
  rw [View.read_apply]
  show V c main_arg0 _ = V c main_arg0 _
  congr 1
  funext a
  apply Fin.ext
  match a with
  | ⟨0, _⟩ => show win0_0.index t (0 : Fin 2) * 10000 + 1 * p.val = (i 0).val; omega
  | ⟨1, _⟩ => show win0_0.index t (1 : Fin 2) * 128 + 1 * k.val = (i 1).val; omega

/-- The same, at the row's own index. -/
theorem inputRow0 (c : Dev nD) (t : Fin cfg0.N) (p : Fin 10000) (hlt : t.val * 10000 + p.val < 100000) (k : Fin 128) :
    (iblk0 V c 0 t : Vec Ideal S10000x128 .f32) (ix2 p k)
      = (V c main_arg0 : S100000x128.Idx → EReal) (ix2 (⟨t.val * 10000 + p.val, hlt⟩ : Fin 100000) k) :=
  inputBlock0 V c t p k _ rfl rfl

/-- The weight block is the whole matrix. -/
theorem weightBlock0 (c : Dev nD) (t : Fin cfg0.N) (k : Fin 128) (q : Fin 64) :
    (iblk0 V c 1 t : Vec Ideal S128x64 .f32) (ix2 k q) = (V c main_arg2 : S128x64.Idx → EReal) (ix2 k q) := by
  obtain ⟨-, -, e2, e3, -⟩ := blockIdx0 t
  unfold iblk0
  rw [View.read_apply]
  show V c main_arg2 _ = V c main_arg2 _
  congr 1
  funext a
  apply Fin.ext
  match a with
  | ⟨0, _⟩ => show win0_1.index t (0 : Fin 2) * 128 + 1 * k.val = k.val; omega
  | ⟨1, _⟩ => show win0_1.index t (1 : Fin 2) * 64 + 1 * q.val = q.val; omega

/-- The bias row's block is the whole row. -/
theorem biasBlock0 (c : Dev nD) (t : Fin cfg0.N) (q : Fin 64) :
    (iblk0 V c 2 t : Vec Ideal S1x64 .f32) (ix2 0 q) = (V c main_v33 : S1x64.Idx → EReal) (ix2 0 q) := by
  obtain ⟨-, -, -, -, e4, e5, e6, e7, e8, e9, -⟩ := blockIdx0 t
  unfold iblk0
  rw [View.read_apply]
  show V c main_v33 _ = V c main_v33 _
  congr 1
  funext a
  apply Fin.ext
  match a with
  | ⟨0, _⟩ => show win0_2.index t (0 : Fin 2) * 1 + 1 * 0 = 0; omega
  | ⟨1, _⟩ => show win0_2.index t (1 : Fin 2) * 64 + 1 * q.val = q.val; omega

/-- The scale row's block is the whole row. -/
theorem scaleBlock0 (c : Dev nD) (t : Fin cfg0.N) (q : Fin 64) :
    (iblk0 V c 3 t : Vec Ideal S1x64 .f32) (ix2 0 q) = (V c main_v36 : S1x64.Idx → EReal) (ix2 0 q) := by
  obtain ⟨-, -, -, -, e4, e5, e6, e7, e8, e9, -⟩ := blockIdx0 t
  unfold iblk0
  rw [View.read_apply]
  show V c main_v36 _ = V c main_v36 _
  congr 1
  funext a
  apply Fin.ext
  match a with
  | ⟨0, _⟩ => show win0_3.index t (0 : Fin 2) * 1 + 1 * 0 = 0; omega
  | ⟨1, _⟩ => show win0_3.index t (1 : Fin 2) * 64 + 1 * q.val = q.val; omega

/-- The shift row's block is the whole row. -/
theorem shiftBlock0 (c : Dev nD) (t : Fin cfg0.N) (q : Fin 64) :
    (iblk0 V c 4 t : Vec Ideal S1x64 .f32) (ix2 0 q) = (V c main_v39 : S1x64.Idx → EReal) (ix2 0 q) := by
  obtain ⟨-, -, -, -, e4, e5, e6, e7, e8, e9, -⟩ := blockIdx0 t
  unfold iblk0
  rw [View.read_apply]
  show V c main_v39 _ = V c main_v39 _
  congr 1
  funext a
  apply Fin.ext
  match a with
  | ⟨0, _⟩ => show win0_4.index t (0 : Fin 2) * 1 + 1 * 0 = 0; omega
  | ⟨1, _⟩ => show win0_4.index t (1 : Fin 2) * 64 + 1 * q.val = q.val; omega

/-- What point `t` writes back is block `t` of the projected, normalised and rectified features. -/
theorem written0 (c : Dev nD) (t : Fin cfg0.N) :
    (dat0 V c).flushed 5 t = ((cfg0.win 5).blk t).view.read (Elt Ideal)
      (Cert.Gcn.fcSpec (V c main_arg0) (V c main_arg2) (V c main_v33) (V c main_v36) (V c main_v39)) := by
  show (cfg0.win 5).cut (grid0.coords t) ((dat0 V c).after 5 t) = _
  rw [after0_5]
  unfold out0_5
  rw [View.canon_unit_zero zeroOff0]
  simp only [View.ld_unit_zero (S := S10000x128) zeroOff0, View.ld_unit_zero (S := S128x64) zeroOff0, View.ld_unit_zero (S := S1x64) zeroOff0]
  obtain ⟨-, -, -, -, -, -, -, -, -, -, e10, e11⟩ := blockIdx0 t
  funext j
  obtain ⟨p, q, rfl⟩ : ∃ (p : Fin 10000) (q : Fin 64), j = ix2 p q := ⟨j 0, j 1, eq_ix2 j⟩
  refine (fcBody_apply (iblk0 V c 0 t) (iblk0 V c 1 t) (iblk0 V c 2 t) (iblk0 V c 3 t) (iblk0 V c 4 t) p q).trans ?_
  have hp : p.val < 10000 := p.isLt
  have ht : t.val < 10 := lt_of_lt_of_eq t.isLt N_0
  have hlt : t.val * 10000 + p.val < 100000 := by omega
  have hI : ((cfg0.win 5).blk t).view.emb (ix2 p q) = (ix2 (⟨t.val * 10000 + p.val, hlt⟩ : Fin 100000) q : S100000x64.Idx) := by
    funext a
    apply Fin.ext
    match a with
    | ⟨0, _⟩ => show win0_5.index t (0 : Fin 2) * 10000 + 1 * p.val = t.val * 10000 + p.val; omega
    | ⟨1, _⟩ => show win0_5.index t (1 : Fin 2) * 64 + 1 * q.val = q.val; omega
  rw [View.read_apply, hI, biasBlock0 V c t q, scaleBlock0 V c t q, shiftBlock0 V c t q]
  simp only [inputRow0 V c t p hlt, weightBlock0 V c t]
  rfl

/-- An index is in point `t`'s result block iff each coordinate is in the block's range. -/
theorem inBlock0 (t : Fin cfg0.N) (i : S100000x64.Idx) :
    i ∈ ((cfg0.win 5).blk t).view.set ↔ ∀ a : Fin 2, win0_5.index t a * S10000x64.size a ≤ (i a).val ∧ (i a).val < win0_5.index t a * S10000x64.size a + S10000x64.size a := by
  show i ∈ ((View.whole main_v40).slice (win0_5.rect t)).set ↔ _
  rw [View.set_slice_whole, Rect.mem_set_unit]
  exact Iff.rfl

/-- Every index of the result lies in the block of the point `row / 10000`. -/
theorem covered0 (i : S100000x64.Idx) :
    ∃ t : Fin cfg0.N, (cfg0.win 5).flush t = true ∧ i ∈ ((cfg0.win 5).blk t).view.set := by
  have hi0 : (i 0).val < 100000 := (i 0).isLt
  have hi1 : (i 1).val < 64 := (i 1).isLt
  let t : Fin cfg0.N := ⟨(i 0).val / 10000, by show (i 0).val / 10000 < grid0.N; rw [N_0]; omega⟩
  obtain ⟨-, -, -, -, -, -, -, -, -, -, e10, e11⟩ := blockIdx0 t
  have ht : t.val = (i 0).val / 10000 := rfl
  refine ⟨t, flush0_5 t, ?_⟩
  rw [inBlock0]
  intro a
  match a with
  | ⟨0, _⟩ => show win0_5.index t (0 : Fin 2) * 10000 ≤ (i 0).val ∧ (i 0).val < win0_5.index t (0 : Fin 2) * 10000 + 10000; omega
  | ⟨1, _⟩ => show win0_5.index t (1 : Fin 2) * 64 ≤ (i 1).val ∧ (i 1).val < win0_5.index t (1 : Fin 2) * 64 + 64; omega

/-- The result array after the launch, at every index. -/
theorem result0 (c : Dev nD) :
    (dat0 V c).arrAt 5 cfg0.N
      = Cert.Gcn.fcSpec (V c main_arg0) (V c main_arg2) (V c main_v33) (V c main_v36) (V c main_v39) :=
  (dat0 V c).arrAt_eq_of_cover 5 _ (fun t _ => written0 V c t) (covered0)

end Cert.Gcn.Kernel

end
-- ==== Proof.KRegion1.lean ====
/-
  Feature transform of the first layer: what the launch leaves in its result array, as one whole-array function.

  Grid point `t` of ten multiplies rows `10000·t … 10000·t + 9999` of the 100000×64 input by the whole 64×64
  matrix and writes the same rows of the result. Every row lies in exactly one such block, so after the ten
  points the result array is `Σₖ h[i,k]·w[k,j]` at every index, whatever the array held before.
-/
import proofs.«144022_j16149077033381_1_alg».proof.Proof.Gen.KernelIdeal.Frame
import proofs.«144022_j16149077033381_1_alg».proof.Proof.KPayload
import proofs.«144022_j16149077033381_1_alg».proof.Proof.Spec
import Idealize.ShloMosaic.Lib.Pipeline.Value

set_option maxRecDepth 16384

noncomputable section

namespace Cert.Gcn.Kernel

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem zeroOff1 : (![0, 0] : Fin 2 → Nat) = fun _ => 0 := funext fun a => by fin_cases a <;> rfl

/-- The block indices over the grid: the row operand and the result move with the point along the rows; the
    matrix stays at block (0, 0). -/
theorem blockIdx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- Row `p` of point `t`'s input block is row `10000·t + p` of the array. -/
theorem rowsBlock1 (c : Dev nD) (t : Fin cfg1.N) (p : Fin 10000) (k : Fin 64) (i : S100000x64.Idx)
    (h0 : (i 0).val = t.val * 10000 + p.val) (h1 : (i 1).val = k.val) :
    (iblk1 V c 0 t : Vec Ideal S10000x64 .f32) (ix2 p k) = (V c main_v40 : S100000x64.Idx → EReal) i := by
  obtain ⟨e0, e1, -, -, -, -⟩ := blockIdx1 t
  unfold iblk1
  rw [View.read_apply]
  show V c main_v40 _ = V c main_v40 _
  congr 1
  funext a
  apply Fin.ext
  match a with
  | ⟨0, _⟩ => show win1_0.index t (0 : Fin 2) * 10000 + 1 * p.val = (i 0).val; omega
  | ⟨1, _⟩ => show win1_0.index t (1 : Fin 2) * 64 + 1 * k.val = (i 1).val; omega

/-- The matrix block is the whole matrix. -/
theorem matBlock1 (c : Dev nD) (t : Fin cfg1.N) (k q : Fin 64) :
    (iblk1 V c 1 t : Vec Ideal S64x64 .f32) (ix2 k q) = (V c main_v42 : S64x64.Idx → EReal) (ix2 k q) := by
  obtain ⟨-, -, e2, e3, -, -⟩ := blockIdx1 t
  unfold iblk1
  rw [View.read_apply]
  show V c main_v42 _ = V c main_v42 _
  congr 1
  funext a
  apply Fin.ext
  match a with
  | ⟨0, _⟩ => show win1_1.index t (0 : Fin 2) * 64 + 1 * k.val = k.val; omega
  | ⟨1, _⟩ => show win1_1.index t (1 : Fin 2) * 64 + 1 * q.val = q.val; omega

/-- What point `t` writes back is block `t` of the product of the arrays the launch finds. -/
theorem written1 (c : Dev nD) (t : Fin cfg1.N) :
    (dat1 V c).flushed 2 t = ((cfg1.win 2).blk t).view.read (Elt Ideal) (Cert.Gcn.mmSpec (V c main_v40) (V c main_v42)) := by
  show (cfg1.win 2).cut (grid1.coords t) ((dat1 V c).after 2 t) = _
  rw [after1_2]
  unfold out1_2
  rw [View.canon_unit_zero zeroOff1]
  simp only [View.ld_unit_zero (S := S10000x64) zeroOff1, View.ld_unit_zero (S := S64x64) zeroOff1]
  obtain ⟨-, -, -, -, e4, e5⟩ := blockIdx1 t
  funext j
  obtain ⟨p, q, rfl⟩ : ∃ (p : Fin 10000) (q : Fin 64), j = ix2 p q := ⟨j 0, j 1, eq_ix2 j⟩
  refine (mmBody1_apply (iblk1 V c 0 t) (iblk1 V c 1 t) p q).trans ?_
  rw [View.read_apply]
  unfold Cert.Gcn.mmSpec
  refine Finset.sum_congr rfl fun k _ => ?_
  rw [matBlock1 V c t k q]
  refine congrArg₂ (· * ·) (rowsBlock1 V c t p k _ ?_ rfl) (congrArg (V c main_v42) ?_)
  · show win1_2.index t (0 : Fin 2) * 10000 + 1 * p.val = t.val * 10000 + p.val; omega
  · funext a
    apply Fin.ext
    match a with
    | ⟨0, _⟩ => rfl
    | ⟨1, _⟩ => show q.val = win1_2.index t (1 : Fin 2) * 64 + 1 * q.val; omega

/-- An index is in point `t`'s result block iff each coordinate is in the block's range. -/
theorem inBlock1 (t : Fin cfg1.N) (i : S100000x64.Idx) :
    i ∈ ((cfg1.win 2).blk t).view.set ↔ ∀ a : Fin 2, win1_2.index t a * S10000x64.size a ≤ (i a).val ∧ (i a).val < win1_2.index t a * S10000x64.size a + S10000x64.size a := by
  show i ∈ ((View.whole main_v43).slice (win1_2.rect t)).set ↔ _
  rw [View.set_slice_whole, Rect.mem_set_unit]
  exact Iff.rfl

/-- Every index of the result lies in the block of the point `row / 10000`. -/
theorem covered1 (i : S100000x64.Idx) :
    ∃ t : Fin cfg1.N, (cfg1.win 2).flush t = true ∧ i ∈ ((cfg1.win 2).blk t).view.set := by
  have hi0 : (i 0).val < 100000 := (i 0).isLt
  have hi1 : (i 1).val < 64 := (i 1).isLt
  let t : Fin cfg1.N := ⟨(i 0).val / 10000, by show (i 0).val / 10000 < grid1.N; rw [N_1]; omega⟩
  obtain ⟨-, -, -, -, e4, e5⟩ := blockIdx1 t
  have ht : t.val = (i 0).val / 10000 := rfl
  refine ⟨t, flush1_2 t, ?_⟩
  rw [inBlock1]
  intro a
  match a with
  | ⟨0, _⟩ => show win1_2.index t (0 : Fin 2) * 10000 ≤ (i 0).val ∧ (i 0).val < win1_2.index t (0 : Fin 2) * 10000 + 10000; omega
  | ⟨1, _⟩ => show win1_2.index t (1 : Fin 2) * 64 ≤ (i 1).val ∧ (i 1).val < win1_2.index t (1 : Fin 2) * 64 + 64; omega

/-- The result array after the launch: the product, at every index. -/
theorem result1 (c : Dev nD) :
    (dat1 V c).arrAt 2 cfg1.N = Cert.Gcn.mmSpec (V c main_v40) (V c main_v42) :=
  (dat1 V c).arrAt_eq_of_cover 2 _ (fun t _ => written1 V c t) (covered1)

end Cert.Gcn.Kernel

end
-- ==== Proof.KRegion2.lean ====
/-
  Normalisation of the first layer: what the launch leaves in its result array, as one whole-array function.

  Grid point `t` of ten reads rows `10000·t … 10000·t + 9999` of the aggregated features and of the residual,
  and the three 1×64 rows (bias, scale, shift) whole, and writes the same rows of the result. The ten row blocks
  partition the rows, so afterwards the result array is
  `max ((agg[i,j] + b[j])·sc[j] + sh[j]) 0 + last[i,j]` at every index.
-/
import proofs.«144022_j16149077033381_1_alg».proof.Proof.Gen.KernelIdeal.Frame
import proofs.«144022_j16149077033381_1_alg».proof.Proof.KPayload
import proofs.«144022_j16149077033381_1_alg».proof.Proof.Spec
import Idealize.ShloMosaic.Lib.Pipeline.Value

set_option maxRecDepth 16384

noncomputable section

namespace Cert.Gcn.Kernel

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem zeroOff2 : (![0, 0] : Fin 2 → Nat) = fun _ => 0 := funext fun a => by fin_cases a <;> rfl

/-- The block indices over the grid: the two row operands and the result move with the point along the rows;
    the three row vectors stay at block (0, 0). -/
theorem blockIdx2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0
    ∧ win2_5.index t (0 : Fin 2) = t.val ∧ win2_5.index t (1 : Fin 2) = 0 :=
  (by decide +kernel : ∀ t : Fin grid2.N, _)

/-- Row `p` of point `t`'s block of the aggregated features is row `10000·t + p` of the array. -/
theorem aggBlock2 (c : Dev nD) (t : Fin cfg2.N) (p : Fin 10000) (q : Fin 64) (i : S100000x64.Idx)
    (h0 : (i 0).val = t.val * 10000 + p.val) (h1 : (i 1).val = q.val) :
    (iblk2 V c 0 t : Vec Ideal S10000x64 .f32) (ix2 p q) = (V c main_v56 : S100000x64.Idx → EReal) i := by
  obtain ⟨e0, e1, -⟩ := blockIdx2 t
  unfold iblk2
  rw [View.read_apply]
  show V c main_v56 _ = V c main_v56 _
  congr 1
  funext a
  apply Fin.ext
  match a with
  | ⟨0, _⟩ => show win2_0.index t (0 : Fin 2) * 10000 + 1 * p.val = (i 0).val; omega
  | ⟨1, _⟩ => show win2_0.index t (1 : Fin 2) * 64 + 1 * q.val = (i 1).val; omega

/-- The same for the residual. -/
theorem lastBlock2 (c : Dev nD) (t : Fin cfg2.N) (p : Fin 10000) (q : Fin 64) (i : S100000x64.Idx)
    (h0 : (i 0).val = t.val * 10000 + p.val) (h1 : (i 1).val = q.val) :
    (iblk2 V c 4 t : Vec Ideal S10000x64 .f32) (ix2 p q) = (V c main_v40 : S100000x64.Idx → EReal) i := by
  obtain ⟨-, -, -, -, -, -, -, -, e8, e9, -⟩ := blockIdx2 t
  unfold iblk2
  rw [View.read_apply]
  show V c main_v40 _ = V c main_v40 _
  congr 1
  funext a
  apply Fin.ext
  match a with
  | ⟨0, _⟩ => show win2_4.index t (0 : Fin 2) * 10000 + 1 * p.val = (i 0).val; omega
  | ⟨1, _⟩ => show win2_4.index t (1 : Fin 2) * 64 + 1 * q.val = (i 1).val; omega

/-- The bias row's block is the whole row. -/
theorem biasBlock2 (c : Dev nD) (t : Fin cfg2.N) (q : Fin 64) :
    (iblk2 V c 1 t : Vec Ideal S1x64 .f32) (ix2 0 q) = (V c main_v59 : S1x64.Idx → EReal) (ix2 0 q) := by
  obtain ⟨-, -, e2, e3, -⟩ := blockIdx2 t
  unfold iblk2
  rw [View.read_apply]
  show V c main_v59 _ = V c main_v59 _
  congr 1
  funext a
  apply Fin.ext
  match a with
  | ⟨0, _⟩ => show win2_1.index t (0 : Fin 2) * 1 + 1 * 0 = 0; omega
  | ⟨1, _⟩ => show win2_1.index t (1 : Fin 2) * 64 + 1 * q.val = q.val; omega

/-- The scale row's block is the whole row. -/
theorem scaleBlock2 (c : Dev nD) (t : Fin cfg2.N) (q : Fin 64) :
    (iblk2 V c 2 t : Vec Ideal S1x64 .f32) (ix2 0 q) = (V c main_v62 : S1x64.Idx → EReal) (ix2 0 q) := by
  obtain ⟨-, -, -, -, e4, e5, -⟩ := blockIdx2 t
  unfold iblk2
  rw [View.read_apply]
  show V c main_v62 _ = V c main_v62 _
  congr 1
  funext a
  apply Fin.ext
  match a with
  | ⟨0, _⟩ => show win2_2.index t (0 : Fin 2) * 1 + 1 * 0 = 0; omega
  | ⟨1, _⟩ => show win2_2.index t (1 : Fin 2) * 64 + 1 * q.val = q.val; omega

/-- The shift row's block is the whole row. -/
theorem shiftBlock2 (c : Dev nD) (t : Fin cfg2.N) (q : Fin 64) :
    (iblk2 V c 3 t : Vec Ideal S1x64 .f32) (ix2 0 q) = (V c main_v65 : S1x64.Idx → EReal) (ix2 0 q) := by
  obtain ⟨-, -, -, -, -, -, e6, e7, -⟩ := blockIdx2 t
  unfold iblk2
  rw [View.read_apply]
  show V c main_v65 _ = V c main_v65 _
  congr 1
  funext a
  apply Fin.ext
  match a with
  | ⟨0, _⟩ => show win2_3.index t (0 : Fin 2) * 1 + 1 * 0 = 0; omega
  | ⟨1, _⟩ => show win2_3.index t (1 : Fin 2) * 64 + 1 * q.val = q.val; omega

/-- What point `t` writes back is block `t` of the normalised, rectified features plus the residual. -/
theorem written2 (c : Dev nD) (t : Fin cfg2.N) :
    (dat2 V c).flushed 5 t = ((cfg2.win 5).blk t).view.read (Elt Ideal)
      (Cert.Gcn.bnResSpec (V c main_v56) (V c main_v59) (V c main_v62) (V c main_v65) (V c main_v40)) := by
  show (cfg2.win 5).cut (grid2.coords t) ((dat2 V c).after 5 t) = _
  rw [after2_5]
  unfold out2_5
  rw [View.canon_unit_zero zeroOff2]
  simp only [View.ld_unit_zero (S := S10000x64) zeroOff2, View.ld_unit_zero (S := S1x64) zeroOff2]
  obtain ⟨-, -, -, -, -, -, -, -, -, -, e10, e11⟩ := blockIdx2 t
  funext j
  obtain ⟨p, q, rfl⟩ : ∃ (p : Fin 10000) (q : Fin 64), j = ix2 p q := ⟨j 0, j 1, eq_ix2 j⟩
  refine (bnBody1_apply (iblk2 V c 0 t) (iblk2 V c 1 t) (iblk2 V c 2 t) (iblk2 V c 3 t) (iblk2 V c 4 t) p q).trans ?_
  have hp : p.val < 10000 := p.isLt
  have ht : t.val < 10 := lt_of_lt_of_eq t.isLt N_2
  have hlt : t.val * 10000 + p.val < 100000 := by omega
  have hI : ((cfg2.win 5).blk t).view.emb (ix2 p q) = (ix2 (⟨t.val * 10000 + p.val, hlt⟩ : Fin 100000) q : S100000x64.Idx) := by
    funext a
    apply Fin.ext
    match a with
    | ⟨0, _⟩ => show win2_5.index t (0 : Fin 2) * 10000 + 1 * p.val = t.val * 10000 + p.val; omega
    | ⟨1, _⟩ => show win2_5.index t (1 : Fin 2) * 64 + 1 * q.val = q.val; omega
  rw [View.read_apply, hI, aggBlock2 V c t p q (ix2 (⟨t.val * 10000 + p.val, hlt⟩ : Fin 100000) q) rfl rfl,
    lastBlock2 V c t p q (ix2 (⟨t.val * 10000 + p.val, hlt⟩ : Fin 100000) q) rfl rfl,
    biasBlock2 V c t q, scaleBlock2 V c t q, shiftBlock2 V c t q]
  rfl

/-- An index is in point `t`'s result block iff each coordinate is in the block's range. -/
theorem inBlock2 (t : Fin cfg2.N) (i : S100000x64.Idx) :
    i ∈ ((cfg2.win 5).blk t).view.set ↔ ∀ a : Fin 2, win2_5.index t a * S10000x64.size a ≤ (i a).val ∧ (i a).val < win2_5.index t a * S10000x64.size a + S10000x64.size a := by
  show i ∈ ((View.whole main_v66).slice (win2_5.rect t)).set ↔ _
  rw [View.set_slice_whole, Rect.mem_set_unit]
  exact Iff.rfl

/-- Every index of the result lies in the block of the point `row / 10000`. -/
theorem covered2 (i : S100000x64.Idx) :
    ∃ t : Fin cfg2.N, (cfg2.win 5).flush t = true ∧ i ∈ ((cfg2.win 5).blk t).view.set := by
  have hi0 : (i 0).val < 100000 := (i 0).isLt
  have hi1 : (i 1).val < 64 := (i 1).isLt
  let t : Fin cfg2.N := ⟨(i 0).val / 10000, by show (i 0).val / 10000 < grid2.N; rw [N_2]; omega⟩
  obtain ⟨-, -, -, -, -, -, -, -, -, -, e10, e11⟩ := blockIdx2 t
  have ht : t.val = (i 0).val / 10000 := rfl
  refine ⟨t, flush2_5 t, ?_⟩
  rw [inBlock2]
  intro a
  match a with
  | ⟨0, _⟩ => show win2_5.index t (0 : Fin 2) * 10000 ≤ (i 0).val ∧ (i 0).val < win2_5.index t (0 : Fin 2) * 10000 + 10000; omega
  | ⟨1, _⟩ => show win2_5.index t (1 : Fin 2) * 64 ≤ (i 1).val ∧ (i 1).val < win2_5.index t (1 : Fin 2) * 64 + 64; omega

/-- The result array after the launch, at every index. -/
theorem result2 (c : Dev nD) :
    (dat2 V c).arrAt 5 cfg2.N
      = Cert.Gcn.bnResSpec (V c main_v56) (V c main_v59) (V c main_v62) (V c main_v65) (V c main_v40) :=
  (dat2 V c).arrAt_eq_of_cover 5 _ (fun t _ => written2 V c t) (covered2)

end Cert.Gcn.Kernel

end
-- ==== Proof.KRegion3.lean ====
/-
  Feature transform of the second layer: what the launch leaves in its result array, as one whole-array function.

  Grid point `t` of ten multiplies rows `10000·t … 10000·t + 9999` of the 100000×64 input by the whole 64×64
  matrix and writes the same rows of the result. Every row lies in exactly one such block, so after the ten
  points the result array is `Σₖ h[i,k]·w[k,j]` at every index, whatever the array held before.
-/
import proofs.«144022_j16149077033381_1_alg».proof.Proof.Gen.KernelIdeal.Frame
import proofs.«144022_j16149077033381_1_alg».proof.Proof.KPayload
import proofs.«144022_j16149077033381_1_alg».proof.Proof.Spec
import Idealize.ShloMosaic.Lib.Pipeline.Value

set_option maxRecDepth 16384

noncomputable section

namespace Cert.Gcn.Kernel

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem zeroOff3 : (![0, 0] : Fin 2 → Nat) = fun _ => 0 := funext fun a => by fin_cases a <;> rfl

/-- The block indices over the grid: the row operand and the result move with the point along the rows; the
    matrix stays at block (0, 0). -/
theorem blockIdx3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- Row `p` of point `t`'s input block is row `10000·t + p` of the array. -/
theorem rowsBlock3 (c : Dev nD) (t : Fin cfg3.N) (p : Fin 10000) (k : Fin 64) (i : S100000x64.Idx)
    (h0 : (i 0).val = t.val * 10000 + p.val) (h1 : (i 1).val = k.val) :
    (iblk3 V c 0 t : Vec Ideal S10000x64 .f32) (ix2 p k) = (V c main_v66 : S100000x64.Idx → EReal) i := by
  obtain ⟨e0, e1, -, -, -, -⟩ := blockIdx3 t
  unfold iblk3
  rw [View.read_apply]
  show V c main_v66 _ = V c main_v66 _
  congr 1
  funext a
  apply Fin.ext
  match a with
  | ⟨0, _⟩ => show win3_0.index t (0 : Fin 2) * 10000 + 1 * p.val = (i 0).val; omega
  | ⟨1, _⟩ => show win3_0.index t (1 : Fin 2) * 64 + 1 * k.val = (i 1).val; omega

/-- The matrix block is the whole matrix. -/
theorem matBlock3 (c : Dev nD) (t : Fin cfg3.N) (k q : Fin 64) :
    (iblk3 V c 1 t : Vec Ideal S64x64 .f32) (ix2 k q) = (V c main_v68 : S64x64.Idx → EReal) (ix2 k q) := by
  obtain ⟨-, -, e2, e3, -, -⟩ := blockIdx3 t
  unfold iblk3
  rw [View.read_apply]
  show V c main_v68 _ = V c main_v68 _
  congr 1
  funext a
  apply Fin.ext
  match a with
  | ⟨0, _⟩ => show win3_1.index t (0 : Fin 2) * 64 + 1 * k.val = k.val; omega
  | ⟨1, _⟩ => show win3_1.index t (1 : Fin 2) * 64 + 1 * q.val = q.val; omega

/-- What point `t` writes back is block `t` of the product of the arrays the launch finds. -/
theorem written3 (c : Dev nD) (t : Fin cfg3.N) :
    (dat3 V c).flushed 2 t = ((cfg3.win 2).blk t).view.read (Elt Ideal) (Cert.Gcn.mmSpec (V c main_v66) (V c main_v68)) := by
  show (cfg3.win 2).cut (grid3.coords t) ((dat3 V c).after 2 t) = _
  rw [after3_2]
  unfold out3_2
  rw [View.canon_unit_zero zeroOff3]
  simp only [View.ld_unit_zero (S := S10000x64) zeroOff3, View.ld_unit_zero (S := S64x64) zeroOff3]
  obtain ⟨-, -, -, -, e4, e5⟩ := blockIdx3 t
  funext j
  obtain ⟨p, q, rfl⟩ : ∃ (p : Fin 10000) (q : Fin 64), j = ix2 p q := ⟨j 0, j 1, eq_ix2 j⟩
  refine (mmBody2_apply (iblk3 V c 0 t) (iblk3 V c 1 t) p q).trans ?_
  rw [View.read_apply]
  unfold Cert.Gcn.mmSpec
  refine Finset.sum_congr rfl fun k _ => ?_
  rw [matBlock3 V c t k q]
  refine congrArg₂ (· * ·) (rowsBlock3 V c t p k _ ?_ rfl) (congrArg (V c main_v68) ?_)
  · show win3_2.index t (0 : Fin 2) * 10000 + 1 * p.val = t.val * 10000 + p.val; omega
  · funext a
    apply Fin.ext
    match a with
    | ⟨0, _⟩ => rfl
    | ⟨1, _⟩ => show q.val = win3_2.index t (1 : Fin 2) * 64 + 1 * q.val; omega

/-- An index is in point `t`'s result block iff each coordinate is in the block's range. -/
theorem inBlock3 (t : Fin cfg3.N) (i : S100000x64.Idx) :
    i ∈ ((cfg3.win 2).blk t).view.set ↔ ∀ a : Fin 2, win3_2.index t a * S10000x64.size a ≤ (i a).val ∧ (i a).val < win3_2.index t a * S10000x64.size a + S10000x64.size a := by
  show i ∈ ((View.whole main_v69).slice (win3_2.rect t)).set ↔ _
  rw [View.set_slice_whole, Rect.mem_set_unit]
  exact Iff.rfl

/-- Every index of the result lies in the block of the point `row / 10000`. -/
theorem covered3 (i : S100000x64.Idx) :
    ∃ t : Fin cfg3.N, (cfg3.win 2).flush t = true ∧ i ∈ ((cfg3.win 2).blk t).view.set := by
  have hi0 : (i 0).val < 100000 := (i 0).isLt
  have hi1 : (i 1).val < 64 := (i 1).isLt
  let t : Fin cfg3.N := ⟨(i 0).val / 10000, by show (i 0).val / 10000 < grid3.N; rw [N_3]; omega⟩
  obtain ⟨-, -, -, -, e4, e5⟩ := blockIdx3 t
  have ht : t.val = (i 0).val / 10000 := rfl
  refine ⟨t, flush3_2 t, ?_⟩
  rw [inBlock3]
  intro a
  match a with
  | ⟨0, _⟩ => show win3_2.index t (0 : Fin 2) * 10000 ≤ (i 0).val ∧ (i 0).val < win3_2.index t (0 : Fin 2) * 10000 + 10000; omega
  | ⟨1, _⟩ => show win3_2.index t (1 : Fin 2) * 64 ≤ (i 1).val ∧ (i 1).val < win3_2.index t (1 : Fin 2) * 64 + 64; omega

/-- The result array after the launch: the product, at every index. -/
theorem result3 (c : Dev nD) :
    (dat3 V c).arrAt 2 cfg3.N = Cert.Gcn.mmSpec (V c main_v66) (V c main_v68) :=
  (dat3 V c).arrAt_eq_of_cover 2 _ (fun t _ => written3 V c t) (covered3)

end Cert.Gcn.Kernel

end
-- ==== Proof.KRegion4.lean ====
/-
  Normalisation of the second layer: what the launch leaves in its result array, as one whole-array function.

  Grid point `t` of ten reads rows `10000·t … 10000·t + 9999` of the aggregated features and of the residual,
  and the three 1×64 rows (bias, scale, shift) whole, and writes the same rows of the result. The ten row blocks
  partition the rows, so afterwards the result array is
  `max ((agg[i,j] + b[j])·sc[j] + sh[j]) 0 + last[i,j]` at every index.
-/
import proofs.«144022_j16149077033381_1_alg».proof.Proof.Gen.KernelIdeal.Frame
import proofs.«144022_j16149077033381_1_alg».proof.Proof.KPayload
import proofs.«144022_j16149077033381_1_alg».proof.Proof.Spec
import Idealize.ShloMosaic.Lib.Pipeline.Value

set_option maxRecDepth 16384

noncomputable section

namespace Cert.Gcn.Kernel

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem zeroOff4 : (![0, 0] : Fin 2 → Nat) = fun _ => 0 := funext fun a => by fin_cases a <;> rfl

/-- The block indices over the grid: the two row operands and the result move with the point along the rows;
    the three row vectors stay at block (0, 0). -/
theorem blockIdx4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = t.val ∧ win4_4.index t (1 : Fin 2) = 0
    ∧ win4_5.index t (0 : Fin 2) = t.val ∧ win4_5.index t (1 : Fin 2) = 0 :=
  (by decide +kernel : ∀ t : Fin grid4.N, _)

/-- Row `p` of point `t`'s block of the aggregated features is row `10000·t + p` of the array. -/
theorem aggBlock4 (c : Dev nD) (t : Fin cfg4.N) (p : Fin 10000) (q : Fin 64) (i : S100000x64.Idx)
    (h0 : (i 0).val = t.val * 10000 + p.val) (h1 : (i 1).val = q.val) :
    (iblk4 V c 0 t : Vec Ideal S10000x64 .f32) (ix2 p q) = (V c main_v82 : S100000x64.Idx → EReal) i := by
  obtain ⟨e0, e1, -⟩ := blockIdx4 t
  unfold iblk4
  rw [View.read_apply]
  show V c main_v82 _ = V c main_v82 _
  congr 1
  funext a
  apply Fin.ext
  match a with
  | ⟨0, _⟩ => show win4_0.index t (0 : Fin 2) * 10000 + 1 * p.val = (i 0).val; omega
  | ⟨1, _⟩ => show win4_0.index t (1 : Fin 2) * 64 + 1 * q.val = (i 1).val; omega

/-- The same for the residual. -/
theorem lastBlock4 (c : Dev nD) (t : Fin cfg4.N) (p : Fin 10000) (q : Fin 64) (i : S100000x64.Idx)
    (h0 : (i 0).val = t.val * 10000 + p.val) (h1 : (i 1).val = q.val) :
    (iblk4 V c 4 t : Vec Ideal S10000x64 .f32) (ix2 p q) = (V c main_v40 : S100000x64.Idx → EReal) i := by
  obtain ⟨-, -, -, -, -, -, -, -, e8, e9, -⟩ := blockIdx4 t
  unfold iblk4
  rw [View.read_apply]
  show V c main_v40 _ = V c main_v40 _
  congr 1
  funext a
  apply Fin.ext
  match a with
  | ⟨0, _⟩ => show win4_4.index t (0 : Fin 2) * 10000 + 1 * p.val = (i 0).val; omega
  | ⟨1, _⟩ => show win4_4.index t (1 : Fin 2) * 64 + 1 * q.val = (i 1).val; omega

/-- The bias row's block is the whole row. -/
theorem biasBlock4 (c : Dev nD) (t : Fin cfg4.N) (q : Fin 64) :
    (iblk4 V c 1 t : Vec Ideal S1x64 .f32) (ix2 0 q) = (V c main_v85 : S1x64.Idx → EReal) (ix2 0 q) := by
  obtain ⟨-, -, e2, e3, -⟩ := blockIdx4 t
  unfold iblk4
  rw [View.read_apply]
  show V c main_v85 _ = V c main_v85 _
  congr 1
  funext a
  apply Fin.ext
  match a with
  | ⟨0, _⟩ => show win4_1.index t (0 : Fin 2) * 1 + 1 * 0 = 0; omega
  | ⟨1, _⟩ => show win4_1.index t (1 : Fin 2) * 64 + 1 * q.val = q.val; omega

/-- The scale row's block is the whole row. -/
theorem scaleBlock4 (c : Dev nD) (t : Fin cfg4.N) (q : Fin 64) :
    (iblk4 V c 2 t : Vec Ideal S1x64 .f32) (ix2 0 q) = (V c main_v88 : S1x64.Idx → EReal) (ix2 0 q) := by
  obtain ⟨-, -, -, -, e4, e5, -⟩ := blockIdx4 t
  unfold iblk4
  rw [View.read_apply]
  show V c main_v88 _ = V c main_v88 _
  congr 1
  funext a
  apply Fin.ext
  match a with
  | ⟨0, _⟩ => show win4_2.index t (0 : Fin 2) * 1 + 1 * 0 = 0; omega
  | ⟨1, _⟩ => show win4_2.index t (1 : Fin 2) * 64 + 1 * q.val = q.val; omega

/-- The shift row's block is the whole row. -/
theorem shiftBlock4 (c : Dev nD) (t : Fin cfg4.N) (q : Fin 64) :
    (iblk4 V c 3 t : Vec Ideal S1x64 .f32) (ix2 0 q) = (V c main_v91 : S1x64.Idx → EReal) (ix2 0 q) := by
  obtain ⟨-, -, -, -, -, -, e6, e7, -⟩ := blockIdx4 t
  unfold iblk4
  rw [View.read_apply]
  show V c main_v91 _ = V c main_v91 _
  congr 1
  funext a
  apply Fin.ext
  match a with
  | ⟨0, _⟩ => show win4_3.index t (0 : Fin 2) * 1 + 1 * 0 = 0; omega
  | ⟨1, _⟩ => show win4_3.index t (1 : Fin 2) * 64 + 1 * q.val = q.val; omega

/-- What point `t` writes back is block `t` of the normalised, rectified features plus the residual. -/
theorem written4 (c : Dev nD) (t : Fin cfg4.N) :
    (dat4 V c).flushed 5 t = ((cfg4.win 5).blk t).view.read (Elt Ideal)
      (Cert.Gcn.bnResSpec (V c main_v82) (V c main_v85) (V c main_v88) (V c main_v91) (V c main_v40)) := by
  show (cfg4.win 5).cut (grid4.coords t) ((dat4 V c).after 5 t) = _
  rw [after4_5]
  unfold out4_5
  rw [View.canon_unit_zero zeroOff4]
  simp only [View.ld_unit_zero (S := S10000x64) zeroOff4, View.ld_unit_zero (S := S1x64) zeroOff4]
  obtain ⟨-, -, -, -, -, -, -, -, -, -, e10, e11⟩ := blockIdx4 t
  funext j
  obtain ⟨p, q, rfl⟩ : ∃ (p : Fin 10000) (q : Fin 64), j = ix2 p q := ⟨j 0, j 1, eq_ix2 j⟩
  refine (bnBody2_apply (iblk4 V c 0 t) (iblk4 V c 1 t) (iblk4 V c 2 t) (iblk4 V c 3 t) (iblk4 V c 4 t) p q).trans ?_
  have hp : p.val < 10000 := p.isLt
  have ht : t.val < 10 := lt_of_lt_of_eq t.isLt N_4
  have hlt : t.val * 10000 + p.val < 100000 := by omega
  have hI : ((cfg4.win 5).blk t).view.emb (ix2 p q) = (ix2 (⟨t.val * 10000 + p.val, hlt⟩ : Fin 100000) q : S100000x64.Idx) := by
    funext a
    apply Fin.ext
    match a with
    | ⟨0, _⟩ => show win4_5.index t (0 : Fin 2) * 10000 + 1 * p.val = t.val * 10000 + p.val; omega
    | ⟨1, _⟩ => show win4_5.index t (1 : Fin 2) * 64 + 1 * q.val = q.val; omega
  rw [View.read_apply, hI, aggBlock4 V c t p q (ix2 (⟨t.val * 10000 + p.val, hlt⟩ : Fin 100000) q) rfl rfl,
    lastBlock4 V c t p q (ix2 (⟨t.val * 10000 + p.val, hlt⟩ : Fin 100000) q) rfl rfl,
    biasBlock4 V c t q, scaleBlock4 V c t q, shiftBlock4 V c t q]
  rfl

/-- An index is in point `t`'s result block iff each coordinate is in the block's range. -/
theorem inBlock4 (t : Fin cfg4.N) (i : S100000x64.Idx) :
    i ∈ ((cfg4.win 5).blk t).view.set ↔ ∀ a : Fin 2, win4_5.index t a * S10000x64.size a ≤ (i a).val ∧ (i a).val < win4_5.index t a * S10000x64.size a + S10000x64.size a := by
  show i ∈ ((View.whole main_v92).slice (win4_5.rect t)).set ↔ _
  rw [View.set_slice_whole, Rect.mem_set_unit]
  exact Iff.rfl

/-- Every index of the result lies in the block of the point `row / 10000`. -/
theorem covered4 (i : S100000x64.Idx) :
    ∃ t : Fin cfg4.N, (cfg4.win 5).flush t = true ∧ i ∈ ((cfg4.win 5).blk t).view.set := by
  have hi0 : (i 0).val < 100000 := (i 0).isLt
  have hi1 : (i 1).val < 64 := (i 1).isLt
  let t : Fin cfg4.N := ⟨(i 0).val / 10000, by show (i 0).val / 10000 < grid4.N; rw [N_4]; omega⟩
  obtain ⟨-, -, -, -, -, -, -, -, -, -, e10, e11⟩ := blockIdx4 t
  have ht : t.val = (i 0).val / 10000 := rfl
  refine ⟨t, flush4_5 t, ?_⟩
  rw [inBlock4]
  intro a
  match a with
  | ⟨0, _⟩ => show win4_5.index t (0 : Fin 2) * 10000 ≤ (i 0).val ∧ (i 0).val < win4_5.index t (0 : Fin 2) * 10000 + 10000; omega
  | ⟨1, _⟩ => show win4_5.index t (1 : Fin 2) * 64 ≤ (i 1).val ∧ (i 1).val < win4_5.index t (1 : Fin 2) * 64 + 64; omega

/-- The result array after the launch, at every index. -/
theorem result4 (c : Dev nD) :
    (dat4 V c).arrAt 5 cfg4.N
      = Cert.Gcn.bnResSpec (V c main_v82) (V c main_v85) (V c main_v88) (V c main_v91) (V c main_v40) :=
  (dat4 V c).arrAt_eq_of_cover 5 _ (fun t _ => written4 V c t) (covered4)

end Cert.Gcn.Kernel

end
-- ==== Proof.KHostRows.lean ====
/-
  The host glue of the kernel program for its small row vectors, as pure functions and read at an index.

  The normalisation scale `γ · rsqrt (v + ε)` and shift `β − μ · scale` are computed once for all three layers as
  3×64 arrays; each layer takes its row as a 1×64 array (a slice of one row, flattened to 64 and cast back to 1×64).
  The dense bias becomes a 1×64 array, each convolution takes its own row of the 2×64 biases and its own 64×64
  matrix of the 2×64×64 weights. Read at an index each of these is the source array at the evident index.
-/
import proofs.«144022_j16149077033381_1_alg».proof.Proof.Gen.KernelIdeal.Frame
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal

set_option maxRecDepth 16384

noncomputable section

namespace Cert.Gcn.Kernel

open Cert.KernelIdeal Cert.KernelIdeal.Gen Idealize.ShloMosaic Idealize.ShloMosaic.ValueIdx

/-! ## The pure functions -/

/-- The scale of all three layers: `γ · rsqrt (v + ε)`, elementwise on 3×64. -/
def scaleAll (g v : FVec Ideal S3x64 .f32) : FVec Ideal S3x64 .f32 :=
  mulf g (Host.rsqrt (addf v (broadcastInDim S3x64 ![] bcast_S_S3x64 (constant (F := Ideal) S_ .f32 0x3727C5AC#32))))

/-- The shift of all three layers: `β − μ · scale`, elementwise on 3×64. -/
def shiftAll (g β μ v : FVec Ideal S3x64 .f32) : FVec Ideal S3x64 .f32 :=
  subf β (mulf μ (scaleAll g v))

/-- Row 0 of a 3×64 array as a 1×64 array. -/
def row0 (x : FVec Ideal S3x64 .f32) : FVec Ideal S1x64 .f32 :=
  shapeCast S1x64 (shapeCast S64 (extractStridedSlice S1x64 ![0, 0] x slices_S3x64_S1x64_0_0) shapeCasts_S1x64_S64)
    shapeCasts_S64_S1x64

/-- Row 1 of a 3×64 array as a 1×64 array. -/
def row1 (x : FVec Ideal S3x64 .f32) : FVec Ideal S1x64 .f32 :=
  shapeCast S1x64 (shapeCast S64 (extractStridedSlice S1x64 ![1, 0] x slices_S3x64_S1x64_1_0) shapeCasts_S1x64_S64)
    shapeCasts_S64_S1x64

/-- Row 2 of a 3×64 array as a 1×64 array. -/
def row2 (x : FVec Ideal S3x64 .f32) : FVec Ideal S1x64 .f32 :=
  shapeCast S1x64 (shapeCast S64 (extractStridedSlice S1x64 ![2, 0] x slices_S3x64_S1x64_2_0) shapeCasts_S1x64_S64)
    shapeCasts_S64_S1x64

/-- The dense bias, a 64-vector, as a 1×64 array. -/
def biasRow (b : FVec Ideal S64 .f32) : FVec Ideal S1x64 .f32 :=
  shapeCast S1x64 b shapeCasts_S64_S1x64

/-- Row 0 of the 2×64 convolution biases as a 1×64 array. -/
def convBias0 (x : FVec Ideal S2x64 .f32) : FVec Ideal S1x64 .f32 :=
  shapeCast S1x64 (shapeCast S64 (extractStridedSlice S1x64 ![0, 0] x slices_S2x64_S1x64_0_0) shapeCasts_S1x64_S64)
    shapeCasts_S64_S1x64

/-- Row 1 of the 2×64 convolution biases as a 1×64 array. -/
def convBias1 (x : FVec Ideal S2x64 .f32) : FVec Ideal S1x64 .f32 :=
  shapeCast S1x64 (shapeCast S64 (extractStridedSlice S1x64 ![1, 0] x slices_S2x64_S1x64_1_0) shapeCasts_S1x64_S64)
    shapeCasts_S64_S1x64

/-- Matrix 0 of the 2×64×64 convolution weights. -/
def convW0 (x : FVec Ideal S2x64x64 .f32) : FVec Ideal S64x64 .f32 :=
  shapeCast S64x64 (extractStridedSlice S1x64x64 ![0, 0, 0] x slices_S2x64x64_S1x64x64_0_0_0) shapeCasts_S1x64x64_S64x64

/-- Matrix 1 of the 2×64×64 convolution weights. -/
def convW1 (x : FVec Ideal S2x64x64 .f32) : FVec Ideal S64x64 .f32 :=
  shapeCast S64x64 (extractStridedSlice S1x64x64 ![1, 0, 0] x slices_S2x64x64_S1x64x64_1_0_0) shapeCasts_S1x64x64_S64x64

/-! ## Read at an index -/

/-- A 1×64 → 64 → 1×64 round trip of a one-row slice reads the sliced row. -/
theorem rowOf_apply {n : Nat} (r : Fin n) (x : (⟨2, ![n, 64]⟩ : Shape).Idx → EReal)
    (hs : (⟨2, ![n, 64]⟩ : Shape).Slices ![r.val, 0] S1x64) (j : Fin 64) :
    shapeCast S1x64 (shapeCast S64 (extractStridedSlice S1x64 ![r.val, 0] x hs) shapeCasts_S1x64_S64)
      shapeCasts_S64_S1x64 (ix2 0 j) = x (ix2 r j) := by
  rw [shapeCast_a_1a_apply, shapeCast_1a_a_apply]
  exact slice2_axis0_apply r.val x hs 0 j r (by simp)

theorem row0_apply (x : FVec Ideal S3x64 .f32) (j : Fin 64) : row0 x (ix2 0 j) = x (ix2 0 j) :=
  rowOf_apply (n := 3) 0 x slices_S3x64_S1x64_0_0 j

theorem row1_apply (x : FVec Ideal S3x64 .f32) (j : Fin 64) : row1 x (ix2 0 j) = x (ix2 1 j) :=
  rowOf_apply (n := 3) 1 x slices_S3x64_S1x64_1_0 j

theorem row2_apply (x : FVec Ideal S3x64 .f32) (j : Fin 64) : row2 x (ix2 0 j) = x (ix2 2 j) :=
  rowOf_apply (n := 3) 2 x slices_S3x64_S1x64_2_0 j

theorem biasRow_apply (b : FVec Ideal S64 .f32) (j : Fin 64) : biasRow b (ix2 0 j) = b (ix1 j) :=
  shapeCast_a_1a_apply b shapeCasts_S64_S1x64 0 j

theorem convBias0_apply (x : FVec Ideal S2x64 .f32) (j : Fin 64) : convBias0 x (ix2 0 j) = x (ix2 0 j) :=
  rowOf_apply (n := 2) 0 x slices_S2x64_S1x64_0_0 j

theorem convBias1_apply (x : FVec Ideal S2x64 .f32) (j : Fin 64) : convBias1 x (ix2 0 j) = x (ix2 1 j) :=
  rowOf_apply (n := 2) 1 x slices_S2x64_S1x64_1_0 j

/-- A one-matrix slice of a stack of 64×64 matrices, its unit axis dropped, reads that matrix. -/
theorem matOf_apply (r : Fin 2) (x : FVec Ideal S2x64x64 .f32)
    (hs : S2x64x64.Slices ![r.val, 0, 0] S1x64x64) (k j : Fin 64) :
    shapeCast S64x64 (extractStridedSlice S1x64x64 ![r.val, 0, 0] x hs) shapeCasts_S1x64x64_S64x64 (ix2 k j)
      = x (ix3 r k j) := by
  rw [shapeCast_1ab_ab_apply]
  exact extractStridedSlice_apply _ x hs _ (ix3 r k j) (fun a => match a with
    | ⟨0, _⟩ => by show r.val = r.val + 0; omega
    | ⟨1, _⟩ => by show k.val = 0 + k.val; omega
    | ⟨2, _⟩ => by show j.val = 0 + j.val; omega)

theorem convW0_apply (x : FVec Ideal S2x64x64 .f32) (k j : Fin 64) : convW0 x (ix2 k j) = x (ix3 0 k j) :=
  matOf_apply 0 x slices_S2x64x64_S1x64x64_0_0_0 k j

theorem convW1_apply (x : FVec Ideal S2x64x64 .f32) (k j : Fin 64) : convW1 x (ix2 k j) = x (ix3 1 k j) :=
  matOf_apply 1 x slices_S2x64x64_S1x64x64_1_0_0 k j

theorem scaleAll_apply (g v : FVec Ideal S3x64 .f32) (i : S3x64.Idx) :
    scaleAll g v i = g i * Ideal.rsqrt (v i + Ideal.ofBits .f32 0x3727C5AC#32) := rfl

theorem shiftAll_apply (g β μ v : FVec Ideal S3x64 .f32) (i : S3x64.Idx) :
    shiftAll g β μ v i = β i - μ i * (g i * Ideal.rsqrt (v i + Ideal.ofBits .f32 0x3727C5AC#32)) := rfl

/-! ## Entry contents of the regions

Each region is entered with the launch arguments unchanged and the row vectors above computed from them. -/

section Entry

open Idealize.ShloMosaic.TcCoe

variable (m : (ℓ : Loc nD τ sig) → Buf (Elt Ideal) ℓ) (ρ : Dev nD → PrngReg)

/-! ### Region 0 -/

theorem V1_main_arg0 (c : Dev nD) : V1 m ρ c main_arg0 = m ((c : Thread nD τ).loc main_arg0) := by
  show StableHlo.after hostOps0 (W0 m ρ c) (Proc.devRef .tc main_arg0) = _
  after_results

theorem V1_main_arg2 (c : Dev nD) : V1 m ρ c main_arg2 = m ((c : Thread nD τ).loc main_arg2) := by
  show StableHlo.after hostOps0 (W0 m ρ c) (Proc.devRef .tc main_arg2) = _
  after_results

theorem V1_main_v33 (c : Dev nD) :
    (V1 m ρ c main_v33 : S1x64.Idx → EReal) = biasRow (m ((c : Thread nD τ).loc main_arg3)) := by
  show StableHlo.after hostOps0 (W0 m ρ c) (Proc.devRef .tc main_v33) = _
  after_results
  rfl

theorem V1_main_v36 (c : Dev nD) :
    (V1 m ρ c main_v36 : S1x64.Idx → EReal)
      = row0 (scaleAll (m ((c : Thread nD τ).loc main_arg6)) (m ((c : Thread nD τ).loc main_arg9))) := by
  show StableHlo.after hostOps0 (W0 m ρ c) (Proc.devRef .tc main_v36) = _
  after_results
  rfl

theorem V1_main_v39 (c : Dev nD) :
    (V1 m ρ c main_v39 : S1x64.Idx → EReal)
      = row0 (shiftAll (m ((c : Thread nD τ).loc main_arg6)) (m ((c : Thread nD τ).loc main_arg7))
          (m ((c : Thread nD τ).loc main_arg8)) (m ((c : Thread nD τ).loc main_arg9))) := by
  show StableHlo.after hostOps0 (W0 m ρ c) (Proc.devRef .tc main_v39) = _
  after_results_simp
  rfl

/-! ### Values carried through the regions

The scale and shift arrays and the two convolution arguments are written by no later host operation and are no
region's array, so every later boundary holds what the first stretch of host operations left. -/

theorem W1_v3 (c : Dev nD) :
    (W1 m ρ c (Proc.devRef .tc main_v3) : S3x64.Idx → EReal) = scaleAll (m ((c : Thread nD τ).loc main_arg6)) (m ((c : Thread nD τ).loc main_arg9)) := by
  show StableHlo.after hostOps0 (W0 m ρ c) (Proc.devRef .tc main_v3) = _
  after_results
  rfl

theorem W2_v3 (c : Dev nD) :
    (W2 m ρ c (Proc.devRef .tc main_v3) : S3x64.Idx → EReal) = scaleAll (m ((c : Thread nD τ).loc main_arg6)) (m ((c : Thread nD τ).loc main_arg9)) :=
  (W2_of_ne m ρ c main_v3 (by decide)).trans (W1_v3 m ρ c)

theorem W3_v3 (c : Dev nD) :
    (W3 m ρ c (Proc.devRef .tc main_v3) : S3x64.Idx → EReal) = scaleAll (m ((c : Thread nD τ).loc main_arg6)) (m ((c : Thread nD τ).loc main_arg9)) := by
  refine Eq.trans ?_ (W2_v3 m ρ c)
  show StableHlo.after hostOps1 (W2 m ρ c) (Proc.devRef .tc main_v3) = _
  after_results

theorem W4_v3 (c : Dev nD) :
    (W4 m ρ c (Proc.devRef .tc main_v3) : S3x64.Idx → EReal) = scaleAll (m ((c : Thread nD τ).loc main_arg6)) (m ((c : Thread nD τ).loc main_arg9)) :=
  (W4_of_ne m ρ c main_v3 (by decide)).trans (W3_v3 m ρ c)

theorem W5_v3 (c : Dev nD) :
    (W5 m ρ c (Proc.devRef .tc main_v3) : S3x64.Idx → EReal) = scaleAll (m ((c : Thread nD τ).loc main_arg6)) (m ((c : Thread nD τ).loc main_arg9)) := by
  refine Eq.trans ?_ (W4_v3 m ρ c)
  show StableHlo.after hostOps2 (W4 m ρ c) (Proc.devRef .tc main_v3) = _
  after_results

theorem W6_v3 (c : Dev nD) :
    (W6 m ρ c (Proc.devRef .tc main_v3) : S3x64.Idx → EReal) = scaleAll (m ((c : Thread nD τ).loc main_arg6)) (m ((c : Thread nD τ).loc main_arg9)) :=
  (W6_of_ne m ρ c main_v3 (by decide)).trans (W5_v3 m ρ c)

theorem W7_v3 (c : Dev nD) :
    (W7 m ρ c (Proc.devRef .tc main_v3) : S3x64.Idx → EReal) = scaleAll (m ((c : Thread nD τ).loc main_arg6)) (m ((c : Thread nD τ).loc main_arg9)) := by
  refine Eq.trans ?_ (W6_v3 m ρ c)
  show StableHlo.after hostOps3 (W6 m ρ c) (Proc.devRef .tc main_v3) = _
  after_results

theorem W8_v3 (c : Dev nD) :
    (W8 m ρ c (Proc.devRef .tc main_v3) : S3x64.Idx → EReal) = scaleAll (m ((c : Thread nD τ).loc main_arg6)) (m ((c : Thread nD τ).loc main_arg9)) :=
  (W8_of_ne m ρ c main_v3 (by decide)).trans (W7_v3 m ρ c)

theorem W1_v5 (c : Dev nD) :
    (W1 m ρ c (Proc.devRef .tc main_v5) : S3x64.Idx → EReal) = shiftAll (m ((c : Thread nD τ).loc main_arg6)) (m ((c : Thread nD τ).loc main_arg7)) (m ((c : Thread nD τ).loc main_arg8)) (m ((c : Thread nD τ).loc main_arg9)) := by
  show StableHlo.after hostOps0 (W0 m ρ c) (Proc.devRef .tc main_v5) = _
  after_results_simp
  rfl

theorem W2_v5 (c : Dev nD) :
    (W2 m ρ c (Proc.devRef .tc main_v5) : S3x64.Idx → EReal) = shiftAll (m ((c : Thread nD τ).loc main_arg6)) (m ((c : Thread nD τ).loc main_arg7)) (m ((c : Thread nD τ).loc main_arg8)) (m ((c : Thread nD τ).loc main_arg9)) :=
  (W2_of_ne m ρ c main_v5 (by decide)).trans (W1_v5 m ρ c)

theorem W3_v5 (c : Dev nD) :
    (W3 m ρ c (Proc.devRef .tc main_v5) : S3x64.Idx → EReal) = shiftAll (m ((c : Thread nD τ).loc main_arg6)) (m ((c : Thread nD τ).loc main_arg7)) (m ((c : Thread nD τ).loc main_arg8)) (m ((c : Thread nD τ).loc main_arg9)) := by
  refine Eq.trans ?_ (W2_v5 m ρ c)
  show StableHlo.after hostOps1 (W2 m ρ c) (Proc.devRef .tc main_v5) = _
  after_results

theorem W4_v5 (c : Dev nD) :
    (W4 m ρ c (Proc.devRef .tc main_v5) : S3x64.Idx → EReal) = shiftAll (m ((c : Thread nD τ).loc main_arg6)) (m ((c : Thread nD τ).loc main_arg7)) (m ((c : Thread nD τ).loc main_arg8)) (m ((c : Thread nD τ).loc main_arg9)) :=
  (W4_of_ne m ρ c main_v5 (by decide)).trans (W3_v5 m ρ c)

theorem W5_v5 (c : Dev nD) :
    (W5 m ρ c (Proc.devRef .tc main_v5) : S3x64.Idx → EReal) = shiftAll (m ((c : Thread nD τ).loc main_arg6)) (m ((c : Thread nD τ).loc main_arg7)) (m ((c : Thread nD τ).loc main_arg8)) (m ((c : Thread nD τ).loc main_arg9)) := by
  refine Eq.trans ?_ (W4_v5 m ρ c)
  show StableHlo.after hostOps2 (W4 m ρ c) (Proc.devRef .tc main_v5) = _
  after_results

theorem W6_v5 (c : Dev nD) :
    (W6 m ρ c (Proc.devRef .tc main_v5) : S3x64.Idx → EReal) = shiftAll (m ((c : Thread nD τ).loc main_arg6)) (m ((c : Thread nD τ).loc main_arg7)) (m ((c : Thread nD τ).loc main_arg8)) (m ((c : Thread nD τ).loc main_arg9)) :=
  (W6_of_ne m ρ c main_v5 (by decide)).trans (W5_v5 m ρ c)

theorem W7_v5 (c : Dev nD) :
    (W7 m ρ c (Proc.devRef .tc main_v5) : S3x64.Idx → EReal) = shiftAll (m ((c : Thread nD τ).loc main_arg6)) (m ((c : Thread nD τ).loc main_arg7)) (m ((c : Thread nD τ).loc main_arg8)) (m ((c : Thread nD τ).loc main_arg9)) := by
  refine Eq.trans ?_ (W6_v5 m ρ c)
  show StableHlo.after hostOps3 (W6 m ρ c) (Proc.devRef .tc main_v5) = _
  after_results

theorem W8_v5 (c : Dev nD) :
    (W8 m ρ c (Proc.devRef .tc main_v5) : S3x64.Idx → EReal) = shiftAll (m ((c : Thread nD τ).loc main_arg6)) (m ((c : Thread nD τ).loc main_arg7)) (m ((c : Thread nD τ).loc main_arg8)) (m ((c : Thread nD τ).loc main_arg9)) :=
  (W8_of_ne m ρ c main_v5 (by decide)).trans (W7_v5 m ρ c)

theorem W1_arg4 (c : Dev nD) :
    (W1 m ρ c (Proc.devRef .tc main_arg4) : S2x64x64.Idx → EReal) = (m ((c : Thread nD τ).loc main_arg4)) := by
  show StableHlo.after hostOps0 (W0 m ρ c) (Proc.devRef .tc main_arg4) = _
  after_results

theorem W2_arg4 (c : Dev nD) :
    (W2 m ρ c (Proc.devRef .tc main_arg4) : S2x64x64.Idx → EReal) = (m ((c : Thread nD τ).loc main_arg4)) :=
  (W2_of_ne m ρ c main_arg4 (by decide)).trans (W1_arg4 m ρ c)

theorem W3_arg4 (c : Dev nD) :
    (W3 m ρ c (Proc.devRef .tc main_arg4) : S2x64x64.Idx → EReal) = (m ((c : Thread nD τ).loc main_arg4)) := by
  refine Eq.trans ?_ (W2_arg4 m ρ c)
  show StableHlo.after hostOps1 (W2 m ρ c) (Proc.devRef .tc main_arg4) = _
  after_results

theorem W4_arg4 (c : Dev nD) :
    (W4 m ρ c (Proc.devRef .tc main_arg4) : S2x64x64.Idx → EReal) = (m ((c : Thread nD τ).loc main_arg4)) :=
  (W4_of_ne m ρ c main_arg4 (by decide)).trans (W3_arg4 m ρ c)

theorem W5_arg4 (c : Dev nD) :
    (W5 m ρ c (Proc.devRef .tc main_arg4) : S2x64x64.Idx → EReal) = (m ((c : Thread nD τ).loc main_arg4)) := by
  refine Eq.trans ?_ (W4_arg4 m ρ c)
  show StableHlo.after hostOps2 (W4 m ρ c) (Proc.devRef .tc main_arg4) = _
  after_results

theorem W6_arg4 (c : Dev nD) :
    (W6 m ρ c (Proc.devRef .tc main_arg4) : S2x64x64.Idx → EReal) = (m ((c : Thread nD τ).loc main_arg4)) :=
  (W6_of_ne m ρ c main_arg4 (by decide)).trans (W5_arg4 m ρ c)

theorem W7_arg4 (c : Dev nD) :
    (W7 m ρ c (Proc.devRef .tc main_arg4) : S2x64x64.Idx → EReal) = (m ((c : Thread nD τ).loc main_arg4)) := by
  refine Eq.trans ?_ (W6_arg4 m ρ c)
  show StableHlo.after hostOps3 (W6 m ρ c) (Proc.devRef .tc main_arg4) = _
  after_results

theorem W8_arg4 (c : Dev nD) :
    (W8 m ρ c (Proc.devRef .tc main_arg4) : S2x64x64.Idx → EReal) = (m ((c : Thread nD τ).loc main_arg4)) :=
  (W8_of_ne m ρ c main_arg4 (by decide)).trans (W7_arg4 m ρ c)

theorem W1_arg5 (c : Dev nD) :
    (W1 m ρ c (Proc.devRef .tc main_arg5) : S2x64.Idx → EReal) = (m ((c : Thread nD τ).loc main_arg5)) := by
  show StableHlo.after hostOps0 (W0 m ρ c) (Proc.devRef .tc main_arg5) = _
  after_results

theorem W2_arg5 (c : Dev nD) :
    (W2 m ρ c (Proc.devRef .tc main_arg5) : S2x64.Idx → EReal) = (m ((c : Thread nD τ).loc main_arg5)) :=
  (W2_of_ne m ρ c main_arg5 (by decide)).trans (W1_arg5 m ρ c)

theorem W3_arg5 (c : Dev nD) :
    (W3 m ρ c (Proc.devRef .tc main_arg5) : S2x64.Idx → EReal) = (m ((c : Thread nD τ).loc main_arg5)) := by
  refine Eq.trans ?_ (W2_arg5 m ρ c)
  show StableHlo.after hostOps1 (W2 m ρ c) (Proc.devRef .tc main_arg5) = _
  after_results

theorem W4_arg5 (c : Dev nD) :
    (W4 m ρ c (Proc.devRef .tc main_arg5) : S2x64.Idx → EReal) = (m ((c : Thread nD τ).loc main_arg5)) :=
  (W4_of_ne m ρ c main_arg5 (by decide)).trans (W3_arg5 m ρ c)

theorem W5_arg5 (c : Dev nD) :
    (W5 m ρ c (Proc.devRef .tc main_arg5) : S2x64.Idx → EReal) = (m ((c : Thread nD τ).loc main_arg5)) := by
  refine Eq.trans ?_ (W4_arg5 m ρ c)
  show StableHlo.after hostOps2 (W4 m ρ c) (Proc.devRef .tc main_arg5) = _
  after_results

theorem W6_arg5 (c : Dev nD) :
    (W6 m ρ c (Proc.devRef .tc main_arg5) : S2x64.Idx → EReal) = (m ((c : Thread nD τ).loc main_arg5)) :=
  (W6_of_ne m ρ c main_arg5 (by decide)).trans (W5_arg5 m ρ c)

theorem W7_arg5 (c : Dev nD) :
    (W7 m ρ c (Proc.devRef .tc main_arg5) : S2x64.Idx → EReal) = (m ((c : Thread nD τ).loc main_arg5)) := by
  refine Eq.trans ?_ (W6_arg5 m ρ c)
  show StableHlo.after hostOps3 (W6 m ρ c) (Proc.devRef .tc main_arg5) = _
  after_results

theorem W8_arg5 (c : Dev nD) :
    (W8 m ρ c (Proc.devRef .tc main_arg5) : S2x64.Idx → EReal) = (m ((c : Thread nD τ).loc main_arg5)) :=
  (W8_of_ne m ρ c main_arg5 (by decide)).trans (W7_arg5 m ρ c)

/-! ### Regions 2 and 4 -/

theorem V5_main_v59 (c : Dev nD) :
    (V5 m ρ c main_v59 : S1x64.Idx → EReal) = convBias0 (m ((c : Thread nD τ).loc main_arg5)) := by
  show StableHlo.after hostOps2 (W4 m ρ c) (Proc.devRef .tc main_v59) = _
  after_results
  rw [W4_arg5 m ρ c]
  rfl

theorem V5_main_v62 (c : Dev nD) :
    (V5 m ρ c main_v62 : S1x64.Idx → EReal) = row1 (scaleAll (m ((c : Thread nD τ).loc main_arg6)) (m ((c : Thread nD τ).loc main_arg9))) := by
  show StableHlo.after hostOps2 (W4 m ρ c) (Proc.devRef .tc main_v62) = _
  after_results
  rw [W4_v3 m ρ c]
  rfl

theorem V5_main_v65 (c : Dev nD) :
    (V5 m ρ c main_v65 : S1x64.Idx → EReal) = row1 (shiftAll (m ((c : Thread nD τ).loc main_arg6)) (m ((c : Thread nD τ).loc main_arg7)) (m ((c : Thread nD τ).loc main_arg8)) (m ((c : Thread nD τ).loc main_arg9))) := by
  show StableHlo.after hostOps2 (W4 m ρ c) (Proc.devRef .tc main_v65) = _
  after_results
  rw [W4_v5 m ρ c]
  rfl

theorem V9_main_v85 (c : Dev nD) :
    (V9 m ρ c main_v85 : S1x64.Idx → EReal) = convBias1 (m ((c : Thread nD τ).loc main_arg5)) := by
  show StableHlo.after hostOps4 (W8 m ρ c) (Proc.devRef .tc main_v85) = _
  after_results
  rw [W8_arg5 m ρ c]
  rfl

theorem V9_main_v88 (c : Dev nD) :
    (V9 m ρ c main_v88 : S1x64.Idx → EReal) = row2 (scaleAll (m ((c : Thread nD τ).loc main_arg6)) (m ((c : Thread nD τ).loc main_arg9))) := by
  show StableHlo.after hostOps4 (W8 m ρ c) (Proc.devRef .tc main_v88) = _
  after_results
  rw [W8_v3 m ρ c]
  rfl

theorem V9_main_v91 (c : Dev nD) :
    (V9 m ρ c main_v91 : S1x64.Idx → EReal) = row2 (shiftAll (m ((c : Thread nD τ).loc main_arg6)) (m ((c : Thread nD τ).loc main_arg7)) (m ((c : Thread nD τ).loc main_arg8)) (m ((c : Thread nD τ).loc main_arg9))) := by
  show StableHlo.after hostOps4 (W8 m ρ c) (Proc.devRef .tc main_v91) = _
  after_results
  rw [W8_v5 m ρ c]
  rfl

/-! ### Regions 1 and 3 -/

theorem V3_main_v42 (c : Dev nD) :
    (V3 m ρ c main_v42 : S64x64.Idx → EReal) = convW0 (m ((c : Thread nD τ).loc main_arg4)) := by
  show StableHlo.after hostOps1 (W2 m ρ c) (Proc.devRef .tc main_v42) = _
  after_results
  rw [W2_arg4 m ρ c]
  rfl

theorem V7_main_v68 (c : Dev nD) :
    (V7 m ρ c main_v68 : S64x64.Idx → EReal) = convW1 (m ((c : Thread nD τ).loc main_arg4)) := by
  show StableHlo.after hostOps3 (W6 m ρ c) (Proc.devRef .tc main_v68) = _
  after_results
  rw [W6_arg4 m ρ c]
  rfl

end Entry

end Cert.Gcn.Kernel

end
-- ==== Proof.KHostAgg.lean ====
/-
  The kernel program's message passing between its launches, and the values it carries across them.

  Between a feature transform and the following normalisation the program gathers the transformed rows at the
  edges' source nodes, scales each by the edge's normalisation coefficient and scatter-adds them at the
  destination nodes. The edge lists (with self loops appended) and the coefficients are computed once, before
  the first launch, from the edge array alone; they are carried unchanged to both uses. The reference performs
  the SAME operations on its own transformed rows, so the whole chain is kept as one function `aggregate` of
  the edge array and of the transformed features, stated with the reference's own stage terms.

  The output of the projection is read again by both normalisation launches (the residual): it too is carried
  unchanged from the first launch's exit.
-/
import proofs.«144022_j16149077033381_1_alg».proof.Proof.Gen.KernelIdeal.Frame
import proofs.«144022_j16149077033381_1_alg».proof.Proof.Gen.ReferenceIdeal.Read
import Idealize.ShloMosaic.Lib.StableHlo.Run

set_option maxRecDepth 16384

noncomputable section

namespace Cert.Gcn.Kernel

open Cert.KernelIdeal Cert.KernelIdeal.Gen Idealize.ShloMosaic Idealize.ShloMosaic.TcCoe Idealize.SL.Sem Idealize.ShloMosaic.StableHlo
open Idealize.ShloMosaic.Pipeline (Dat)

/-- Gather at the sources, scale by the edge coefficient, scatter-add at the destinations: one function of the
    edge array and of the features it aggregates. -/
def aggregate (x1 : IVec Cert.ReferenceIdeal.S2x1250000 32) (hw : FVec Ideal Cert.ReferenceIdeal.S100000x64 .f32) :
    FVec Ideal Cert.ReferenceIdeal.S100000x64 .f32 :=
  Host.scatterAdd (F := Ideal) Cert.ReferenceIdeal.scatter_S100000x64_S1350000x1_S1350000x64_1_0_0_1
    (Cert.ReferenceIdeal.Read.val_main_v66 (F := Ideal)) (Cert.ReferenceIdeal.Read.val_main_v67 (F := Ideal) x1)
    (mulf (F := Ideal) (Host.gather Cert.ReferenceIdeal.gather_S100000x64_S1350000x1_S1350000x64_1_0_n_n_0_1_164 hw
        (Cert.ReferenceIdeal.Read.val_main_v61 (F := Ideal) x1) : FVec Ideal Cert.ReferenceIdeal.S1350000x64 .f32)
      (Cert.ReferenceIdeal.Read.val_main_v64 (F := Ideal) x1))

section Reference

open Cert.ReferenceIdeal.Read

/-- The reference's first aggregation is `aggregate` of its first transformed features. -/
theorem ref_agg1 (x0 : (⟨Cert.ReferenceIdeal.S100000x128, .f32⟩ : BufTy).Contents (Elt Ideal)) (x1 : (⟨Cert.ReferenceIdeal.S2x1250000, .i32⟩ : BufTy).Contents (Elt Ideal)) (x2 : (⟨Cert.ReferenceIdeal.S128x64, .f32⟩ : BufTy).Contents (Elt Ideal)) (x3 : (⟨Cert.ReferenceIdeal.S64, .f32⟩ : BufTy).Contents (Elt Ideal)) (x4 : (⟨Cert.ReferenceIdeal.S2x64x64, .f32⟩ : BufTy).Contents (Elt Ideal)) (x6 x7 x8 x9 : (⟨Cert.ReferenceIdeal.S3x64, .f32⟩ : BufTy).Contents (Elt Ideal)) :
    val_main_v68 (F := Ideal) x0 x1 x2 x3 x4 x6 x7 x8 x9 = aggregate x1 (val_main_v55 (F := Ideal) x0 x2 x3 x4 x6 x7 x8 x9) := rfl

/-- The reference's second aggregation is `aggregate` of its second transformed features. -/
theorem ref_agg2 (x0 : (⟨Cert.ReferenceIdeal.S100000x128, .f32⟩ : BufTy).Contents (Elt Ideal)) (x1 : (⟨Cert.ReferenceIdeal.S2x1250000, .i32⟩ : BufTy).Contents (Elt Ideal)) (x2 : (⟨Cert.ReferenceIdeal.S128x64, .f32⟩ : BufTy).Contents (Elt Ideal)) (x3 : (⟨Cert.ReferenceIdeal.S64, .f32⟩ : BufTy).Contents (Elt Ideal)) (x4 : (⟨Cert.ReferenceIdeal.S2x64x64, .f32⟩ : BufTy).Contents (Elt Ideal)) (x5 : (⟨Cert.ReferenceIdeal.S2x64, .f32⟩ : BufTy).Contents (Elt Ideal)) (x6 x7 x8 x9 : (⟨Cert.ReferenceIdeal.S3x64, .f32⟩ : BufTy).Contents (Elt Ideal)) :
    val_main_v112 (F := Ideal) x0 x1 x2 x3 x4 x5 x6 x7 x8 x9 = aggregate x1 (val_main_v99 (F := Ideal) x0 x1 x2 x3 x4 x5 x6 x7 x8 x9) := rfl

end Reference

variable (m : (ℓ : Loc nD τ sig) → Buf (Elt Ideal) ℓ) (ρ : Dev nD → PrngReg)

/-! ## The edge lists and coefficients, computed before the first launch -/

theorem W1_src (c : Dev nD) :
    W1 m ρ c (Proc.devRef .tc main_v9) = Cert.ReferenceIdeal.Read.val_main_v3 (F := Ideal) (m ((c : Thread nD τ).loc main_arg1)) := by
  show StableHlo.after hostOps0 (W0 m ρ c) (Proc.devRef .tc main_v9) = _
  after_results_simp
  rfl

theorem W1_dst (c : Dev nD) :
    W1 m ρ c (Proc.devRef .tc main_v12) = Cert.ReferenceIdeal.Read.val_main_v6 (F := Ideal) (m ((c : Thread nD τ).loc main_arg1)) := by
  show StableHlo.after hostOps0 (W0 m ρ c) (Proc.devRef .tc main_v12) = _
  after_results_simp
  rfl

theorem W1_norm (c : Dev nD) :
    W1 m ρ c (Proc.devRef .tc main_v32) = Cert.ReferenceIdeal.Read.val_main_v26 (F := Ideal) (m ((c : Thread nD τ).loc main_arg1)) := by
  show StableHlo.after hostOps0 (W0 m ρ c) (Proc.devRef .tc main_v32) = _
  after_results_simp
  rfl

/-! ## Carried unchanged to the first aggregation … -/

theorem W4_src (c : Dev nD) : W4 m ρ c (Proc.devRef .tc main_v9) = W1 m ρ c (Proc.devRef .tc main_v9) :=
  (W4_of_ne m ρ c main_v9 (by decide)).trans
    ((show StableHlo.after hostOps1 (W2 m ρ c) (Proc.devRef .tc main_v9) = W2 m ρ c (Proc.devRef .tc main_v9) by after_results_simp).trans
      (W2_of_ne m ρ c main_v9 (by decide)))
theorem W4_dst (c : Dev nD) : W4 m ρ c (Proc.devRef .tc main_v12) = W1 m ρ c (Proc.devRef .tc main_v12) :=
  (W4_of_ne m ρ c main_v12 (by decide)).trans
    ((show StableHlo.after hostOps1 (W2 m ρ c) (Proc.devRef .tc main_v12) = W2 m ρ c (Proc.devRef .tc main_v12) by after_results_simp).trans
      (W2_of_ne m ρ c main_v12 (by decide)))
theorem W4_norm (c : Dev nD) : W4 m ρ c (Proc.devRef .tc main_v32) = W1 m ρ c (Proc.devRef .tc main_v32) :=
  (W4_of_ne m ρ c main_v32 (by decide)).trans
    ((show StableHlo.after hostOps1 (W2 m ρ c) (Proc.devRef .tc main_v32) = W2 m ρ c (Proc.devRef .tc main_v32) by after_results_simp).trans
      (W2_of_ne m ρ c main_v32 (by decide)))

/-! ## … and to the second -/

theorem W8_src (c : Dev nD) : W8 m ρ c (Proc.devRef .tc main_v9) = W1 m ρ c (Proc.devRef .tc main_v9) :=
  (W8_of_ne m ρ c main_v9 (by decide)).trans
    ((show StableHlo.after hostOps3 (W6 m ρ c) (Proc.devRef .tc main_v9) = W6 m ρ c (Proc.devRef .tc main_v9) by after_results_simp).trans
      ((W6_of_ne m ρ c main_v9 (by decide)).trans
        ((show StableHlo.after hostOps2 (W4 m ρ c) (Proc.devRef .tc main_v9) = W4 m ρ c (Proc.devRef .tc main_v9) by after_results_simp).trans
          (W4_src m ρ c))))
theorem W8_dst (c : Dev nD) : W8 m ρ c (Proc.devRef .tc main_v12) = W1 m ρ c (Proc.devRef .tc main_v12) :=
  (W8_of_ne m ρ c main_v12 (by decide)).trans
    ((show StableHlo.after hostOps3 (W6 m ρ c) (Proc.devRef .tc main_v12) = W6 m ρ c (Proc.devRef .tc main_v12) by after_results_simp).trans
      ((W6_of_ne m ρ c main_v12 (by decide)).trans
        ((show StableHlo.after hostOps2 (W4 m ρ c) (Proc.devRef .tc main_v12) = W4 m ρ c (Proc.devRef .tc main_v12) by after_results_simp).trans
          (W4_dst m ρ c))))
theorem W8_norm (c : Dev nD) : W8 m ρ c (Proc.devRef .tc main_v32) = W1 m ρ c (Proc.devRef .tc main_v32) :=
  (W8_of_ne m ρ c main_v32 (by decide)).trans
    ((show StableHlo.after hostOps3 (W6 m ρ c) (Proc.devRef .tc main_v32) = W6 m ρ c (Proc.devRef .tc main_v32) by after_results_simp).trans
      ((W6_of_ne m ρ c main_v32 (by decide)).trans
        ((show StableHlo.after hostOps2 (W4 m ρ c) (Proc.devRef .tc main_v32) = W4 m ρ c (Proc.devRef .tc main_v32) by after_results_simp).trans
          (W4_norm m ρ c))))

/-! ## The projection's output, carried to every later launch that reads it -/

/-- At the first launch's exit the projection's array holds what its write-backs leave. -/
theorem W2_proj (c : Dev nD) : W2 m ρ c (Proc.devRef .tc main_v40) = (dat0 (V1 m ρ) c).arrAt 5 cfg0.N := W2_arr m ρ c 5

theorem V3_proj (c : Dev nD) : V3 m ρ c main_v40 = (dat0 (V1 m ρ) c).arrAt 5 cfg0.N :=
  (show StableHlo.after hostOps1 (W2 m ρ c) (Proc.devRef .tc main_v40) = W2 m ρ c (Proc.devRef .tc main_v40) by after_results_simp).trans
    (W2_proj m ρ c)

theorem W4_proj (c : Dev nD) : W4 m ρ c (Proc.devRef .tc main_v40) = (dat0 (V1 m ρ) c).arrAt 5 cfg0.N :=
  ((W4_arr m ρ c 0).trans (((dat1 (V3 m ρ) c).arrAt_in 0 rfl _).trans (A_eq1 (V3 m ρ) c 0))).trans (V3_proj m ρ c)

theorem V5_proj (c : Dev nD) : V5 m ρ c main_v40 = (dat0 (V1 m ρ) c).arrAt 5 cfg0.N :=
  (show StableHlo.after hostOps2 (W4 m ρ c) (Proc.devRef .tc main_v40) = W4 m ρ c (Proc.devRef .tc main_v40) by after_results_simp).trans
    (W4_proj m ρ c)

theorem W6_proj (c : Dev nD) : W6 m ρ c (Proc.devRef .tc main_v40) = (dat0 (V1 m ρ) c).arrAt 5 cfg0.N :=
  ((W6_arr m ρ c 4).trans (((dat2 (V5 m ρ) c).arrAt_in 4 rfl _).trans (A_eq2 (V5 m ρ) c 4))).trans (V5_proj m ρ c)

theorem V9_proj (c : Dev nD) : V9 m ρ c main_v40 = (dat0 (V1 m ρ) c).arrAt 5 cfg0.N :=
  (show StableHlo.after hostOps4 (W8 m ρ c) (Proc.devRef .tc main_v40) = W8 m ρ c (Proc.devRef .tc main_v40) by after_results_simp).trans
    ((W8_of_ne m ρ c main_v40 (by decide)).trans
      ((show StableHlo.after hostOps3 (W6 m ρ c) (Proc.devRef .tc main_v40) = W6 m ρ c (Proc.devRef .tc main_v40) by after_results_simp).trans
        (W6_proj m ρ c)))

/-! ## Each launch's other array inputs -/

/-- The first aggregation is `aggregate` of the first feature transform's output. -/
theorem V5_agg (c : Dev nD) :
    V5 m ρ c main_v56 = aggregate (m ((c : Thread nD τ).loc main_arg1)) ((dat1 (V3 m ρ) c).arrAt 2 cfg1.N) := by
  show StableHlo.after hostOps2 (W4 m ρ c) (Proc.devRef .tc main_v56) = _
  after_results_simp
  rw [W4_src, W4_dst, W4_norm, W1_src, W1_dst, W1_norm, show W4 m ρ c (Proc.devRef .tc main_v43) = (dat1 (V3 m ρ) c).arrAt 2 cfg1.N from W4_arr m ρ c 2]
  rfl

/-- The second feature transform reads the first normalisation's output. -/
theorem V7_feat (c : Dev nD) : V7 m ρ c main_v66 = (dat2 (V5 m ρ) c).arrAt 5 cfg2.N :=
  (show StableHlo.after hostOps3 (W6 m ρ c) (Proc.devRef .tc main_v66) = W6 m ρ c (Proc.devRef .tc main_v66) by after_results_simp).trans
    (W6_arr m ρ c 5)

/-- The second aggregation is `aggregate` of the second feature transform's output. -/
theorem V9_agg (c : Dev nD) :
    V9 m ρ c main_v82 = aggregate (m ((c : Thread nD τ).loc main_arg1)) ((dat3 (V7 m ρ) c).arrAt 2 cfg3.N) := by
  show StableHlo.after hostOps4 (W8 m ρ c) (Proc.devRef .tc main_v82) = _
  after_results_simp
  rw [W8_src, W8_dst, W8_norm, W1_src, W1_dst, W1_norm, show W8 m ρ c (Proc.devRef .tc main_v69) = (dat3 (V7 m ρ) c).arrAt 2 cfg3.N from W8_arr m ρ c 2]
  rfl

/-- The program's result is what the last launch's write-backs leave. -/
theorem W10_result (c : Dev nD) : W10 m ρ c (Proc.devRef .tc main_v92) = (dat4 (V9 m ρ) c).arrAt 5 cfg4.N := W10_arr m ρ c 5

end Cert.Gcn.Kernel

end
-- ==== Proof.KNet.lean ====
/-
  The network the kernel program computes, as one function of its ten argument arrays over the extended reals:

      proj   = rectified, normalised projection of the inputs              (100000×64)
      layer1 = normalise (aggregate (proj · W₀) + bias₀) rectified + proj
      layer2 = normalise (aggregate (layer1 · W₁) + bias₁) rectified + proj

  where each normalisation is in its affine form with the scale `γ·rsqrt(v + ε)` and the shift `β − μ·scale`
  computed once for the three layers, and row `r` of each taken for layer `r`.
-/
import proofs.«144022_j16149077033381_1_alg».proof.Proof.Spec
import proofs.«144022_j16149077033381_1_alg».proof.Proof.KHostRows
import proofs.«144022_j16149077033381_1_alg».proof.Proof.KHostAgg

noncomputable section

namespace Cert.Gcn.Kernel

open Cert.KernelIdeal Idealize.ShloMosaic Cert.Gcn

/-- The rectified, normalised projection. -/
def proj (a0 : FVec Ideal S100000x128 .f32) (a2 : FVec Ideal S128x64 .f32) (a3 : FVec Ideal S64 .f32)
    (a6 a7 a8 a9 : FVec Ideal S3x64 .f32) : FVec Ideal S100000x64 .f32 :=
  fcSpec a0 a2 (biasRow a3) (row0 (scaleAll a6 a9)) (row0 (shiftAll a6 a7 a8 a9))

/-- The first graph layer, with the residual. -/
def layer1 (a0 : FVec Ideal S100000x128 .f32) (a1 : IVec S2x1250000 32) (a2 : FVec Ideal S128x64 .f32) (a3 : FVec Ideal S64 .f32)
    (a4 : FVec Ideal S2x64x64 .f32) (a5 : FVec Ideal S2x64 .f32) (a6 a7 a8 a9 : FVec Ideal S3x64 .f32) : FVec Ideal S100000x64 .f32 :=
  bnResSpec (aggregate a1 (mmSpec (proj a0 a2 a3 a6 a7 a8 a9) (convW0 a4))) (convBias0 a5)
    (row1 (scaleAll a6 a9)) (row1 (shiftAll a6 a7 a8 a9)) (proj a0 a2 a3 a6 a7 a8 a9)

/-- The second graph layer, with the residual: the program's result. -/
def layer2 (a0 : FVec Ideal S100000x128 .f32) (a1 : IVec S2x1250000 32) (a2 : FVec Ideal S128x64 .f32) (a3 : FVec Ideal S64 .f32)
    (a4 : FVec Ideal S2x64x64 .f32) (a5 : FVec Ideal S2x64 .f32) (a6 a7 a8 a9 : FVec Ideal S3x64 .f32) : FVec Ideal S100000x64 .f32 :=
  bnResSpec (aggregate a1 (mmSpec (layer1 a0 a1 a2 a3 a4 a5 a6 a7 a8 a9) (convW1 a4))) (convBias1 a5)
    (row2 (scaleAll a6 a9)) (row2 (shiftAll a6 a7 a8 a9)) (proj a0 a2 a3 a6 a7 a8 a9)

end Cert.Gcn.Kernel

end
-- ==== Proof.KValue.lean ====
/-
  The kernel program's result array is the network function of its argument arrays.

  Launch by launch: each launch's result array is its stage's whole-array function of the arrays the launch finds;
  those arrays are either argument arrays, row vectors computed from them, the aggregation of the previous
  feature transform, or an earlier launch's result carried unchanged. Substituting from the first launch to the
  last gives the composition `layer2`.
-/
import proofs.«144022_j16149077033381_1_alg».proof.Proof.KRegion0
import proofs.«144022_j16149077033381_1_alg».proof.Proof.KRegion1
import proofs.«144022_j16149077033381_1_alg».proof.Proof.KRegion2
import proofs.«144022_j16149077033381_1_alg».proof.Proof.KRegion3
import proofs.«144022_j16149077033381_1_alg».proof.Proof.KRegion4
import proofs.«144022_j16149077033381_1_alg».proof.Proof.KHostRows
import proofs.«144022_j16149077033381_1_alg».proof.Proof.KHostAgg
import proofs.«144022_j16149077033381_1_alg».proof.Proof.KNet

set_option maxRecDepth 16384

noncomputable section

namespace Cert.Gcn.Kernel

open Cert.KernelIdeal Cert.KernelIdeal.Gen Idealize.ShloMosaic Idealize.ShloMosaic.TcCoe Idealize.SL.Sem Cert.Gcn

variable (m : (ℓ : Loc nD τ sig) → Buf (Elt Ideal) ℓ) (ρ : Dev nD → PrngReg)

/-- The projection launch's result. -/
theorem projValue (c : Dev nD) :
    (dat0 (V1 m ρ) c).arrAt 5 cfg0.N
      = proj (m ((c : Thread nD τ).loc main_arg0)) (m ((c : Thread nD τ).loc main_arg2)) (m ((c : Thread nD τ).loc main_arg3))
          (m ((c : Thread nD τ).loc main_arg6)) (m ((c : Thread nD τ).loc main_arg7)) (m ((c : Thread nD τ).loc main_arg8)) (m ((c : Thread nD τ).loc main_arg9)) := by
  rw [result0 (V1 m ρ) c, V1_main_arg0, V1_main_arg2, V1_main_v33, V1_main_v36, V1_main_v39]
  rfl

/-- The first feature transform's result. -/
theorem feat1Value (c : Dev nD) :
    (dat1 (V3 m ρ) c).arrAt 2 cfg1.N
      = mmSpec (proj (m ((c : Thread nD τ).loc main_arg0)) (m ((c : Thread nD τ).loc main_arg2)) (m ((c : Thread nD τ).loc main_arg3))
          (m ((c : Thread nD τ).loc main_arg6)) (m ((c : Thread nD τ).loc main_arg7)) (m ((c : Thread nD τ).loc main_arg8)) (m ((c : Thread nD τ).loc main_arg9)))
        (convW0 (m ((c : Thread nD τ).loc main_arg4))) := by
  rw [result1 (V3 m ρ) c, V3_proj, V3_main_v42, projValue]

/-- The first normalisation launch's result. -/
theorem layer1Value (c : Dev nD) :
    (dat2 (V5 m ρ) c).arrAt 5 cfg2.N
      = layer1 (m ((c : Thread nD τ).loc main_arg0)) (m ((c : Thread nD τ).loc main_arg1)) (m ((c : Thread nD τ).loc main_arg2)) (m ((c : Thread nD τ).loc main_arg3))
          (m ((c : Thread nD τ).loc main_arg4)) (m ((c : Thread nD τ).loc main_arg5))
          (m ((c : Thread nD τ).loc main_arg6)) (m ((c : Thread nD τ).loc main_arg7)) (m ((c : Thread nD τ).loc main_arg8)) (m ((c : Thread nD τ).loc main_arg9)) := by
  rw [result2 (V5 m ρ) c, V5_agg, V5_proj, V5_main_v59, V5_main_v62, V5_main_v65, feat1Value, projValue]
  rfl

/-- The second feature transform's result. -/
theorem feat2Value (c : Dev nD) :
    (dat3 (V7 m ρ) c).arrAt 2 cfg3.N
      = mmSpec (layer1 (m ((c : Thread nD τ).loc main_arg0)) (m ((c : Thread nD τ).loc main_arg1)) (m ((c : Thread nD τ).loc main_arg2)) (m ((c : Thread nD τ).loc main_arg3))
          (m ((c : Thread nD τ).loc main_arg4)) (m ((c : Thread nD τ).loc main_arg5))
          (m ((c : Thread nD τ).loc main_arg6)) (m ((c : Thread nD τ).loc main_arg7)) (m ((c : Thread nD τ).loc main_arg8)) (m ((c : Thread nD τ).loc main_arg9)))
        (convW1 (m ((c : Thread nD τ).loc main_arg4))) := by
  rw [result3 (V7 m ρ) c, V7_feat, V7_main_v68, layer1Value]

/-- The program's result buffer ends at the network function of the argument arrays. -/
theorem kernel_value (c : Dev nD) :
    W10 m ρ c (Proc.devRef .tc main_v92)
      = layer2 (m ((c : Thread nD τ).loc main_arg0)) (m ((c : Thread nD τ).loc main_arg1)) (m ((c : Thread nD τ).loc main_arg2)) (m ((c : Thread nD τ).loc main_arg3))
          (m ((c : Thread nD τ).loc main_arg4)) (m ((c : Thread nD τ).loc main_arg5))
          (m ((c : Thread nD τ).loc main_arg6)) (m ((c : Thread nD τ).loc main_arg7)) (m ((c : Thread nD τ).loc main_arg8)) (m ((c : Thread nD τ).loc main_arg9)) := by
  rw [W10_result, result4 (V9 m ρ) c, V9_agg, V9_proj, V9_main_v85, V9_main_v88, V9_main_v91, feat2Value, projValue]
  rfl

end Cert.Gcn.Kernel

end
-- ==== Proof.PreReal.lean ====
/-
  The precondition, decoded: when the printed finiteness predicate holds, every entry of the four normalisation
  parameter arrays (weight, shift, running mean, running variance) is a real number, and every running variance
  is nonnegative.

  The predicate is a conjunction of `all (|a| < +∞)` per float input and a last conjunct `all (a9 ≥ 0)`.
  An extended real whose absolute value `max x (−x)` lies strictly below `⊤` is neither `⊤` nor `⊥`.
-/
import proofs.«144022_j16149077033381_1_alg».proof.Pre_finite_inputs
import proofs.«144022_j16149077033381_1_alg».proof.Proof.Gen.Pre_finite_inputs
import Idealize.ShloMosaic.Lib.ReduceAll
import Idealize.ShloMosaic.PureOps.Ideal.Laws

noncomputable section

namespace Cert.Gcn

open Idealize.ShloMosaic Cert.Pre_finite_inputs

/-- The rank-0 shape has exactly one index. -/
instance subsingleton_S_Idx : Subsingleton S_.Idx := ⟨fun a b => funext fun d => d.elim0⟩

/-- The float word `0x7F800000` denotes `+∞`. -/
theorem ofBits_inf : Ideal.ofBits .f32 0x7F800000#32 = (⊤ : EReal) := by
  simp [Ideal.ofBits, Ideal.ieee]

/-- An extended real whose absolute value is strictly below `+∞` is a real. -/
theorem real_of_abs_lt_inf (x : EReal)
    (h : Ideal.cmp .olt (max x (-x)) (Ideal.ofBits .f32 0x7F800000#32) = 1#1) : ∃ r : ℝ, x = (r : EReal) := by
  rw [ofBits_inf] at h
  induction x using EReal.rec with
  | bot => simp [Ideal.cmp] at h
  | coe r => exact ⟨r, rfl⟩
  | top => simp [Ideal.cmp] at h

/-- A real that compares `≥` against the zero word is nonnegative. -/
theorem nonneg_of_oge_zero (r : ℝ)
    (h : Ideal.cmp .oge (r : EReal) (Ideal.ofBits .f32 0x00000000#32) = 1#1) : 0 ≤ r := by
  rw [Ideal.ofBits_zero_f32] at h
  by_contra hn
  simp [Ideal.cmp, hn] at h

/-- The precondition makes the four 3×64 normalisation parameter arrays real, the last one nonnegative. -/
theorem pre_decode [Cert.Pre_finite_inputs.Facts]
    (a0 : FVec Ideal S100000x128 .f32) (a1 : IVec S2x1250000 32) (a2 : FVec Ideal S128x64 .f32)
    (a3 : FVec Ideal S64 .f32) (a4 : FVec Ideal S2x64x64 .f32) (a5 : FVec Ideal S2x64 .f32)
    (a6 a7 a8 a9 : FVec Ideal S3x64 .f32)
    (h : Cert.Pre_finite_inputs.fn (F := Ideal) a0 a1 a2 a3 a4 a5 a6 a7 a8 a9 = fun _ => 1#1) :
    (∀ i, ∃ r : ℝ, a6 i = (r : EReal)) ∧ (∀ i, ∃ r : ℝ, a7 i = (r : EReal)) ∧
      (∀ i, ∃ r : ℝ, a8 i = (r : EReal)) ∧ (∀ i, ∃ r : ℝ, a9 i = (r : EReal) ∧ 0 ≤ r) := by
  have h0 := congrFun h (fun a => a.elim0)
  dsimp only [Cert.Pre_finite_inputs.fn, Cert.Pre_finite_inputs.fn_part1, Cert.Pre_finite_inputs.fn_part2] at h0
  -- the result is a chain of `and`s; peel the last five conjuncts
  obtain ⟨h43, h46⟩ := IntOp.andi_eq_one.1 h0
  obtain ⟨h38, h42⟩ := IntOp.andi_eq_one.1 h43
  obtain ⟨h33, h37⟩ := IntOp.andi_eq_one.1 h38
  obtain ⟨h28, h32⟩ := IntOp.andi_eq_one.1 h33
  obtain ⟨-, h27⟩ := IntOp.andi_eq_one.1 h28
  have f6 : ∀ i, ∃ r : ℝ, a6 i = (r : EReal) := fun i =>
    real_of_abs_lt_inf (a6 i) (Host.reduce_andi_all _ _ _ _ _ h27 i)
  have f7 : ∀ i, ∃ r : ℝ, a7 i = (r : EReal) := fun i =>
    real_of_abs_lt_inf (a7 i) (Host.reduce_andi_all _ _ _ _ _ h32 i)
  have f8 : ∀ i, ∃ r : ℝ, a8 i = (r : EReal) := fun i =>
    real_of_abs_lt_inf (a8 i) (Host.reduce_andi_all _ _ _ _ _ h37 i)
  have f9 : ∀ i, ∃ r : ℝ, a9 i = (r : EReal) := fun i =>
    real_of_abs_lt_inf (a9 i) (Host.reduce_andi_all _ _ _ _ _ h42 i)
  refine ⟨f6, f7, f8, fun i => ?_⟩
  obtain ⟨r, hr⟩ := f9 i
  refine ⟨r, hr, nonneg_of_oge_zero r ?_⟩
  have hge := Host.reduce_andi_all _ _ _ _ _ h46 i
  rw [← hr]
  exact hge

end Cert.Gcn

end
-- ==== Proof.BnAlgebra.lean ====
/-
  Extended-real algebra for the affine form of batch normalisation.

  With a REAL scale `s`, mean `μ` and shift `β`, the folded form `z·s + (β − μ·s)` and the textbook form
  `(z − μ)·s + β` agree for EVERY extended real `z` (distributivity over a real factor survives z = ±∞).
  The scale `γ · rsqrt (v + ε)` is real as soon as the variance `v` is a nonnegative real and `ε > 0`.
-/
import Idealize.ShloMosaic.PureOps.Ideal

noncomputable section

namespace Cert.Gcn

open Idealize.ShloMosaic

/-- The folded and the textbook affine forms agree, for every extended real `z` and real `s μ β`. -/
theorem bn_fold (z : EReal) (s μ β : ℝ) :
    z * (s : EReal) + ((β : EReal) - (μ : EReal) * (s : EReal)) = (z - (μ : EReal)) * (s : EReal) + (β : EReal) := by
  -- the real part of the left side: β − μ·s is a real
  have hr : ((β : EReal) - (μ : EReal) * (s : EReal)) = ((β - μ * s : ℝ) : EReal) := by
    rw [EReal.coe_sub, EReal.coe_mul]
  induction z using EReal.rec with
  | bot =>
    -- ⊥ − μ = ⊥; then split on the sign of s
    rw [EReal.bot_sub, hr]
    rcases lt_trichotomy s 0 with hs | hs | hs
    · rw [EReal.bot_mul_coe_of_neg hs, EReal.top_add_coe, EReal.top_add_coe]
    · subst hs
      rw [EReal.coe_zero, mul_zero, zero_add, zero_add]
      simp
    · rw [EReal.bot_mul_coe_of_pos hs, EReal.bot_add, EReal.bot_add]
  | coe r =>
    -- all reals: push the coercion out and use commutative-ring algebra
    rw [hr, ← EReal.coe_sub, ← EReal.coe_mul, ← EReal.coe_mul, ← EReal.coe_add, ← EReal.coe_add]
    congr 1
    ring
  | top =>
    rw [EReal.top_sub_coe, hr]
    rcases lt_trichotomy s 0 with hs | hs | hs
    · rw [EReal.top_mul_coe_of_neg hs, EReal.bot_add, EReal.bot_add]
    · subst hs
      rw [EReal.coe_zero, mul_zero, zero_add, zero_add]
      simp
    · rw [EReal.top_mul_coe_of_pos hs, EReal.top_add_coe, EReal.top_add_coe]

/-- The float word of the normalisation's epsilon denotes a positive real. -/
theorem eps_pos : ∃ e : ℝ, 0 < e ∧ Ideal.ofBits .f32 0x3727C5AC#32 = (e : EReal) := by
  -- sign 0, exponent field 110, fraction field 2606508: the word denotes (2^23 + 2606508) · 2^(110 − 127 − 23)
  have h : Ideal.ofBits .f32 0x3727C5AC#32 = (((10995116 : ℝ) * (2 : ℝ) ^ (-40 : ℤ) : ℝ) : EReal) := by
    simp [Ideal.ofBits, Ideal.ieee, -EReal.coe_mul]
  exact ⟨_, by positivity, h⟩

/-- A real weight times the reciprocal square root of a nonnegative real variance plus epsilon is real. -/
theorem scale_real (g v : ℝ) (hv : 0 ≤ v) :
    ∃ s : ℝ, (g : EReal) * Ideal.rsqrt ((v : EReal) + Ideal.ofBits .f32 0x3727C5AC#32) = (s : EReal) := by
  obtain ⟨e, he, hE⟩ := eps_pos
  have hpos : 0 < v + e := by linarith
  refine ⟨g * (Real.sqrt (v + e))⁻¹, ?_⟩
  rw [hE, ← EReal.coe_add, Ideal.rsqrt_coe, if_neg (not_lt.mpr hpos.le), if_neg hpos.ne', ← EReal.coe_mul]

end Cert.Gcn

end
-- ==== Proof.RefStages.lean ====
/-
  The dense stages of the reference program, read index by index, are the whole-array specifications of Spec.lean.
-/
import proofs.«144022_j16149077033381_1_alg».proof.Proof.Gen.ReferenceIdeal.Read
import proofs.«144022_j16149077033381_1_alg».proof.Proof.Spec
import proofs.«144022_j16149077033381_1_alg».proof.Proof.BnAlgebra

noncomputable section

namespace Cert.Gcn.Ref

open Cert.ReferenceIdeal Cert.ReferenceIdeal.Read Idealize.ShloMosaic Idealize.ShloMosaic.ValueIdx Cert.Gcn

/-- The normalisation's epsilon, kept as its float word. -/
abbrev eps : EReal := Ideal.ofBits .f32 0x3727C5AC#32

/-- The first feature transform of the reference is `mmSpec` of its first stage with the first 64×64 weight slab. -/
theorem ref_mm1 (x0 : (⟨S100000x128, .f32⟩ : BufTy).Contents (Elt Ideal)) (x2 : (⟨S128x64, .f32⟩ : BufTy).Contents (Elt Ideal)) (x3 : (⟨S64, .f32⟩ : BufTy).Contents (Elt Ideal)) (x4 : (⟨S2x64x64, .f32⟩ : BufTy).Contents (Elt Ideal)) (x6 x7 x8 x9 : (⟨S3x64, .f32⟩ : BufTy).Contents (Elt Ideal))
    (w : (Sh 64 64).Idx → EReal)
    (hw : ∀ k j : Fin 64, w (ix2 k j) = x4 (ix3 0 k j)) :
    val_main_v55 (F := Ideal) x0 x2 x3 x4 x6 x7 x8 x9 = mmSpec (val_main_v52 (F := Ideal) x0 x2 x3 x6 x7 x8 x9) w := by
  funext i
  obtain ⟨p, q, rfl⟩ : ∃ (p : Fin 100000) (q : Fin 64), i = ix2 p q := ⟨i 0, i 1, eq_ix2 i⟩
  rw [val_main_v55_apply]
  unfold mmSpec
  refine Finset.sum_congr rfl fun k _ => ?_
  rw [val_main_v54_apply, val_main_v53_apply, hw]
  have e1 : lidx_main_v55 (ix2 p q) k = ix2 (ix2 p q 0) k :=
    funext fun a => Fin.ext (by match a with | ⟨0, _⟩ => rfl | ⟨1, _⟩ => rfl)
  have e2 : idx_main_v53 (idx_main_v54 (ridx_main_v55 (ix2 p q) k)) = ix3 0 k q :=
    funext fun a => Fin.ext (by
      match a with
      | ⟨0, _⟩ => rfl
      | ⟨1, _⟩ => show (k.val * 64 + q.val) / 64 % 64 = k.val; omega
      | ⟨2, _⟩ => show (k.val * 64 + q.val) % 64 = q.val; omega)
  rw [e1, e2]
  rfl

/-- The reference's first stage, `max ((x·w + b − μ)·s + β) 0` with `s = γ·rsqrt(v + ε)`, is `fcSpec` with the folded scale and shift; the two affine forms agree because `s`, `μ`, `β` are real. -/
theorem ref_fc (x0 : (⟨S100000x128, .f32⟩ : BufTy).Contents (Elt Ideal)) (x2 : (⟨S128x64, .f32⟩ : BufTy).Contents (Elt Ideal)) (x3 : (⟨S64, .f32⟩ : BufTy).Contents (Elt Ideal)) (x6 x7 x8 x9 : (⟨S3x64, .f32⟩ : BufTy).Contents (Elt Ideal))
    (b sc sh : (Sh 1 64).Idx → EReal)
    (hb : ∀ j : Fin 64, b (ix2 0 j) = x3 (ix1 j))
    (hsc : ∀ j : Fin 64, sc (ix2 0 j) = x6 (ix2 0 j) * Ideal.rsqrt (x9 (ix2 0 j) + eps))
    (hsh : ∀ j : Fin 64, sh (ix2 0 j) = x7 (ix2 0 j) - x8 (ix2 0 j) * (x6 (ix2 0 j) * Ideal.rsqrt (x9 (ix2 0 j) + eps)))
    (hs : ∀ j : Fin 64, ∃ r : ℝ, x6 (ix2 0 j) * Ideal.rsqrt (x9 (ix2 0 j) + eps) = (r : EReal))
    (hμ : ∀ j : Fin 64, ∃ r : ℝ, x8 (ix2 0 j) = (r : EReal))
    (hβ : ∀ j : Fin 64, ∃ r : ℝ, x7 (ix2 0 j) = (r : EReal)) :
    val_main_v52 (F := Ideal) x0 x2 x3 x6 x7 x8 x9 = fcSpec x0 x2 b sc sh := by
  funext i
  obtain ⟨p, q, rfl⟩ : ∃ (p : Fin 100000) (q : Fin 64), i = ix2 p q := ⟨i 0, i 1, eq_ix2 i⟩
  simp only [val_main_v52_apply, val_main_v51_apply, val_main_v46_apply, val_main_v35_apply, val_main_v30_apply,
    val_main_v27_apply, val_main_v29_apply, val_main_v28_apply, val_main_v34_apply, val_main_v33_apply,
    val_main_v32_apply, val_main_v31_apply, val_main_v45_apply, val_main_v44_apply, val_main_v43_apply,
    val_main_v37_apply, val_main_v36_apply, val_main_v42_apply, val_main_v41_apply, val_main_v39_apply,
    val_main_v38_apply, val_main_v40_apply, val_main_cst_4_apply, val_main_v50_apply, val_main_v49_apply,
    val_main_v48_apply, val_main_v47_apply, val_main_call0_v0_apply, val_main_call0_cst_apply,
    Ideal.maximumf_def, Ideal.addf_def, Ideal.subf_def, Ideal.mulf_def, Ideal.hostUnary_rsqrt_def, Ideal.ofBits_def]

  have e1 : ∀ k : Fin 128, lidx_main_v27 (ix2 p q) k = ix2 (ix2 p q 0) k := fun k =>
    funext fun a => Fin.ext (by match a with | ⟨0, _⟩ => rfl | ⟨1, _⟩ => rfl)
  have e2 : ∀ k : Fin 128, ridx_main_v27 (ix2 p q) k = ix2 k (ix2 p q 1) := fun k =>
    funext fun a => Fin.ext (by match a with | ⟨0, _⟩ => rfl | ⟨1, _⟩ => rfl)
  have e3 : idx_main_v28 (idx_main_v29 (ix2 p q)) = ix1 q :=
    funext fun a => Fin.ext (by match a with | ⟨0, _⟩ => rfl)
  have e8 : idx_main_v31 (idx_main_v32 (idx_main_v33 (idx_main_v34 (ix2 p q)))) = ix2 0 q :=
    funext fun a => Fin.ext (by
      match a with
      | ⟨0, _⟩ => rfl
      | ⟨1, _⟩ => show q.val % 64 = q.val; omega)
  have e6 : idx_main_v36 (idx_main_v37 (idx_main_v44 (idx_main_v45 (ix2 p q)))) = ix2 0 q :=
    funext fun a => Fin.ext (by
      match a with
      | ⟨0, _⟩ => rfl
      | ⟨1, _⟩ => show q.val % 64 = q.val; omega)
  have e9 : idx_main_v38 (idx_main_v39 (idx_main_v44 (idx_main_v45 (ix2 p q)))) = ix2 0 q :=
    funext fun a => Fin.ext (by
      match a with
      | ⟨0, _⟩ => rfl
      | ⟨1, _⟩ => show q.val % 64 = q.val; omega)
  have e7 : idx_main_v47 (idx_main_v48 (idx_main_v49 (idx_main_v50 (ix2 p q)))) = ix2 0 q :=
    funext fun a => Fin.ext (by
      match a with
      | ⟨0, _⟩ => rfl
      | ⟨1, _⟩ => show q.val % 64 = q.val; omega)
  simp only [e1, e2, e3, e8, e6, e9, e7]
  unfold fcSpec
  obtain ⟨s, hs'⟩ := hs q
  obtain ⟨μ, hμ'⟩ := hμ q
  obtain ⟨β, hβ'⟩ := hβ q
  rw [hb, hsc, hsh]
  rw [hs', hμ', hβ', bn_fold]
  rfl

/-- Bias, normalisation (row 1), rectifier and residual after the first aggregation: `bnResSpec` of the aggregate, which stays an opaque array. -/
theorem ref_layer1 (x0 : (⟨S100000x128, .f32⟩ : BufTy).Contents (Elt Ideal)) (x1 : (⟨S2x1250000, .i32⟩ : BufTy).Contents (Elt Ideal)) (x2 : (⟨S128x64, .f32⟩ : BufTy).Contents (Elt Ideal)) (x3 : (⟨S64, .f32⟩ : BufTy).Contents (Elt Ideal)) (x4 : (⟨S2x64x64, .f32⟩ : BufTy).Contents (Elt Ideal)) (x5 : (⟨S2x64, .f32⟩ : BufTy).Contents (Elt Ideal)) (x6 x7 x8 x9 : (⟨S3x64, .f32⟩ : BufTy).Contents (Elt Ideal))
    (b sc sh : (Sh 1 64).Idx → EReal)
    (hb : ∀ j : Fin 64, b (ix2 0 j) = x5 (ix2 0 j))
    (hsc : ∀ j : Fin 64, sc (ix2 0 j) = x6 (ix2 1 j) * Ideal.rsqrt (x9 (ix2 1 j) + eps))
    (hsh : ∀ j : Fin 64, sh (ix2 0 j) = x7 (ix2 1 j) - x8 (ix2 1 j) * (x6 (ix2 1 j) * Ideal.rsqrt (x9 (ix2 1 j) + eps)))
    (hs : ∀ j : Fin 64, ∃ r : ℝ, x6 (ix2 1 j) * Ideal.rsqrt (x9 (ix2 1 j) + eps) = (r : EReal))
    (hμ : ∀ j : Fin 64, ∃ r : ℝ, x8 (ix2 1 j) = (r : EReal))
    (hβ : ∀ j : Fin 64, ∃ r : ℝ, x7 (ix2 1 j) = (r : EReal)) :
    val_main_v96 (F := Ideal) x0 x1 x2 x3 x4 x5 x6 x7 x8 x9 =
      bnResSpec (val_main_v68 (F := Ideal) x0 x1 x2 x3 x4 x6 x7 x8 x9) b sc sh (val_main_v52 (F := Ideal) x0 x2 x3 x6 x7 x8 x9) := by
  funext i
  obtain ⟨p, q, rfl⟩ : ∃ (p : Fin 100000) (q : Fin 64), i = ix2 p q := ⟨i 0, i 1, eq_ix2 i⟩
  unfold bnResSpec
  rw [val_main_v96_apply, val_main_v95_apply, val_main_v94_apply, val_main_v89_apply, val_main_v78_apply, val_main_v73_apply]
  generalize val_main_v68 (F := Ideal) x0 x1 x2 x3 x4 x6 x7 x8 x9 (ix2 p q) = z
  generalize val_main_v52 (F := Ideal) x0 x2 x3 x6 x7 x8 x9 (ix2 p q) = l
  simp only [val_main_v72_apply, val_main_v71_apply, val_main_v70_apply, val_main_v69_apply, val_main_v77_apply, val_main_v76_apply,
    val_main_v75_apply, val_main_v74_apply, val_main_v88_apply, val_main_v87_apply, val_main_v86_apply, val_main_v80_apply,
    val_main_v79_apply, val_main_v85_apply, val_main_v84_apply, val_main_v82_apply, val_main_v81_apply, val_main_v83_apply,
    val_main_cst_8_apply, val_main_v93_apply, val_main_v92_apply, val_main_v91_apply, val_main_v90_apply,
    val_main_call1_v0_apply, val_main_call1_cst_apply,
    Ideal.maximumf_def, Ideal.addf_def, Ideal.subf_def, Ideal.mulf_def, Ideal.hostUnary_rsqrt_def, Ideal.ofBits_def]
  have e5 : idx_main_v69 (idx_main_v70 (idx_main_v71 (idx_main_v72 (ix2 p q)))) = ix2 0 q :=
    funext fun a => Fin.ext (by
      match a with
      | ⟨0, _⟩ => rfl
      | ⟨1, _⟩ => show q.val % 64 = q.val; omega)
  have e8 : idx_main_v74 (idx_main_v75 (idx_main_v76 (idx_main_v77 (ix2 p q)))) = ix2 1 q :=
    funext fun a => Fin.ext (by
      match a with
      | ⟨0, _⟩ => rfl
      | ⟨1, _⟩ => show q.val % 64 = q.val; omega)
  have e6 : idx_main_v79 (idx_main_v80 (idx_main_v87 (idx_main_v88 (ix2 p q)))) = ix2 1 q :=
    funext fun a => Fin.ext (by
      match a with
      | ⟨0, _⟩ => rfl
      | ⟨1, _⟩ => show q.val % 64 = q.val; omega)
  have e9 : idx_main_v81 (idx_main_v82 (idx_main_v87 (idx_main_v88 (ix2 p q)))) = ix2 1 q :=
    funext fun a => Fin.ext (by
      match a with
      | ⟨0, _⟩ => rfl
      | ⟨1, _⟩ => show q.val % 64 = q.val; omega)
  have e7 : idx_main_v90 (idx_main_v91 (idx_main_v92 (idx_main_v93 (ix2 p q)))) = ix2 1 q :=
    funext fun a => Fin.ext (by
      match a with
      | ⟨0, _⟩ => rfl
      | ⟨1, _⟩ => show q.val % 64 = q.val; omega)
  simp only [e5, e8, e6, e9, e7]
  obtain ⟨s, hs'⟩ := hs q
  obtain ⟨μ, hμ'⟩ := hμ q
  obtain ⟨β, hβ'⟩ := hβ q
  rw [hb, hsc, hsh]
  rw [hs', hμ', hβ', bn_fold]

/-- The second feature transform of the reference is `mmSpec` of the first layer's output with the second weight slab. -/
theorem ref_mm2 (x0 : (⟨S100000x128, .f32⟩ : BufTy).Contents (Elt Ideal)) (x1 : (⟨S2x1250000, .i32⟩ : BufTy).Contents (Elt Ideal)) (x2 : (⟨S128x64, .f32⟩ : BufTy).Contents (Elt Ideal)) (x3 : (⟨S64, .f32⟩ : BufTy).Contents (Elt Ideal)) (x4 : (⟨S2x64x64, .f32⟩ : BufTy).Contents (Elt Ideal)) (x5 : (⟨S2x64, .f32⟩ : BufTy).Contents (Elt Ideal)) (x6 x7 x8 x9 : (⟨S3x64, .f32⟩ : BufTy).Contents (Elt Ideal))
    (w : (Sh 64 64).Idx → EReal)
    (hw : ∀ k j : Fin 64, w (ix2 k j) = x4 (ix3 1 k j)) :
    val_main_v99 (F := Ideal) x0 x1 x2 x3 x4 x5 x6 x7 x8 x9 = mmSpec (val_main_v96 (F := Ideal) x0 x1 x2 x3 x4 x5 x6 x7 x8 x9) w := by
  funext i
  obtain ⟨p, q, rfl⟩ : ∃ (p : Fin 100000) (q : Fin 64), i = ix2 p q := ⟨i 0, i 1, eq_ix2 i⟩
  rw [val_main_v99_apply]
  unfold mmSpec
  refine Finset.sum_congr rfl fun k _ => ?_
  rw [val_main_v98_apply, val_main_v97_apply, hw]
  have e1 : lidx_main_v99 (ix2 p q) k = ix2 (ix2 p q 0) k :=
    funext fun a => Fin.ext (by match a with | ⟨0, _⟩ => rfl | ⟨1, _⟩ => rfl)
  have e2 : idx_main_v97 (idx_main_v98 (ridx_main_v99 (ix2 p q) k)) = ix3 1 k q :=
    funext fun a => Fin.ext (by
      match a with
      | ⟨0, _⟩ => rfl
      | ⟨1, _⟩ => show (k.val * 64 + q.val) / 64 % 64 = k.val; omega
      | ⟨2, _⟩ => show (k.val * 64 + q.val) % 64 = q.val; omega)
  rw [e1, e2]
  rfl

/-- Bias, normalisation (row 2), rectifier and residual after the second aggregation. -/
theorem ref_layer2 (x0 : (⟨S100000x128, .f32⟩ : BufTy).Contents (Elt Ideal)) (x1 : (⟨S2x1250000, .i32⟩ : BufTy).Contents (Elt Ideal)) (x2 : (⟨S128x64, .f32⟩ : BufTy).Contents (Elt Ideal)) (x3 : (⟨S64, .f32⟩ : BufTy).Contents (Elt Ideal)) (x4 : (⟨S2x64x64, .f32⟩ : BufTy).Contents (Elt Ideal)) (x5 : (⟨S2x64, .f32⟩ : BufTy).Contents (Elt Ideal)) (x6 x7 x8 x9 : (⟨S3x64, .f32⟩ : BufTy).Contents (Elt Ideal))
    (b sc sh : (Sh 1 64).Idx → EReal)
    (hb : ∀ j : Fin 64, b (ix2 0 j) = x5 (ix2 1 j))
    (hsc : ∀ j : Fin 64, sc (ix2 0 j) = x6 (ix2 2 j) * Ideal.rsqrt (x9 (ix2 2 j) + eps))
    (hsh : ∀ j : Fin 64, sh (ix2 0 j) = x7 (ix2 2 j) - x8 (ix2 2 j) * (x6 (ix2 2 j) * Ideal.rsqrt (x9 (ix2 2 j) + eps)))
    (hs : ∀ j : Fin 64, ∃ r : ℝ, x6 (ix2 2 j) * Ideal.rsqrt (x9 (ix2 2 j) + eps) = (r : EReal))
    (hμ : ∀ j : Fin 64, ∃ r : ℝ, x8 (ix2 2 j) = (r : EReal))
    (hβ : ∀ j : Fin 64, ∃ r : ℝ, x7 (ix2 2 j) = (r : EReal)) :
    val_main_v140 (F := Ideal) x0 x1 x2 x3 x4 x5 x6 x7 x8 x9 =
      bnResSpec (val_main_v112 (F := Ideal) x0 x1 x2 x3 x4 x5 x6 x7 x8 x9) b sc sh (val_main_v52 (F := Ideal) x0 x2 x3 x6 x7 x8 x9) := by
  funext i
  obtain ⟨p, q, rfl⟩ : ∃ (p : Fin 100000) (q : Fin 64), i = ix2 p q := ⟨i 0, i 1, eq_ix2 i⟩
  unfold bnResSpec
  rw [val_main_v140_apply, val_main_v139_apply, val_main_v138_apply, val_main_v133_apply, val_main_v122_apply, val_main_v117_apply]
  generalize val_main_v112 (F := Ideal) x0 x1 x2 x3 x4 x5 x6 x7 x8 x9 (ix2 p q) = z
  generalize val_main_v52 (F := Ideal) x0 x2 x3 x6 x7 x8 x9 (ix2 p q) = l
  simp only [val_main_v116_apply, val_main_v115_apply, val_main_v114_apply, val_main_v113_apply, val_main_v121_apply, val_main_v120_apply,
    val_main_v119_apply, val_main_v118_apply, val_main_v132_apply, val_main_v131_apply, val_main_v130_apply, val_main_v124_apply,
    val_main_v123_apply, val_main_v129_apply, val_main_v128_apply, val_main_v126_apply, val_main_v125_apply, val_main_v127_apply,
    val_main_cst_12_apply, val_main_v137_apply, val_main_v136_apply, val_main_v135_apply, val_main_v134_apply,
    val_main_call2_v0_apply, val_main_call2_cst_apply,
    Ideal.maximumf_def, Ideal.addf_def, Ideal.subf_def, Ideal.mulf_def, Ideal.hostUnary_rsqrt_def, Ideal.ofBits_def]
  have e5 : idx_main_v113 (idx_main_v114 (idx_main_v115 (idx_main_v116 (ix2 p q)))) = ix2 1 q :=
    funext fun a => Fin.ext (by
      match a with
      | ⟨0, _⟩ => rfl
      | ⟨1, _⟩ => show q.val % 64 = q.val; omega)
  have e8 : idx_main_v118 (idx_main_v119 (idx_main_v120 (idx_main_v121 (ix2 p q)))) = ix2 2 q :=
    funext fun a => Fin.ext (by
      match a with
      | ⟨0, _⟩ => rfl
      | ⟨1, _⟩ => show q.val % 64 = q.val; omega)
  have e6 : idx_main_v123 (idx_main_v124 (idx_main_v131 (idx_main_v132 (ix2 p q)))) = ix2 2 q :=
    funext fun a => Fin.ext (by
      match a with
      | ⟨0, _⟩ => rfl
      | ⟨1, _⟩ => show q.val % 64 = q.val; omega)
  have e9 : idx_main_v125 (idx_main_v126 (idx_main_v131 (idx_main_v132 (ix2 p q)))) = ix2 2 q :=
    funext fun a => Fin.ext (by
      match a with
      | ⟨0, _⟩ => rfl
      | ⟨1, _⟩ => show q.val % 64 = q.val; omega)
  have e7 : idx_main_v134 (idx_main_v135 (idx_main_v136 (idx_main_v137 (ix2 p q)))) = ix2 2 q :=
    funext fun a => Fin.ext (by
      match a with
      | ⟨0, _⟩ => rfl
      | ⟨1, _⟩ => show q.val % 64 = q.val; omega)
  simp only [e5, e8, e6, e9, e7]
  obtain ⟨s, hs'⟩ := hs q
  obtain ⟨μ, hμ'⟩ := hμ q
  obtain ⟨β, hβ'⟩ := hβ q
  rw [hb, hsc, hsh]
  rw [hs', hμ', hβ', bn_fold]

end Cert.Gcn.Ref

end
-- ==== Proof.RefNet.lean ====
/-
  The reference program's result is the network function of KNet.lean, once the normalisation parameters are real
  and the variances nonnegative: its seven dense and aggregation stages are rewritten one after the other.
-/
import proofs.«144022_j16149077033381_1_alg».proof.Proof.RefStages
import proofs.«144022_j16149077033381_1_alg».proof.Proof.KNet
import proofs.«144022_j16149077033381_1_alg».proof.Proof.KHostRows
import proofs.«144022_j16149077033381_1_alg».proof.Proof.KHostAgg
import proofs.«144022_j16149077033381_1_alg».proof.Proof.BnAlgebra

noncomputable section

namespace Cert.Gcn.Ref

open Cert.ReferenceIdeal Cert.ReferenceIdeal.Read Idealize.ShloMosaic Idealize.ShloMosaic.ValueIdx Cert.Gcn Cert.Gcn.Kernel

/-- With real normalisation parameters and nonnegative variances, the reference's result is the second layer of the network function. -/
theorem ref_eq_net (x0 : (⟨S100000x128, .f32⟩ : BufTy).Contents (Elt Ideal)) (x1 : (⟨S2x1250000, .i32⟩ : BufTy).Contents (Elt Ideal)) (x2 : (⟨S128x64, .f32⟩ : BufTy).Contents (Elt Ideal)) (x3 : (⟨S64, .f32⟩ : BufTy).Contents (Elt Ideal)) (x4 : (⟨S2x64x64, .f32⟩ : BufTy).Contents (Elt Ideal)) (x5 : (⟨S2x64, .f32⟩ : BufTy).Contents (Elt Ideal)) (x6 x7 x8 x9 : (⟨S3x64, .f32⟩ : BufTy).Contents (Elt Ideal))
    (h6 : ∀ i, ∃ r : ℝ, x6 i = (r : EReal)) (h7 : ∀ i, ∃ r : ℝ, x7 i = (r : EReal))
    (h8 : ∀ i, ∃ r : ℝ, x8 i = (r : EReal)) (h9 : ∀ i, ∃ r : ℝ, x9 i = (r : EReal) ∧ 0 ≤ r) :
    val_main_v140 (F := Ideal) x0 x1 x2 x3 x4 x5 x6 x7 x8 x9 = layer2 x0 x1 x2 x3 x4 x5 x6 x7 x8 x9 := by
  -- the scale of every layer is real
  have hs : ∀ (r : Fin 3) (j : Fin 64), ∃ s : ℝ, x6 (ix2 r j) * Ideal.rsqrt (x9 (ix2 r j) + eps) = (s : EReal) := by
    intro r j
    obtain ⟨g, hg⟩ := h6 (ix2 r j)
    obtain ⟨v, hv, hv0⟩ := h9 (ix2 r j)
    rw [hg, hv]
    exact scale_real g v hv0
  have e52 : val_main_v52 (F := Ideal) x0 x2 x3 x6 x7 x8 x9 = proj x0 x2 x3 x6 x7 x8 x9 :=
    ref_fc x0 x2 x3 x6 x7 x8 x9 (biasRow x3) (row0 (scaleAll x6 x9)) (row0 (shiftAll x6 x7 x8 x9))
      (biasRow_apply x3) (fun j => by rw [row0_apply, scaleAll_apply]) (fun j => by rw [row0_apply, shiftAll_apply])
      (hs 0) (fun j => h8 _) (fun j => h7 _)
  have e55 : val_main_v55 (F := Ideal) x0 x2 x3 x4 x6 x7 x8 x9 = mmSpec (proj x0 x2 x3 x6 x7 x8 x9) (convW0 x4) :=
    (ref_mm1 x0 x2 x3 x4 x6 x7 x8 x9 (convW0 x4) (convW0_apply x4)).trans (by rw [e52])
  have e68 : val_main_v68 (F := Ideal) x0 x1 x2 x3 x4 x6 x7 x8 x9
      = aggregate x1 (mmSpec (proj x0 x2 x3 x6 x7 x8 x9) (convW0 x4)) :=
    (ref_agg1 x0 x1 x2 x3 x4 x6 x7 x8 x9).trans (by rw [e55])
  have e96 : val_main_v96 (F := Ideal) x0 x1 x2 x3 x4 x5 x6 x7 x8 x9 = layer1 x0 x1 x2 x3 x4 x5 x6 x7 x8 x9 :=
    (ref_layer1 x0 x1 x2 x3 x4 x5 x6 x7 x8 x9 (convBias0 x5) (row1 (scaleAll x6 x9)) (row1 (shiftAll x6 x7 x8 x9))
      (convBias0_apply x5) (fun j => by rw [row1_apply, scaleAll_apply]) (fun j => by rw [row1_apply, shiftAll_apply])
      (hs 1) (fun j => h8 _) (fun j => h7 _)).trans (by rw [e68, e52]; rfl)
  have e99 : val_main_v99 (F := Ideal) x0 x1 x2 x3 x4 x5 x6 x7 x8 x9
      = mmSpec (layer1 x0 x1 x2 x3 x4 x5 x6 x7 x8 x9) (convW1 x4) :=
    (ref_mm2 x0 x1 x2 x3 x4 x5 x6 x7 x8 x9 (convW1 x4) (convW1_apply x4)).trans (by rw [e96])
  have e112 : val_main_v112 (F := Ideal) x0 x1 x2 x3 x4 x5 x6 x7 x8 x9
      = aggregate x1 (mmSpec (layer1 x0 x1 x2 x3 x4 x5 x6 x7 x8 x9) (convW1 x4)) :=
    (ref_agg2 x0 x1 x2 x3 x4 x5 x6 x7 x8 x9).trans (by rw [e99])
  exact (ref_layer2 x0 x1 x2 x3 x4 x5 x6 x7 x8 x9 (convBias1 x5) (row2 (scaleAll x6 x9)) (row2 (shiftAll x6 x7 x8 x9))
      (convBias1_apply x5) (fun j => by rw [row2_apply, scaleAll_apply]) (fun j => by rw [row2_apply, shiftAll_apply])
      (hs 2) (fun j => h8 _) (fun j => h7 _)).trans (by rw [e112, e52]; rfl)

end Cert.Gcn.Ref

end
-- ==== Proof.lean ====
/-
  The certificate of a two-layer graph convolutional network with residuals: a kernel program of five launches
  (projection, feature transform, normalisation, feature transform, normalisation) against its plain reference.

  At the extended reals both programs compute, on the same ten argument arrays,

      proj   = max (bn₀ (x·W + b)) 0
      layerₖ = max (bnₖ (aggregate (hₖ₋₁·Wₖ) + bₖ)) 0 + proj          (k = 1, 2)

  with the SAME message passing `aggregate` (gather at the sources, scale by the symmetric degree coefficient,
  scatter-add at the destinations) applied to equal features, and equal matrix products (a change of float
  format is the identity here, and a product into a zero accumulator is the plain sum). They differ in one
  place: the reference normalises as `(z − μ)·s + β`, the kernel in the affine form `z·s + (β − μ·s)` with
  `s = γ·rsqrt(v + ε)` computed once. The two agree for every extended real `z` as soon as `s`, `μ`, `β` are
  real, and `s` is real when the running variance `v` is a nonnegative real; that is what the precondition
  (finite inputs, nonnegative variance) provides, and the only place it is used.

  The three frames: the two kernel programs' by the generated frame certificates, the reference's by its
  generated run with the result dropped. The idealisation rewrote nothing, so `preserves` is trivial.
-/
import proofs.«144022_j16149077033381_1_alg».proof.Defs
import proofs.«144022_j16149077033381_1_alg».proof.Proof.Gen.Kernel
import proofs.«144022_j16149077033381_1_alg».proof.Proof.Gen.Kernel.Skeleton
import proofs.«144022_j16149077033381_1_alg».proof.Proof.Gen.Kernel.Launch
import proofs.«144022_j16149077033381_1_alg».proof.Proof.Gen.Kernel.Points
import proofs.«144022_j16149077033381_1_alg».proof.Proof.Gen.Kernel.Frame
import proofs.«144022_j16149077033381_1_alg».proof.Proof.Gen.KernelIdeal
import proofs.«144022_j16149077033381_1_alg».proof.Proof.Gen.KernelIdeal.Skeleton
import proofs.«144022_j16149077033381_1_alg».proof.Proof.Gen.KernelIdeal.Launch
import proofs.«144022_j16149077033381_1_alg».proof.Proof.Gen.KernelIdeal.Points
import proofs.«144022_j16149077033381_1_alg».proof.Proof.Gen.KernelIdeal.Frame
import proofs.«144022_j16149077033381_1_alg».proof.Proof.Gen.ReferenceIdeal
import proofs.«144022_j16149077033381_1_alg».proof.Proof.Gen.Pre_finite_inputs
import proofs.«144022_j16149077033381_1_alg».proof.Proof.Gen.ReferenceIdeal.Run
import proofs.«144022_j16149077033381_1_alg».proof.Proof.Gen.ReferenceIdeal.Read
import proofs.«144022_j16149077033381_1_alg».proof.Proof.KRun
import proofs.«144022_j16149077033381_1_alg».proof.Proof.KValue
import proofs.«144022_j16149077033381_1_alg».proof.Proof.PreReal
import proofs.«144022_j16149077033381_1_alg».proof.Proof.RefNet
import Idealize.ShloMosaic.Adequacy
import Idealize.ShloMosaic.Init

set_option maxRecDepth 16384

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference is a host program: its generated run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end with the network function of the (agreeing) argument arrays: the kernel by its launches'
    whole-array values composed along its run, the reference by its stages read index by index, the affine and
    the textbook normalisation identified under the decoded precondition. -/
theorem algebraic : Cert.algebraic_KernelIdeal_ReferenceIdeal := by
  intro m ρ m' ρ' hpre hagree
  refine ⟨fun c => Cert.Gcn.Kernel.layer2 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)), ?_, ?_⟩
  · exact (θ_run Cert.KernelIdeal.defs _ _).mono
      (fun r h c => ⟨(h c).1.trans (Cert.Gcn.Kernel.kernel_value m ρ c), (h c).2⟩) (Cert.Gcn.Kernel.run_value m ρ)
  · refine (θ_run Cert.ReferenceIdeal.defs _ _).mono (fun r h c => ⟨(h c).1.trans ?_, (h c).2⟩)
      (Cert.ReferenceIdeal.Value.run (F := Ideal) m' ρ')
    obtain ⟨e0, e1, e2, e3, e4, e5, e6, e7, e8, e9⟩ := hagree c
    obtain ⟨h6, h7, h8, h9⟩ := Cert.Gcn.pre_decode _ _ _ _ _ _ _ _ _ _ (hpre c)
    rw [Cert.ReferenceIdeal.Read.val_main_v140_eq, e0, e1, e2, e3, e4, e5, e6, e7, e8, e9]
    exact Cert.Gcn.Ref.ref_eq_net _ _ _ _ _ _ _ _ _ _ h6 h7 h8 h9

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
